-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x256 : Shape := ⟨2, ![256, 256]⟩
abbrev S256x1 : Shape := ⟨2, ![256, 1]⟩
abbrev S2x262144 : Shape := ⟨2, ![2, 262144]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : FVec F S8192x256 .f32) (main_arg1 : FVec F S256x256 .f32) (main_arg2 : FVec F S256x1 .f32) (main_arg3 : IVec S2x262144 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x1 .f32 := Host.absf main_arg2
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  main_v13
-- ==== Kernel.lean ====
abbrev S8192x256 : Shape := ⟨2, ![8192, 256]⟩
abbrev S256x256 : Shape := ⟨2, ![256, 256]⟩
abbrev S256x1 : Shape := ⟨2, ![256, 1]⟩
abbrev S2x262144 : Shape := ⟨2, ![2, 262144]⟩
abbrev S_ : Shape := ⟨0, ![]⟩
abbrev S8192x8192 : Shape := ⟨2, ![8192, 8192]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S1024x256 : Shape := ⟨2, ![1024, 256]⟩
abbrev S1x8192 : Shape := ⟨2, ![1, 8192]⟩
abbrev S256x8192 : Shape := ⟨2, ![256, 8192]⟩
abbrev S8192 : Shape := ⟨1, ![8192]⟩
abbrev S8192x1 : Shape := ⟨2, ![8192, 1]⟩
abbrev S1x256 : Shape := ⟨2, ![1, 256]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 35
  | .vmem => 21
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256x1, .f32⟩
  | .hbm, ⟨3, _⟩ => ⟨S2x262144, .i32⟩
  | .hbm, ⟨4, _⟩ => ⟨S_, .f32⟩
  | .hbm, ⟨5, _⟩ => ⟨S8192x8192, .f32⟩
  | .hbm, ⟨6, _⟩ => ⟨S1x262144, .i32⟩
  | .hbm, ⟨7, _⟩ => ⟨S262144, .i32⟩
  | .hbm, ⟨8, _⟩ => ⟨S1x262144, .i32⟩
  | .hbm, ⟨9, _⟩ => ⟨S262144, .i32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .f32⟩
  | .hbm, ⟨28, _⟩ => ⟨S262144, .f32⟩
  | .hbm, ⟨29, _⟩ => ⟨S8192x8192, .f32⟩
  | .hbm, ⟨30, _⟩ => ⟨S8192x256, .f32⟩
  | .hbm, ⟨31, _⟩ => ⟨S1x8192, .f32⟩
  | .hbm, ⟨32, _⟩ => ⟨S8192x1, .f32⟩
  | .hbm, ⟨33, _⟩ => ⟨S1x256, .f32⟩
  | .hbm, ⟨34, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S1024x256, .f32⟩
  | .local _ .vmem, ⟨4, _⟩ => ⟨S1024x256, .f32⟩
  | .local _ .vmem, ⟨5, _⟩ => ⟨S256x8192, .f32⟩
  | .local _ .vmem, ⟨6, _⟩ => ⟨S256x8192, .f32⟩
  | .local _ .vmem, ⟨7, _⟩ => ⟨S1x8192, .f32⟩
  | .local _ .vmem, ⟨8, _⟩ => ⟨S1x8192, .f32⟩
  | .local _ .vmem, ⟨9, _⟩ => ⟨S1024x1024, .f32⟩
  | .local _ .vmem, ⟨10, _⟩ => ⟨S1024x1024, .f32⟩
  | .local _ .vmem, ⟨11, _⟩ => ⟨S1024x256, .f32⟩
  | .local _ .vmem, ⟨12, _⟩ => ⟨S1024x256, .f32⟩
  | .local _ .vmem, ⟨13, _⟩ => ⟨S1024x1, .f32⟩
  | .local _ .vmem, ⟨14, _⟩ => ⟨S1024x1, .f32⟩
  | .local _ .vmem, ⟨15, _⟩ => ⟨S1x1024, .f32⟩
  | .local _ .vmem, ⟨16, _⟩ => ⟨S1x1024, .f32⟩
  | .local _ .vmem, ⟨17, _⟩ => ⟨S1x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_scratch0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem5_0 : DmaSem sig := 17
abbrev cc2_sem5_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v12 : BitVec 1 := Scalar.cmpi .eq arg0 c31_i32
  let v13 : BitVec 32 := Scalar.extui v12
  let c0_i32_6 : BitVec 32 := 0#32
  let v14 : BitVec 1 := Scalar.cmpi .ne v13 c0_i32_6
  v14

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_13 : BitVec 32 := 0#32
  let v34 : BitVec 1 := Scalar.cmpi .ne v33 c0_i32_13
  v34

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1024x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  reduces_S256x8192_S8192 : S256x8192.Reduces [0] S8192
  shapeCasts_S8192_S1x8192 : S8192.ShapeCasts S1x8192
  shapeCasts_S1x8192_S8192x1 : S1x8192.ShapeCasts S8192x1
  shapeCasts_S256x1_S1x256 : S256x1.ShapeCasts S1x256
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  iota_S1024x1024_d0_w32 : S1024x1024.Iotas .tc 32 [0]
  iota_S1024x1024_d1_w32 : S1024x1024.Iotas .tc 32 [1]
  natLt_1_32 : 1 < 32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  scatter_S8192x8192_S262144x2_S262144_n_01_01_1_wf : ScatterDims.WF S8192x8192 S262144x2 S262144 [] [0, 1] [0, 1] 1
  dot_S1024x256_S256x256_S1024x256_1_0_0_1_n_n_wf : DotDims.WF S1024x256 S256x256 S1024x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .f32 = 32 ∨ (Rect.block (s := S1x8192) S1x8192.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .f32 = 32 ∨ (Rect.block (s := S8192x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x8192.size a
  hwx2_3 : ∀ i : grid2.Coords, EltTy.bits .f32 = 32 ∨ (Rect.block (s := S1x8192) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x256.size a ≤ S8192x256.size a
  hwx2_5 : ∀ i : grid2.Coords, EltTy.bits .f32 = 32 ∨ (Rect.block (s := S8192x256) S1024x256.size (cc2_transform_5 i) (hinb2_5 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x8192.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.ofSpec (Memref.whole main_v19) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v23) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v24) S1024x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S256x256 : Shape := ⟨2, ![256, 256]⟩
abbrev S256x1 : Shape := ⟨2, ![256, 1]⟩
abbrev S2x262144 : Shape := ⟨2, ![2, 262144]⟩
abbrev S_ : Shape := ⟨0, ![]⟩
abbrev S8192x8192 : Shape := ⟨2, ![8192, 8192]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1x8192 : Shape := ⟨2, ![1, 8192]⟩
abbrev S1x256 : Shape := ⟨2, ![1, 256]⟩

abbrev nBuf : Space → Nat
  | .hbm => 54
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256x1, .f32⟩
  | .hbm, ⟨3, _⟩ => ⟨S2x262144, .i32⟩
  | .hbm, ⟨4, _⟩ => ⟨S_, .f32⟩
  | .hbm, ⟨5, _⟩ => ⟨S8192x8192, .f32⟩
  | .hbm, ⟨6, _⟩ => ⟨S1x262144, .i32⟩
  | .hbm, ⟨7, _⟩ => ⟨S262144, .i32⟩
  | .hbm, ⟨8, _⟩ => ⟨S1x262144, .i32⟩
  | .hbm, ⟨9, _⟩ => ⟨S262144, .i32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .f32⟩
  | .hbm, ⟨28, _⟩ => ⟨S262144, .f32⟩
  | .hbm, ⟨29, _⟩ => ⟨S8192x8192, .f32⟩
  | .hbm, ⟨30, _⟩ => ⟨S8192x8192, .i32⟩
  | .hbm, ⟨31, _⟩ => ⟨S8192x8192, .i32⟩
  | .hbm, ⟨32, _⟩ => ⟨S_, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1, .f32⟩
  | .hbm, ⟨44, _⟩ => ⟨S8192x8192, .f32⟩
  | .hbm, ⟨45, _⟩ => ⟨S8192x8192, .f32⟩
  | .hbm, ⟨46, _⟩ => ⟨S1x8192, .f32⟩
  | .hbm, ⟨47, _⟩ => ⟨S8192x8192, .f32⟩
  | .hbm, ⟨48, _⟩ => ⟨S8192x8192, .f32⟩
  | .hbm, ⟨49, _⟩ => ⟨S8192x256, .f32⟩
  | .hbm, ⟨50, _⟩ => ⟨S8192x256, .f32⟩
  | .hbm, ⟨51, _⟩ => ⟨S1x256, .f32⟩
  | .hbm, ⟨52, _⟩ => ⟨S8192x256, .f32⟩
  | .hbm, ⟨53, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d0 : S8192x8192.ReducesTo [0] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S256x1_S1x256_1_0 : S256x1.Transposes [1, 0] S1x256
  bcast_S1x256_S8192x256_0_1 : S1x256.BroadcastsInDim S8192x256 (![0, 1] : Fin 2 → Fin S8192x256.rank)
  scatter_S8192x8192_S262144x2_S262144_n_01_01_1_wf : ScatterDims.WF S8192x8192 S262144x2 S262144 [] [0, 1] [0, 1] 1
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KeProject.lean ====
/-
  The first kernel region: the projected features. The grid walks the node rows in eight blocks of 1024; at every
  point the body multiplies the block of `H` by the whole of `W` and stores the product as that block of the result.
  Nothing is carried from one point to the next.
-/
import proofs.«154144_j58067957842338_1_alg».proof.Proof.Gen.Kernel.Launch
import proofs.«154144_j58067957842338_1_alg».proof.Proof.Gen.Kernel.Skeleton
import proofs.«154144_j58067957842338_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Project

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The block of window `w`'s array that point `t` works on. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `H` are staged at every point: the buffer the body reads holds the point's block. -/
theorem before_rows {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- `W` is staged once, at the first point, and its block never moves: the buffer holds it at every point. -/
theorem before_weights {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

abbrev rRows : Rect S1024x256 := Rect.unit (s := S1024x256) ![0, 0] S1024x256.size inb_S1024x256_S1024x256_0_0
abbrev rWeights : Rect S256x256 := Rect.unit (s := S256x256) ![0, 0] S256x256.size inb_S256x256_S256x256_0_0

/-- What the body leaves in the result's buffer: one store of the product, covering the buffer. -/
def prod (x0 : Vec F S1024x256 .f32) (x1 : Vec F S256x256 .f32) : Vec F S1024x256 .f32 :=
  View.canon [⟨rRows, k0_pay1 (View.ld x0 rRows) (View.ld x1 rWeights)⟩]

theorem prod_cover (p0 : Vec F S1024x256 .f32) (y : S1024x256.Idx) :
    ∃ pc ∈ ([⟨rRows, p0⟩] : List (View.Piece (Elt F) S1024x256 .f32)), y ∈ pc.1.set :=
  View.cover_of_tiled [⟨rRows, p0⟩] S1024x256.size (by rfl) y

set_option maxHeartbeats 1000000 in
/-- The body on whole buffers, the two inputs at `x0`, `x1` and the result's at anything, runs to the end leaving the
    inputs as they were and the result's buffer at the product. -/
theorem sound_kernel (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S1024x256 .f32) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod x0 x1)) -∗ K ⟨⟩))
      ⊢ wp frame (wpE (defs₀ (F := F)) Variants.none c none) E (cc0__hw_kernel i arg1 harg1 arg2 harg2 arg3 harg3) K := by
  simp only [cc0__hw_kernel_eq_skeleton]; unfold cc0__hw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod_cover _)

/-- The region's proof data on core `c`: the arrays as the region finds them; after the body each input's buffer at
    its block and the result's at the product of the two blocks; nothing carried, nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => prod (blk V c 0 t) (blk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_rows (c : Dev nD) (t : Fin cfg0.N) : (dat V c).after 0 t = blk V c 0 t := by dsimp only [dat]
theorem after_weights (c : Dev nD) (t : Fin cfg0.N) : (dat V c).after 1 t = blk V c 1 t := by dsimp only [dat]
theorem after_prod (c : Dev nD) (t : Fin cfg0.N) : (dat V c).after 2 t = prod (blk V c 0 t) (blk V c 1 t) := by dsimp only [dat]

theorem before0 (c : Dev nD) (t : Fin cfg0.N) (d) : (dat V c).before 0 t d = blk V c 0 t :=
  before_rows V (dat V c) (A_eq V c 0) (after_rows V c) t d
theorem before1 (c : Dev nD) (t : Fin cfg0.N) (d) : (dat V c).before 1 t d = blk V c 1 t :=
  before_weights V (dat V c) (A_eq V c 1) (after_weights V c) t d

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).Φ t.succ = (dat V c).Φ t.castSucc from rfl,
    show (dat V c).owesAt () t.succ = (dat V c).owesAt () t.castSucc from rfl,
    after_rows, after_weights, after_prod]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W0, bigSep_W0]
  exact sound_body V c t

end Cert.Kernel.Project

end
-- ==== Proof.KeDegree.lean ====
/-
  The second kernel region: the inverse square roots of the column degrees. The grid walks the rows of the adjacency
  matrix in 32 blocks of 256. A scratch row carries the running column sums from point to point: it is cleared at the
  first point, every point adds its block's column sums to it, and at the last point the result row is stored as
  `rsqrt (sums + 1)`. The result's buffer is untouched, and not written back, at every other point.
-/
import proofs.«154144_j58067957842338_1_alg».proof.Proof.Gen.Kernel.Launch
import proofs.«154144_j58067957842338_1_alg».proof.Proof.Gen.Kernel.Skeleton
import proofs.«154144_j58067957842338_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Degree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The block of window `w`'s array that point `t` works on. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of the adjacency matrix are staged at every point: the buffer the body reads holds the point's block. -/
theorem before_rows {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-! ## The body's two conditions, decided over the grid -/

/-- "This is the first block": the scratch row is cleared. -/
abbrev isFirst (i : grid1.Coords) : Prop :=
  (Scalar.cmpi .ne (Scalar.extui (Scalar.cmpi .eq (BitVec.ofNat 32 (i 0).val) 0#32)) 0#32) = 1#1
theorem isFirst_iff : ∀ t : Fin cfg1.N, isFirst (grid1.coords t) ↔ t.val % 32 = 0 :=
  (by decide +kernel : ∀ t : Fin grid1.N, isFirst (grid1.coords t) ↔ t.val % 32 = 0)

/-- "This is the last block": the result row is stored. -/
abbrev isLast (i : grid1.Coords) : Prop := k1_cond2 i = 1#1
theorem isLast_iff : ∀ t : Fin cfg1.N, isLast (grid1.coords t) ↔ t.val % 32 = 31 :=
  (by decide +kernel : ∀ t : Fin grid1.N, isLast (grid1.coords t) ↔ t.val % 32 = 31)

theorem live_rows : ∀ t : Fin cfg1.N, cfg1.idle 0 (grid1.coords t) = false := by decide +kernel
theorem idle_out : ∀ t : Fin cfg1.N, ¬isLast (grid1.coords t) → cfg1.idle 1 (grid1.coords t) = true := by decide +kernel
theorem noflush_out : ∀ t : Fin cfg1.N, ¬isLast (grid1.coords t) → (cfg1.win 1).flush t = false := by decide +kernel
theorem live_out : ∀ t : Fin cfg1.N, isLast (grid1.coords t) → cfg1.idle 1 (grid1.coords t) = false := by decide +kernel

/-! ## The buffers the body is called with -/

abbrev VO : View sig .tc .vmem S1x8192 .f32 := (Memref.whole cc1_stg1_0 : Memref sig .tc .vmem S1x8192 .f32).view
abbrev msRows (t : Fin cfg1.N) : Memref sig .tc .vmem S256x8192 .f32 := win1_0.stage (cfg1.slots t 0)
abbrev hsRows (t : Fin cfg1.N) : (msRows t).IsWhole := hstage1_0 ((cfg1.slots t 0).cast nbuf1_0)
abbrev msOut (t : Fin cfg1.N) : Memref sig .tc .vmem S1x8192 .f32 := win1_1.stage (cfg1.slots t 1)
abbrev hsOut (t : Fin cfg1.N) : (msOut t).IsWhole := hstage1_1 ((cfg1.slots t 1).cast nbuf1_1)
/-- The scratch row carrying the running sums. -/
abbrev scM : Memref sig .tc .vmem S1x8192 .f32 := Memref.whole cc1_scratch0
abbrev VS : View sig .tc .vmem S1x8192 .f32 := scM.view

/-- The core's other scoped buffers, which this region never opens. -/
abbrev others (c : Dev nD) : sProp 𝕄 :=
  Pipeline.scopedRestBut (Ix := Unit) (Name := ℕ) (U := UR sig nD τ) (Lvl := ℕ) (Val := Elt F) spec1 c [cc1_scratch0]

theorem scratch_mem : ([cc1_scratch0] : List (Ref sig .tc)).Forall fun b => b.isScoped = true ∧ ∀ (w : Fin 2) (s : Fin (spec1 w).nbuf), ((spec1 w).stage s).view.ref ≠ b := by
  decide

/-- The core's scoped buffers that are no staging buffer of this region: the scratch row, and the buffers never opened. -/
theorem scoped_split (c : Dev nD) :
    (Pipeline.scopedRest (Ix := Unit) (Name := ℕ) (U := UR sig nD τ) (Lvl := ℕ) (Val := Elt F) spec1 c : sProp 𝕄)
      = iprop((∃ d, owns (c : Thread nD τ) scM fullShare d) ∗ others (F := F) c) := by
  rw [Pipeline.scopedRest_split_of_list (Ix := Unit) (Name := ℕ) (U := UR sig nD τ) (Lvl := ℕ) (Val := Elt F) (win := spec1) (c := c) [cc1_scratch0] scratch_mem (by decide)]
  simp only [bigSepL, scM, owns_whole]
  rfl

/-- The class's invariant opened at the scratch row: it is held at some contents beside the buffers never opened and the
    generator register. -/
theorem PhiA_open (c : Dev nD) :
    (Pipeline.ΦA spec1 c : sProp 𝕄) ⊢ iprop((∃ d, owns (c : Thread nD τ) scM fullShare d) ∗ others (F := F) c ∗ (∃ r, prngReg c r)) := by
  unfold Pipeline.ΦA
  rw [scoped_split]
  iintro ⟨⟨HS, Hr⟩, Hg⟩
  isplitl [HS]; · iexact HS
  isplitl [Hr]; · iexact Hr
  iexact Hg

theorem PhiA_close (c : Dev nD) :
    iprop((∃ d, owns (c : Thread nD τ) scM fullShare d) ∗ others (F := F) c ∗ (∃ r, prngReg c r)) ⊢ (Pipeline.ΦA spec1 c : sProp 𝕄) := by
  unfold Pipeline.ΦA
  rw [scoped_split]
  iintro ⟨HS, Hr, Hg⟩
  isplitl [HS Hr]
  · isplitl [HS]; · iexact HS
    iexact Hr
  iexact Hg

end Cert.Kernel.Degree

end
-- ==== Proof.KeDegreeRuns.lean ====
/-
  The body of the degree kernel run whole, once for each way its two conditions can fall on the grid: at the first block
  (the scratch row cleared, then the block's column sums added), at a middle block (the sums added to what the point
  before left), at the last block (the sums added, then the result row stored). Each run leaves the scratch row, and at
  the last block the result's buffer, written with the pieces its stores made.
-/
import proofs.«154144_j58067957842338_1_alg».proof.Proof.Gen.Kernel.Launch
import proofs.«154144_j58067957842338_1_alg».proof.Proof.Gen.Kernel.Skeleton
import proofs.«154144_j58067957842338_1_alg».proof.Proof.Gen.Kernel.Points
import proofs.«154144_j58067957842338_1_alg».proof.Proof.KeDegree
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Degree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The first block: the scratch row at anything going in; the result's buffer handed back untouched. -/
noncomputable def runFirst (c : Dev nD) (i : grid1.Coords) (arg1 : Memref sig .tc .vmem S256x8192 .f32) (harg1 : arg1.IsWhole)
    (arg2 : Memref sig .tc .vmem S1x8192 .f32) (harg2 : arg2.IsWhole) (arg3 : Memref sig .tc .vmem S1x8192 .f32) (harg3 : arg3.IsWhole)
    (hc0 : isFirst i) (hc1 : ¬isLast i) (x0 : Vec F S256x8192 .f32) :
    Σ' (L1 : List (View.Piece (Elt F) S1x8192 .f32)), { LS : List (View.Piece (Elt F) S1x8192 .f32) //
      ∀ (xi1 : Vec F S1x8192 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS)) -∗ K ⟨⟩))
          ⊢ wp frame (wpE (defs₀ (F := F)) Variants.none c none) E (cc1__degree_kernel i arg1 harg1 arg2 harg2 arg3 harg3) K } := by
  refine ⟨[], ?_, fun xi1 E K => ?run⟩
  case run =>
    simp only [cc1__degree_kernel_eq_skeleton]; unfold cc1__degree_kernel_skel
    unfold owns
    iintro ⟨⟨%f0, %hf0, H0⟩, ⟨%f1, %hf1, H1⟩, ⟨%ds, %fs, -, HS⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS

set_option maxHeartbeats 2000000 in
/-- A middle block: the scratch row at what the point before left; the result's buffer handed back untouched. -/
noncomputable def runMid (c : Dev nD) (i : grid1.Coords) (arg1 : Memref sig .tc .vmem S256x8192 .f32) (harg1 : arg1.IsWhole)
    (arg2 : Memref sig .tc .vmem S1x8192 .f32) (harg2 : arg2.IsWhole) (arg3 : Memref sig .tc .vmem S1x8192 .f32) (harg3 : arg3.IsWhole)
    (hc0 : ¬isFirst i) (hc1 : ¬isLast i) (x0 : Vec F S256x8192 .f32) (xs : Vec F S1x8192 .f32) :
    Σ' (L1 : List (View.Piece (Elt F) S1x8192 .f32)), { LS : List (View.Piece (Elt F) S1x8192 .f32) //
      ∀ (xi1 : Vec F S1x8192 .f32) (E : Set ℕ) (K : PUnit → sProp 𝕄),
        iprop(owns (c : Thread nD τ) arg1 fullShare x0 ∗ owns (c : Thread nD τ) arg2 fullShare xi1 ∗ owns (c : Thread nD τ) arg3 fullShare xs
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS)) -∗ K ⟨⟩))
          ⊢ wp frame (wpE (defs₀ (F := F)) Variants.none c none) E (cc1__degree_kernel i arg1 harg1 arg2 harg2 arg3 harg3) K } := by
  refine ⟨[], ?_, fun xi1 E K => ?run⟩
  case run =>
    simp only [cc1__degree_kernel_eq_skeleton]; unfold cc1__degree_kernel_skel
    unfold owns
    iintro ⟨⟨%f0, %hf0, H0⟩, ⟨%f1, %hf1, H1⟩, ⟨%fs, %hfs, HS⟩, Hk⟩
    obtain rfl := harg1.eq_unread hf0; obtain rfl := harg2.eq_unread hf1; obtain rfl := harg3.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS

set_option maxHeartbeats 2000000 in
/-- The last block: the scratch row at what the point before left; the result's buffer written. -/
noncomputable def runLast (c : Dev nD) (i : grid1.Coords) (arg1 : Memref sig .tc .vmem S256x8192 .f32) (harg1 : arg1.IsWhole)
    (arg2 : Memref sig .tc .vmem S1x8192 .f32) (harg2 : arg2.IsWhole) (arg3 : Memref sig .tc .vmem S1x8192 .f32) (harg3 : arg3.IsWhole)
    (hc0 : ¬isFirst i) (hc1 : isLast i) (x0 : Vec F S256x8192 .f32) (xs : Vec F S1x8192 .f32) :
    Σ' (L1 : List (View.Piece (Elt F) S1x8192 .f32)), { LS : List (View.Piece (Elt F) S1x8192 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS)) -∗ K ⟨⟩))
          ⊢ wp frame (wpE (defs₀ (F := F)) Variants.none c none) E (cc1__degree_kernel i arg1 harg1 arg2 harg2 arg3 harg3) K } := by
  refine ⟨?_, ?_, fun E K => ?run⟩
  case run =>
    simp only [cc1__degree_kernel_eq_skeleton]; unfold cc1__degree_kernel_skel
    unfold owns
    iintro ⟨⟨%f0, %hf0, H0⟩, ⟨%d1, %f1, -, H1⟩, ⟨%fs, %hfs, HS⟩, Hk⟩
    obtain rfl := harg1.eq_unread hf0; obtain rfl := harg3.eq_unread hfs
    sl_exec (disch := first | exact hc0 | exact hc1)
    sl_step
    iapply Hk
    isplitl [H0]
    · iexists _; isplitr; · ipureintro; exact harg1.read_unread _
      iexact H0
    isplitl [H1]; · iexists _; iexact H1
    iexists _; iexact HS

end Cert.Kernel.Degree

end
-- ==== Proof.KeDegreeData.lean ====
/-
  The degree kernel's proof data. What the scratch row and the result's buffer hold after each point is defined by
  recursion on the point: the first point's run from the block alone, every later point's run from the block and what
  the point before left in the scratch row. The region's invariant holds the scratch row at exactly that, beside the
  scoped buffers the region never opens.
-/
import proofs.«154144_j58067957842338_1_alg».proof.Proof.Gen.Kernel.Launch
import proofs.«154144_j58067957842338_1_alg».proof.Proof.Gen.Kernel.Skeleton
import proofs.«154144_j58067957842338_1_alg».proof.Proof.Gen.Kernel.Points
import proofs.«154144_j58067957842338_1_alg».proof.Proof.KeDegreeRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Degree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the first case leaves in the scratch row: its pieces cover it, -/
theorem accFirst_cover (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : isFirst i) (hc1 : ¬isLast i) (x0 : Vec F S256x8192 .f32) (y : S1x8192.Idx) :
    ∃ pc ∈ (runFirst c i arg1 harg1 arg2 harg2 arg3 harg3 hc0 hc1 x0).2.1, y ∈ pc.1.set :=
  View.cover_of_tiledL (runFirst c i arg1 harg1 arg2 harg2 arg3 harg3 hc0 hc1 x0).2.1 S1x8192.size (by sl_kernel_rfl) y
/-- and read back they are its contents. -/
def accFirst (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : isFirst i) (hc1 : ¬isLast i) (x0 : Vec F S256x8192 .f32) : Vec F S1x8192 .f32 :=
  VS.read (Elt F) (VS.writes (Elt F) VS.junk (runFirst c i arg1 harg1 arg2 harg2 arg3 harg3 hc0 hc1 x0).2.1)
/-- The result's buffer is not stored into in this case: a placeholder nothing consults. -/
def outFirst (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : isFirst i) (hc1 : ¬isLast i) (x0 : Vec F S256x8192 .f32) : Vec F S1x8192 .f32 :=
  VO.read (Elt F) (VO.writes (Elt F) VO.junk (runFirst c i arg1 harg1 arg2 harg2 arg3 harg3 hc0 hc1 x0).1)

/-- What the mid case leaves in the scratch row: its pieces cover it, -/
theorem accMid_cover (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : ¬isFirst i) (hc1 : ¬isLast i) (x0 : Vec F S256x8192 .f32) (xs : Vec F S1x8192 .f32) (y : S1x8192.Idx) :
    ∃ pc ∈ (runMid c i arg1 harg1 arg2 harg2 arg3 harg3 hc0 hc1 x0 xs).2.1, y ∈ pc.1.set :=
  View.cover_of_tiledL (runMid c i arg1 harg1 arg2 harg2 arg3 harg3 hc0 hc1 x0 xs).2.1 S1x8192.size (by sl_kernel_rfl) y
/-- and read back they are its contents. -/
def accMid (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : ¬isFirst i) (hc1 : ¬isLast i) (x0 : Vec F S256x8192 .f32) (xs : Vec F S1x8192 .f32) : Vec F S1x8192 .f32 :=
  VS.read (Elt F) (VS.writes (Elt F) VS.junk (runMid c i arg1 harg1 arg2 harg2 arg3 harg3 hc0 hc1 x0 xs).2.1)
/-- The result's buffer is not stored into in this case: a placeholder nothing consults. -/
def outMid (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : ¬isFirst i) (hc1 : ¬isLast i) (x0 : Vec F S256x8192 .f32) (xs : Vec F S1x8192 .f32) : Vec F S1x8192 .f32 :=
  VO.read (Elt F) (VO.writes (Elt F) VO.junk (runMid c i arg1 harg1 arg2 harg2 arg3 harg3 hc0 hc1 x0 xs).1)

/-- What the last case leaves in the scratch row: its pieces cover it, -/
theorem accLast_cover (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : ¬isFirst i) (hc1 : isLast i) (x0 : Vec F S256x8192 .f32) (xs : Vec F S1x8192 .f32) (y : S1x8192.Idx) :
    ∃ pc ∈ (runLast c i arg1 harg1 arg2 harg2 arg3 harg3 hc0 hc1 x0 xs).2.1, y ∈ pc.1.set :=
  View.cover_of_tiledL (runLast c i arg1 harg1 arg2 harg2 arg3 harg3 hc0 hc1 x0 xs).2.1 S1x8192.size (by sl_kernel_rfl) y
/-- and read back they are its contents. -/
def accLast (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : ¬isFirst i) (hc1 : isLast i) (x0 : Vec F S256x8192 .f32) (xs : Vec F S1x8192 .f32) : Vec F S1x8192 .f32 :=
  VS.read (Elt F) (VS.writes (Elt F) VS.junk (runLast c i arg1 harg1 arg2 harg2 arg3 harg3 hc0 hc1 x0 xs).2.1)
/-- The last case's store of the result row covers its buffer, -/
theorem outLast_cover (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : ¬isFirst i) (hc1 : isLast i) (x0 : Vec F S256x8192 .f32) (xs : Vec F S1x8192 .f32) (y : S1x8192.Idx) :
    ∃ pc ∈ (runLast c i arg1 harg1 arg2 harg2 arg3 harg3 hc0 hc1 x0 xs).1, y ∈ pc.1.set :=
  View.cover_of_tiledL (runLast c i arg1 harg1 arg2 harg2 arg3 harg3 hc0 hc1 x0 xs).1 S1x8192.size (by sl_kernel_rfl) y
/-- and read back it is the buffer's contents. -/
def outLast (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : ¬isFirst i) (hc1 : isLast i) (x0 : Vec F S256x8192 .f32) (xs : Vec F S1x8192 .f32) : Vec F S1x8192 .f32 :=
  VO.read (Elt F) (VO.writes (Elt F) VO.junk (runLast c i arg1 harg1 arg2 harg2 arg3 harg3 hc0 hc1 x0 xs).1)

/-! ## Which case a point is in -/

theorem grid_lt (t : Fin cfg1.N) : t.val < 32 := lt_of_lt_of_eq t.isLt (show cfg1.N = 32 from N_1)
theorem first_of_zero (t : Fin cfg1.N) (h : t.val = 0) : isFirst (grid1.coords t) := (isFirst_iff t).mpr (by rw [h])
theorem notFirst_of_pos (t : Fin cfg1.N) (h : t.val ≠ 0) : ¬isFirst (grid1.coords t) := fun hf => by
  have h' := (isFirst_iff t).mp hf; have := grid_lt t; omega
theorem last_of (t : Fin cfg1.N) (h : t.val % 32 = 31) : isLast (grid1.coords t) := (isLast_iff t).mpr h
theorem notLast_of (t : Fin cfg1.N) (h : ¬t.val % 32 = 31) : ¬isLast (grid1.coords t) := fun hl => h ((isLast_iff t).mp hl)
theorem notLast_of_zero (t : Fin cfg1.N) (h : t.val = 0) : ¬isLast (grid1.coords t) := notLast_of t (by rw [h]; decide)

/-! ## What the buffers hold after each point -/

/-- After the body at position `n`: the result's buffer, then the scratch row. -/
def outsAt (c : Dev nD) : (n : ℕ) → n < cfg1.N → Vec F S1x8192 .f32 × Vec F S1x8192 .f32
  | 0, hn => (outFirst c (grid1.coords ⟨0, hn⟩) (msRows ⟨0, hn⟩) (hsRows ⟨0, hn⟩) (msOut ⟨0, hn⟩) (hsOut ⟨0, hn⟩) scM (Memref.isWhole_whole _) (first_of_zero ⟨0, hn⟩ rfl) (notLast_of_zero ⟨0, hn⟩ rfl) (blk V c 0 ⟨0, hn⟩),
              accFirst c (grid1.coords ⟨0, hn⟩) (msRows ⟨0, hn⟩) (hsRows ⟨0, hn⟩) (msOut ⟨0, hn⟩) (hsOut ⟨0, hn⟩) scM (Memref.isWhole_whole _) (first_of_zero ⟨0, hn⟩ rfl) (notLast_of_zero ⟨0, hn⟩ rfl) (blk V c 0 ⟨0, hn⟩))
  | n + 1, hn =>
    if h1 : (n + 1) % 32 = 31 then
      (outLast c (grid1.coords ⟨n + 1, hn⟩) (msRows ⟨n + 1, hn⟩) (hsRows ⟨n + 1, hn⟩) (msOut ⟨n + 1, hn⟩) (hsOut ⟨n + 1, hn⟩) scM (Memref.isWhole_whole _) (notFirst_of_pos ⟨n + 1, hn⟩ (Nat.succ_ne_zero n)) (last_of ⟨n + 1, hn⟩ h1) (blk V c 0 ⟨n + 1, hn⟩) (outsAt c n (Nat.lt_of_succ_lt hn)).2,
       accLast c (grid1.coords ⟨n + 1, hn⟩) (msRows ⟨n + 1, hn⟩) (hsRows ⟨n + 1, hn⟩) (msOut ⟨n + 1, hn⟩) (hsOut ⟨n + 1, hn⟩) scM (Memref.isWhole_whole _) (notFirst_of_pos ⟨n + 1, hn⟩ (Nat.succ_ne_zero n)) (last_of ⟨n + 1, hn⟩ h1) (blk V c 0 ⟨n + 1, hn⟩) (outsAt c n (Nat.lt_of_succ_lt hn)).2)
    else
      (outMid c (grid1.coords ⟨n + 1, hn⟩) (msRows ⟨n + 1, hn⟩) (hsRows ⟨n + 1, hn⟩) (msOut ⟨n + 1, hn⟩) (hsOut ⟨n + 1, hn⟩) scM (Memref.isWhole_whole _) (notFirst_of_pos ⟨n + 1, hn⟩ (Nat.succ_ne_zero n)) (notLast_of ⟨n + 1, hn⟩ h1) (blk V c 0 ⟨n + 1, hn⟩) (outsAt c n (Nat.lt_of_succ_lt hn)).2,
       accMid c (grid1.coords ⟨n + 1, hn⟩) (msRows ⟨n + 1, hn⟩) (hsRows ⟨n + 1, hn⟩) (msOut ⟨n + 1, hn⟩) (hsOut ⟨n + 1, hn⟩) scM (Memref.isWhole_whole _) (notFirst_of_pos ⟨n + 1, hn⟩ (Nat.succ_ne_zero n)) (notLast_of ⟨n + 1, hn⟩ h1) (blk V c 0 ⟨n + 1, hn⟩) (outsAt c n (Nat.lt_of_succ_lt hn)).2)

theorem outsAt_first (c : Dev nD) (t : Fin cfg1.N) (hz : t.val = 0) :
    outsAt V c t.val t.isLt = (outFirst c (grid1.coords t) (msRows t) (hsRows t) (msOut t) (hsOut t) scM (Memref.isWhole_whole _) (first_of_zero t hz) (notLast_of_zero t hz) (blk V c 0 t),
      accFirst c (grid1.coords t) (msRows t) (hsRows t) (msOut t) (hsOut t) scM (Memref.isWhole_whole _) (first_of_zero t hz) (notLast_of_zero t hz) (blk V c 0 t)) := by
  obtain ⟨n, hn⟩ := t
  cases n with
  | zero => rfl
  | succ n => exact absurd hz (Nat.succ_ne_zero n)

theorem outsAt_mid (c : Dev nD) (t : Fin cfg1.N) (hz : t.val ≠ 0) (h1 : ¬t.val % 32 = 31) :
    outsAt V c t.val t.isLt = (outMid c (grid1.coords t) (msRows t) (hsRows t) (msOut t) (hsOut t) scM (Memref.isWhole_whole _) (notFirst_of_pos t hz) (notLast_of t h1) (blk V c 0 t) (outsAt V c (t.val - 1) (Nat.lt_of_le_of_lt (Nat.sub_le _ _) t.isLt)).2,
      accMid c (grid1.coords t) (msRows t) (hsRows t) (msOut t) (hsOut t) scM (Memref.isWhole_whole _) (notFirst_of_pos t hz) (notLast_of t h1) (blk V c 0 t) (outsAt V c (t.val - 1) (Nat.lt_of_le_of_lt (Nat.sub_le _ _) t.isLt)).2) := by
  obtain ⟨n, hn⟩ := t
  cases n with
  | zero => exact absurd rfl hz
  | succ n => exact (dif_neg h1).trans rfl

theorem outsAt_last (c : Dev nD) (t : Fin cfg1.N) (hz : t.val ≠ 0) (h1 : t.val % 32 = 31) :
    outsAt V c t.val t.isLt = (outLast c (grid1.coords t) (msRows t) (hsRows t) (msOut t) (hsOut t) scM (Memref.isWhole_whole _) (notFirst_of_pos t hz) (last_of t h1) (blk V c 0 t) (outsAt V c (t.val - 1) (Nat.lt_of_le_of_lt (Nat.sub_le _ _) t.isLt)).2,
      accLast c (grid1.coords t) (msRows t) (hsRows t) (msOut t) (hsOut t) scM (Memref.isWhole_whole _) (notFirst_of_pos t hz) (last_of t h1) (blk V c 0 t) (outsAt V c (t.val - 1) (Nat.lt_of_le_of_lt (Nat.sub_le _ _) t.isLt)).2) := by
  obtain ⟨n, hn⟩ := t
  cases n with
  | zero => exact absurd rfl hz
  | succ n => exact (dif_pos h1).trans rfl

/-! ## The invariant -/

/-- Before position `n`: before the first point the class's invariant (the scratch row at anything); afterwards the scratch
    row at what the point before left, the buffers never opened, the generator register. -/
def PhiS (c : Dev nD) : (n : ℕ) → n ≤ cfg1.N → sProp 𝕄
  | 0, _ => Pipeline.ΦA spec1 c
  | n + 1, hn => iprop(owns (c : Thread nD τ) scM fullShare ((outsAt V c n hn).2) ∗ others (F := F) c ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scM fullShare ((outsAt V c n hn).2) ∗ others (F := F) c ∗ (∃ r, prngReg c r)) := rfl
theorem PhiS_pos (c : Dev nD) (n : ℕ) (h : n ≤ cfg1.N) (hz : n ≠ 0) :
    PhiS V c n h = iprop(owns (c : Thread nD τ) scM fullShare ((outsAt V c (n - 1) (by omega)).2) ∗ others (F := F) c ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) : (dat V c).Φ t.castSucc = PhiS V c t.val (Nat.le_of_lt t.isLt) := by
  dsimp only [dat]; simp only [Fin.coe_castSucc]
theorem after_rows (c : Dev nD) (t : Fin cfg1.N) : (dat V c).after 0 t = blk V c 0 t := by dsimp only [dat]
theorem after_out (c : Dev nD) (t : Fin cfg1.N) : (dat V c).after 1 t = (outsAt V c t.val t.isLt).1 := by dsimp only [dat]
theorem before0 (c : Dev nD) (t : Fin cfg1.N) (d) : (dat V c).before 0 t d = blk V c 0 t :=
  before_rows V (dat V c) (A_eq V c 0) (after_rows V c) t d

def bodyPre (c : Dev nD) (t : Fin cfg1.N) : sProp 𝕄 :=
  iprop((dat V c).Φ t.castSucc ∗ (dat V c).owesAt () t.castSucc
    ∗ (∃ d, owns (c : Thread nD τ) (msRows t) fullShare ((dat V c).before 0 t d))
    ∗ (∃ d, owns (c : Thread nD τ) (msOut t) fullShare ((dat V c).before 1 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (msRows t) fullShare ((dat V c).after 0 t) from by
    unfold Dat.leavesExact; rw [live_rows t], after_rows]
  have hN := grid_lt t
  by_cases hz : t.val = 0
  · have h1 : ¬t.val % 32 = 31 := by rw [hz]; decide
    rw [Dat.leavesExact_idle (dat V c) 1 t (idle_out t (notLast_of t h1)) (noflush_out t (notLast_of t h1))]
    rw [outsAt_first V c t hz]
    unfold accFirst; (try dsimp only)
    rw [Phi_castSucc V c t, PhiS_zero V c _ _ hz]
    iintro ⟨HΦ, Ho, ⟨%d0, H0⟩, ⟨%d1, H1⟩⟩
    ihave HΦ' := PhiA_open (F := F) c $$ HΦ
    icases HΦ' with ⟨HS, Hr, Hg⟩
    iapply ((runFirst c (grid1.coords t) _ _ _ _ _ _ (first_of_zero t hz) (notLast_of_zero t hz) (blk V c 0 t)).2.2 _ Set.univ _)
    isplitl [H0]; · iexact H0
    isplitl [H1]; · iexact H1
    isplitl [HS]; · iexact HS
    iintro ⟨H0, H1, ⟨%es, HS⟩⟩
    isplitl [HS Hr Hg]
    · isplitl [HS]
      · unfold owns; iexists _; isplitr
        swap; · iexact HS
        ipureintro; exact View.read_writes_of_cover _ _ _ _ _ (accFirst_cover c _ _ _ _ _ _ _ _ _ _)
      isplitl [Hr]; · iexact Hr
      iexact Hg
    isplitl [Ho]; · iexact Ho
    isplitl [H0]; · iexact H0
    iexists _; iexact H1
  · rw [Phi_castSucc V c t, PhiS_pos V c _ _ hz]
    by_cases h1 : t.val % 32 = 31
    · rw [show (dat V c).leavesExact 1 t = owns (c : Thread nD τ) (msOut t) fullShare ((dat V c).after 1 t) from by
        unfold Dat.leavesExact; rw [live_out t (last_of t h1)], after_out]
      rw [outsAt_last V c t hz h1]
      unfold outLast accLast; (try dsimp only)
      iintro ⟨⟨HS, Hr, Hg⟩, Ho, ⟨%d0, H0⟩, ⟨%d1, H1⟩⟩
      iapply ((runLast c (grid1.coords t) _ _ _ _ _ _ (notFirst_of_pos t hz) (last_of t h1) (blk V c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hr Hg]
      · isplitl [HS]
        · unfold owns; iexists _; isplitr
          swap; · iexact HS
          ipureintro; exact View.read_writes_of_cover _ _ _ _ _ (accLast_cover c _ _ _ _ _ _ _ _ _ _ _)
        isplitl [Hr]; · iexact Hr
        iexact Hg
      isplitl [Ho]; · iexact Ho
      isplitl [H0]; · iexact H0
      unfold owns; iexists _; isplitr
      swap; · iexact H1
      ipureintro; exact View.read_writes_of_cover _ _ _ _ _ (outLast_cover c _ _ _ _ _ _ _ _ _ _ _)
    · rw [Dat.leavesExact_idle (dat V c) 1 t (idle_out t (notLast_of t h1)) (noflush_out t (notLast_of t h1))]
      rw [outsAt_mid V c t hz h1]
      unfold accMid; (try dsimp only)
      iintro ⟨⟨HS, Hr, Hg⟩, Ho, ⟨%d0, H0⟩, ⟨%d1, H1⟩⟩
      iapply ((runMid c (grid1.coords t) _ _ _ _ _ _ (notFirst_of_pos t hz) (notLast_of t h1) (blk V c 0 t) _).2.2 _ Set.univ _)
      isplitl [H0]; · iexact H0
      isplitl [H1]; · iexact H1
      isplitl [HS]; · iexact HS
      iintro ⟨H0, H1, ⟨%es, HS⟩⟩
      isplitl [HS Hr Hg]
      · isplitl [HS]
        · unfold owns; iexists _; isplitr
          swap; · iexact HS
          ipureintro; exact View.read_writes_of_cover _ _ _ _ _ (accMid_cover c _ _ _ _ _ _ _ _ _ _ _)
        isplitl [Hr]; · iexact Hr
        iexact Hg
      isplitl [Ho]; · iexact Ho
      isplitl [H0]; · iexact H0
      iexists _; iexact H1

theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: what the scratch row holds is forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  unfold Pipeline.ΦA
  rw [scoped_split]
  iintro ⟨HS, Hr, Hg⟩
  isplitl [HS Hr]
  · isplitl [HS]; · iexists _; iexact HS
    iexact Hr
  iexact Hg

end Cert.Kernel.Degree

end
-- ==== Proof.KeScale.lean ====
/-
  The third kernel region: the scaled adjacency matrix times the projected features, plus the bias. The grid is 8 × 8
  over tiles of 1024 × 1024 of the adjacency matrix: for each block of rows the second coordinate walks the contracted
  axis. A scratch block carries the partial products: it is cleared at the first tile of a row block, every tile adds
  its product to it — the tile with the identity added on the diagonal tiles, each entry scaled by its row's and its
  column's factor —, and at the last tile the result block is stored as the scratch plus the bias row. The result's
  buffer is untouched, and not written back, at every other point.
-/
import proofs.«154144_j58067957842338_1_alg».proof.Proof.Gen.Kernel.Launch
import proofs.«154144_j58067957842338_1_alg».proof.Proof.Gen.Kernel.Skeleton
import proofs.«154144_j58067957842338_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Scale

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` works on. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input's buffer holds the point's block, staged at that point or earlier with the block unmoved since. -/
theorem before0_of {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before1_of {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before2_of {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before3_of {c : Dev nD} (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before4_of {c : Dev nD} (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The body's two conditions, decided over the grid -/

/-- "This is the first tile of the row block": the scratch block is cleared. -/
abbrev isFirst (i : grid2.Coords) : Prop :=
  (Scalar.cmpi .ne (Scalar.extui (Scalar.cmpi .eq (BitVec.ofNat 32 (i 1).val) 0#32)) 0#32) = 1#1
theorem isFirst_iff : ∀ t : Fin cfg2.N, isFirst (grid2.coords t) ↔ t.val % 8 = 0 :=
  (by decide +kernel : ∀ t : Fin grid2.N, isFirst (grid2.coords t) ↔ t.val % 8 = 0)

/-- "This is the last tile of the row block": the result block is stored. -/
abbrev isLast (i : grid2.Coords) : Prop := k2_cond2 i = 1#1
theorem isLast_iff : ∀ t : Fin cfg2.N, isLast (grid2.coords t) ↔ t.val % 8 = 7 :=
  (by decide +kernel : ∀ t : Fin grid2.N, isLast (grid2.coords t) ↔ t.val % 8 = 7)

theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
theorem live3 : ∀ t : Fin cfg2.N, cfg2.idle 3 (grid2.coords t) = false := by decide +kernel
theorem live4 : ∀ t : Fin cfg2.N, cfg2.idle 4 (grid2.coords t) = false := by decide +kernel
theorem idle_out : ∀ t : Fin cfg2.N, ¬isLast (grid2.coords t) → cfg2.idle 5 (grid2.coords t) = true := by decide +kernel
theorem noflush_out : ∀ t : Fin cfg2.N, ¬isLast (grid2.coords t) → (cfg2.win 5).flush t = false := by decide +kernel
theorem live_out : ∀ t : Fin cfg2.N, isLast (grid2.coords t) → cfg2.idle 5 (grid2.coords t) = false := by decide +kernel

/-! ## The buffers the body is called with -/

abbrev VO : View sig .tc .vmem S1024x256 .f32 := (Memref.whole cc2_stg5_0 : Memref sig .tc .vmem S1024x256 .f32).view
abbrev ms0 (t : Fin cfg2.N) : Memref sig .tc .vmem S1024x1024 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1024x256 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1024x1 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x1024 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x256 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S1024x256 .f32 := win2_5.stage (cfg2.slots t 5)
abbrev hs5 (t : Fin cfg2.N) : (ms5 t).IsWhole := hstage2_5 ((cfg2.slots t 5).cast nbuf2_5)
/-- The scratch block carrying the partial products. -/
abbrev scM : Memref sig .tc .vmem S1024x256 .f32 := Memref.whole cc2_scratch0
abbrev VS : View sig .tc .vmem S1024x256 .f32 := scM.view

/-- The core's other scoped buffers, which this region never opens. -/
abbrev others (c : Dev nD) : sProp 𝕄 :=
  Pipeline.scopedRestBut (Ix := Unit) (Name := ℕ) (U := UR sig nD τ) (Lvl := ℕ) (Val := Elt F) spec2 c [cc2_scratch0]

theorem scratch_mem : ([cc2_scratch0] : List (Ref sig .tc)).Forall fun b => b.isScoped = true ∧ ∀ (w : Fin 6) (s : Fin (spec2 w).nbuf), ((spec2 w).stage s).view.ref ≠ b := by
  decide

theorem scoped_split (c : Dev nD) :
    (Pipeline.scopedRest (Ix := Unit) (Name := ℕ) (U := UR sig nD τ) (Lvl := ℕ) (Val := Elt F) spec2 c : sProp 𝕄)
      = iprop((∃ d, owns (c : Thread nD τ) scM fullShare d) ∗ others (F := F) c) := by
  rw [Pipeline.scopedRest_split_of_list (Ix := Unit) (Name := ℕ) (U := UR sig nD τ) (Lvl := ℕ) (Val := Elt F) (win := spec2) (c := c) [cc2_scratch0] scratch_mem (by decide)]
  simp only [bigSepL, scM, owns_whole]
  rfl

theorem PhiA_open (c : Dev nD) :
    (Pipeline.ΦA spec2 c : sProp 𝕄) ⊢ iprop((∃ d, owns (c : Thread nD τ) scM fullShare d) ∗ others (F := F) c ∗ (∃ r, prngReg c r)) := by
  unfold Pipeline.ΦA
  rw [scoped_split]
  iintro ⟨⟨HS, Hr⟩, Hg⟩
  isplitl [HS]; · iexact HS
  isplitl [Hr]; · iexact Hr
  iexact Hg

theorem PhiA_close (c : Dev nD) :
    iprop((∃ d, owns (c : Thread nD τ) scM fullShare d) ∗ others (F := F) c ∗ (∃ r, prngReg c r)) ⊢ (Pipeline.ΦA spec2 c : sProp 𝕄) := by
  unfold Pipeline.ΦA
  rw [scoped_split]
  iintro ⟨HS, Hr, Hg⟩
  isplitl [HS Hr]
  · isplitl [HS]; · iexact HS
    iexact Hr
  iexact Hg

end Cert.Kernel.Scale

end
-- ==== Proof.KeScaleRuns.lean ====
/-
  The body of the scaled-product kernel run whole, once for each way its two conditions can fall on the grid: at the first
  tile of a row block (the scratch block cleared, then the tile's product added), at a middle tile (the product added to
  what the point before left), at the last tile (the product added, then the result block stored). Each run leaves the
  scratch block, and at the last tile the result's buffer, written with the pieces its stores made.
-/
import proofs.«154144_j58067957842338_1_alg».proof.Proof.Gen.Kernel.Launch
import proofs.«154144_j58067957842338_1_alg».proof.Proof.Gen.Kernel.Skeleton
import proofs.«154144_j58067957842338_1_alg».proof.Proof.Gen.Kernel.Points
import proofs.«154144_j58067957842338_1_alg».proof.Proof.KeScale
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Scale

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first tile: the scratch block at anything going in; the result's buffer handed back untouched. -/
noncomputable def runFirst (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (hc0 : isFirst i) (hc1 : ¬isLast i) (x0 : Vec F S1024x1024 .f32) (x1 : Vec F S1024x256 .f32) (x2 : Vec F S1024x1 .f32) (x3 : Vec F S1x1024 .f32) (x4 : Vec F S1x256 .f32) :
    Σ' (L5 : List (View.Piece (Elt F) S1024x256 .f32)), { LS : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc2__gcn_kernel i arg2 harg2 arg3 harg3 arg4 harg4 arg5 harg5 arg6 harg6 arg7 harg7 arg8 harg8) K } := by
  refine ⟨[], ?_, fun xi5 E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

set_option maxHeartbeats 4000000 in
/-- A middle tile: the scratch block at what the point before left; the result's buffer handed back untouched. -/
noncomputable def runMid (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (hc0 : ¬isFirst i) (hc1 : ¬isLast i) (x0 : Vec F S1024x1024 .f32) (x1 : Vec F S1024x256 .f32) (x2 : Vec F S1024x1 .f32) (x3 : Vec F S1x1024 .f32) (x4 : Vec F S1x256 .f32) (xs : Vec F S1024x256 .f32) :
    Σ' (L5 : List (View.Piece (Elt F) S1024x256 .f32)), { LS : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc2__gcn_kernel i arg2 harg2 arg3 harg3 arg4 harg4 arg5 harg5 arg6 harg6 arg7 harg7 arg8 harg8) K } := by
  refine ⟨[], ?_, fun xi5 E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

set_option maxHeartbeats 4000000 in
/-- The last tile: the scratch block at what the point before left; the result's buffer written. -/
noncomputable def runLast (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (hc0 : ¬isFirst i) (hc1 : isLast i) (x0 : Vec F S1024x1024 .f32) (x1 : Vec F S1024x256 .f32) (x2 : Vec F S1024x1 .f32) (x3 : Vec F S1x1024 .f32) (x4 : Vec F S1x256 .f32) (xs : Vec F S1024x256 .f32) :
    Σ' (L5 : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc2__gcn_kernel i arg2 harg2 arg3 harg3 arg4 harg4 arg5 harg5 arg6 harg6 arg7 harg7 arg8 harg8) K } := by
  refine ⟨?_, ?_, fun E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Scale

end
-- ==== Proof.KeScaleData.lean ====
/-
  The scaled-product kernel's proof data. What the scratch block and the result's buffer hold after each point is defined
  by recursion on the point: at the first tile of a row block the run from the point's blocks alone, at every other tile
  the run from the blocks and what the point before left in the scratch block. The region's invariant holds the scratch
  block at exactly that, beside the scoped buffers the region never opens.
-/
import proofs.«154144_j58067957842338_1_alg».proof.Proof.Gen.Kernel.Launch
import proofs.«154144_j58067957842338_1_alg».proof.Proof.Gen.Kernel.Skeleton
import proofs.«154144_j58067957842338_1_alg».proof.Proof.Gen.Kernel.Points
import proofs.«154144_j58067957842338_1_alg».proof.Proof.KeScaleRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Scale

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem accFirst_cover (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : isFirst i) (hc1 : ¬isLast i) (x0 : Vec F S1024x1024 .f32) (x1 : Vec F S1024x256 .f32) (x2 : Vec F S1024x1 .f32) (x3 : Vec F S1x1024 .f32) (x4 : Vec F S1x256 .f32) (y : S1024x256.Idx) :
    ∃ pc ∈ (runFirst c i arg2 harg2 arg3 harg3 arg4 harg4 arg5 harg5 arg6 harg6 arg7 harg7 arg8 harg8 hc0 hc1 x0 x1 x2 x3 x4).2.1, y ∈ pc.1.set :=
  View.cover_of_tiledL (runFirst c i arg2 harg2 arg3 harg3 arg4 harg4 arg5 harg5 arg6 harg6 arg7 harg7 arg8 harg8 hc0 hc1 x0 x1 x2 x3 x4).2.1 S1024x256.size (by sl_kernel_rfl) y
/-- What the case leaves in the scratch block: its pieces, which cover it, read back. -/
def accFirst (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : isFirst i) (hc1 : ¬isLast i) (x0 : Vec F S1024x1024 .f32) (x1 : Vec F S1024x256 .f32) (x2 : Vec F S1024x1 .f32) (x3 : Vec F S1x1024 .f32) (x4 : Vec F S1x256 .f32) : Vec F S1024x256 .f32 :=
  VS.read (Elt F) (VS.writes (Elt F) VS.junk (runFirst c i arg2 harg2 arg3 harg3 arg4 harg4 arg5 harg5 arg6 harg6 arg7 harg7 arg8 harg8 hc0 hc1 x0 x1 x2 x3 x4).2.1)
/-- The result's buffer is not stored into in this case: a placeholder nothing consults. -/
def outFirst (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : isFirst i) (hc1 : ¬isLast i) (x0 : Vec F S1024x1024 .f32) (x1 : Vec F S1024x256 .f32) (x2 : Vec F S1024x1 .f32) (x3 : Vec F S1x1024 .f32) (x4 : Vec F S1x256 .f32) : Vec F S1024x256 .f32 :=
  VO.read (Elt F) (VO.writes (Elt F) VO.junk (runFirst c i arg2 harg2 arg3 harg3 arg4 harg4 arg5 harg5 arg6 harg6 arg7 harg7 arg8 harg8 hc0 hc1 x0 x1 x2 x3 x4).1)

theorem accMid_cover (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬isFirst i) (hc1 : ¬isLast i) (x0 : Vec F S1024x1024 .f32) (x1 : Vec F S1024x256 .f32) (x2 : Vec F S1024x1 .f32) (x3 : Vec F S1x1024 .f32) (x4 : Vec F S1x256 .f32) (xs : Vec F S1024x256 .f32) (y : S1024x256.Idx) :
    ∃ pc ∈ (runMid c i arg2 harg2 arg3 harg3 arg4 harg4 arg5 harg5 arg6 harg6 arg7 harg7 arg8 harg8 hc0 hc1 x0 x1 x2 x3 x4 xs).2.1, y ∈ pc.1.set :=
  View.cover_of_tiledL (runMid c i arg2 harg2 arg3 harg3 arg4 harg4 arg5 harg5 arg6 harg6 arg7 harg7 arg8 harg8 hc0 hc1 x0 x1 x2 x3 x4 xs).2.1 S1024x256.size (by sl_kernel_rfl) y
/-- What the case leaves in the scratch block: its pieces, which cover it, read back. -/
def accMid (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬isFirst i) (hc1 : ¬isLast i) (x0 : Vec F S1024x1024 .f32) (x1 : Vec F S1024x256 .f32) (x2 : Vec F S1024x1 .f32) (x3 : Vec F S1x1024 .f32) (x4 : Vec F S1x256 .f32) (xs : Vec F S1024x256 .f32) : Vec F S1024x256 .f32 :=
  VS.read (Elt F) (VS.writes (Elt F) VS.junk (runMid c i arg2 harg2 arg3 harg3 arg4 harg4 arg5 harg5 arg6 harg6 arg7 harg7 arg8 harg8 hc0 hc1 x0 x1 x2 x3 x4 xs).2.1)
/-- The result's buffer is not stored into in this case: a placeholder nothing consults. -/
def outMid (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬isFirst i) (hc1 : ¬isLast i) (x0 : Vec F S1024x1024 .f32) (x1 : Vec F S1024x256 .f32) (x2 : Vec F S1024x1 .f32) (x3 : Vec F S1x1024 .f32) (x4 : Vec F S1x256 .f32) (xs : Vec F S1024x256 .f32) : Vec F S1024x256 .f32 :=
  VO.read (Elt F) (VO.writes (Elt F) VO.junk (runMid c i arg2 harg2 arg3 harg3 arg4 harg4 arg5 harg5 arg6 harg6 arg7 harg7 arg8 harg8 hc0 hc1 x0 x1 x2 x3 x4 xs).1)

theorem accLast_cover (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬isFirst i) (hc1 : isLast i) (x0 : Vec F S1024x1024 .f32) (x1 : Vec F S1024x256 .f32) (x2 : Vec F S1024x1 .f32) (x3 : Vec F S1x1024 .f32) (x4 : Vec F S1x256 .f32) (xs : Vec F S1024x256 .f32) (y : S1024x256.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S1024x256.size (by sl_kernel_rfl) y
/-- What the case leaves in the scratch block: its pieces, which cover it, read back. -/
def accLast (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬isFirst i) (hc1 : isLast i) (x0 : Vec F S1024x1024 .f32) (x1 : Vec F S1024x256 .f32) (x2 : Vec F S1024x1 .f32) (x3 : Vec F S1x1024 .f32) (x4 : Vec F S1x256 .f32) (xs : Vec F S1024x256 .f32) : Vec F S1024x256 .f32 :=
  VS.read (Elt F) (VS.writes (Elt F) VS.junk (runLast c i arg2 harg2 arg3 harg3 arg4 harg4 arg5 harg5 arg6 harg6 arg7 harg7 arg8 harg8 hc0 hc1 x0 x1 x2 x3 x4 xs).2.1)
theorem outLast_cover (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬isFirst i) (hc1 : isLast i) (x0 : Vec F S1024x1024 .f32) (x1 : Vec F S1024x256 .f32) (x2 : Vec F S1024x1 .f32) (x3 : Vec F S1x1024 .f32) (x4 : Vec F S1x256 .f32) (xs : Vec F S1024x256 .f32) (y : S1024x256.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S1024x256.size (by sl_kernel_rfl) y
/-- What the case leaves in the result's buffer: its store, which covers it, read back. -/
def outLast (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬isFirst i) (hc1 : isLast i) (x0 : Vec F S1024x1024 .f32) (x1 : Vec F S1024x256 .f32) (x2 : Vec F S1024x1 .f32) (x3 : Vec F S1x1024 .f32) (x4 : Vec F S1x256 .f32) (xs : Vec F S1024x256 .f32) : Vec F S1024x256 .f32 :=
  VO.read (Elt F) (VO.writes (Elt F) VO.junk (runLast c i arg2 harg2 arg3 harg3 arg4 harg4 arg5 harg5 arg6 harg6 arg7 harg7 arg8 harg8 hc0 hc1 x0 x1 x2 x3 x4 xs).1)

/-! ## Which case a point is in -/

theorem grid_lt (t : Fin cfg2.N) : t.val < 64 := lt_of_lt_of_eq t.isLt (show cfg2.N = 64 from N_2)
theorem first_of (t : Fin cfg2.N) (h : t.val % 8 = 0) : isFirst (grid2.coords t) := (isFirst_iff t).mpr h
theorem notFirst_of (t : Fin cfg2.N) (h : ¬t.val % 8 = 0) : ¬isFirst (grid2.coords t) := fun hf => h ((isFirst_iff t).mp hf)
theorem last_of (t : Fin cfg2.N) (h : t.val % 8 = 7) : isLast (grid2.coords t) := (isLast_iff t).mpr h
theorem notLast_of (t : Fin cfg2.N) (h : ¬t.val % 8 = 7) : ¬isLast (grid2.coords t) := fun hl => h ((isLast_iff t).mp hl)
theorem notLast_of_first (t : Fin cfg2.N) (h : t.val % 8 = 0) : ¬isLast (grid2.coords t) := notLast_of t (by omega)

/-! ## What the buffers hold after each point -/

/-- After the body at position `n`: the result's buffer, then the scratch block. -/
def outsAt (c : Dev nD) : (n : ℕ) → n < cfg2.N → Vec F S1024x256 .f32 × Vec F S1024x256 .f32
  | 0, hn => (outFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) (first_of ⟨0, hn⟩ (Nat.zero_mod _)) (notLast_of_first ⟨0, hn⟩ (Nat.zero_mod _)) (blk V c 0 ⟨0, hn⟩) (blk V c 1 ⟨0, hn⟩) (blk V c 2 ⟨0, hn⟩) (blk V c 3 ⟨0, hn⟩) (blk V c 4 ⟨0, hn⟩),
              accFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) (first_of ⟨0, hn⟩ (Nat.zero_mod _)) (notLast_of_first ⟨0, hn⟩ (Nat.zero_mod _)) (blk V c 0 ⟨0, hn⟩) (blk V c 1 ⟨0, hn⟩) (blk V c 2 ⟨0, hn⟩) (blk V c 3 ⟨0, hn⟩) (blk V c 4 ⟨0, hn⟩))
  | n + 1, hn =>
    if h0 : (n + 1) % 8 = 0 then
      (outFirst c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (first_of ⟨n + 1, hn⟩ h0) (notLast_of_first ⟨n + 1, hn⟩ h0) (blk V c 0 ⟨n + 1, hn⟩) (blk V c 1 ⟨n + 1, hn⟩) (blk V c 2 ⟨n + 1, hn⟩) (blk V c 3 ⟨n + 1, hn⟩) (blk V c 4 ⟨n + 1, hn⟩),
       accFirst c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (first_of ⟨n + 1, hn⟩ h0) (notLast_of_first ⟨n + 1, hn⟩ h0) (blk V c 0 ⟨n + 1, hn⟩) (blk V c 1 ⟨n + 1, hn⟩) (blk V c 2 ⟨n + 1, hn⟩) (blk V c 3 ⟨n + 1, hn⟩) (blk V c 4 ⟨n + 1, hn⟩))
    else if h1 : (n + 1) % 8 = 7 then
      (outLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (notFirst_of ⟨n + 1, hn⟩ h0) (last_of ⟨n + 1, hn⟩ h1) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2,
       accLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (notFirst_of ⟨n + 1, hn⟩ h0) (last_of ⟨n + 1, hn⟩ h1) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2)
    else
      (outMid c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (notFirst_of ⟨n + 1, hn⟩ h0) (notLast_of ⟨n + 1, hn⟩ h1) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2,
       accMid c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (notFirst_of ⟨n + 1, hn⟩ h0) (notLast_of ⟨n + 1, hn⟩ h1) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2)

theorem outsAt_first (c : Dev nD) (t : Fin cfg2.N) (h0 : t.val % 8 = 0) :
    outsAt V c t.val t.isLt = (outFirst c (grid2.coords t) (ms0 t) (hs0 t) (ms1 t) (hs1 t) (ms2 t) (hs2 t) (ms3 t) (hs3 t) (ms4 t) (hs4 t) (ms5 t) (hs5 t) scM (Memref.isWhole_whole _) (first_of t h0) (notLast_of_first t h0) (blk V c 0 t) (blk V c 1 t) (blk V c 2 t) (blk V c 3 t) (blk V c 4 t),
      accFirst c (grid2.coords t) (ms0 t) (hs0 t) (ms1 t) (hs1 t) (ms2 t) (hs2 t) (ms3 t) (hs3 t) (ms4 t) (hs4 t) (ms5 t) (hs5 t) scM (Memref.isWhole_whole _) (first_of t h0) (notLast_of_first t h0) (blk V c 0 t) (blk V c 1 t) (blk V c 2 t) (blk V c 3 t) (blk V c 4 t)) := by
  obtain ⟨n, hn⟩ := t
  cases n with
  | zero => rfl
  | succ n => exact (dif_pos h0).trans rfl

theorem outsAt_mid (c : Dev nD) (t : Fin cfg2.N) (h0 : ¬t.val % 8 = 0) (h1 : ¬t.val % 8 = 7) :
    outsAt V c t.val t.isLt = (outMid c (grid2.coords t) (ms0 t) (hs0 t) (ms1 t) (hs1 t) (ms2 t) (hs2 t) (ms3 t) (hs3 t) (ms4 t) (hs4 t) (ms5 t) (hs5 t) scM (Memref.isWhole_whole _) (notFirst_of t h0) (notLast_of t h1) (blk V c 0 t) (blk V c 1 t) (blk V c 2 t) (blk V c 3 t) (blk V c 4 t) (outsAt V c (t.val - 1) (Nat.lt_of_le_of_lt (Nat.sub_le _ _) t.isLt)).2,
      accMid c (grid2.coords t) (ms0 t) (hs0 t) (ms1 t) (hs1 t) (ms2 t) (hs2 t) (ms3 t) (hs3 t) (ms4 t) (hs4 t) (ms5 t) (hs5 t) scM (Memref.isWhole_whole _) (notFirst_of t h0) (notLast_of t h1) (blk V c 0 t) (blk V c 1 t) (blk V c 2 t) (blk V c 3 t) (blk V c 4 t) (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt_last (c : Dev nD) (t : Fin cfg2.N) (h0 : ¬t.val % 8 = 0) (h1 : t.val % 8 = 7) :
    outsAt V c t.val t.isLt = (outLast c (grid2.coords t) (ms0 t) (hs0 t) (ms1 t) (hs1 t) (ms2 t) (hs2 t) (ms3 t) (hs3 t) (ms4 t) (hs4 t) (ms5 t) (hs5 t) scM (Memref.isWhole_whole _) (notFirst_of t h0) (last_of t h1) (blk V c 0 t) (blk V c 1 t) (blk V c 2 t) (blk V c 3 t) (blk V c 4 t) (outsAt V c (t.val - 1) (Nat.lt_of_le_of_lt (Nat.sub_le _ _) t.isLt)).2,
      accLast c (grid2.coords t) (ms0 t) (hs0 t) (ms1 t) (hs1 t) (ms2 t) (hs2 t) (ms3 t) (hs3 t) (ms4 t) (hs4 t) (ms5 t) (hs5 t) scM (Memref.isWhole_whole _) (notFirst_of t h0) (last_of t h1) (blk V c 0 t) (blk V c 1 t) (blk V c 2 t) (blk V c 3 t) (blk V c 4 t) (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant -/

def PhiS (c : Dev nD) : (n : ℕ) → n ≤ cfg2.N → sProp 𝕄
  | 0, _ => Pipeline.ΦA spec2 c
  | n + 1, hn => iprop(owns (c : Thread nD τ) scM fullShare ((outsAt V c n hn).2) ∗ others (F := F) c ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(owns (c : Thread nD τ) scM fullShare ((outsAt V c n hn).2) ∗ others (F := F) c ∗ (∃ r, prngReg c r)) := rfl
theorem PhiS_pos (c : Dev nD) (n : ℕ) (h : n ≤ cfg2.N) (hz : n ≠ 0) :
    PhiS V c n h = iprop(owns (c : Thread nD τ) scM fullShare ((outsAt V c (n - 1) (by omega)).2) ∗ others (F := F) c ∗ (∃ r, prngReg c r)) := by
  cases n with
  | zero => exact absurd rfl hz
  | succ n => rfl

/-! ## The proof data -/

def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem Phi_castSucc (c : Dev nD) (t : Fin cfg2.N) : (dat V c).Φ t.castSucc = PhiS V c t.val (Nat.le_of_lt t.isLt) := by
  dsimp only [dat]; simp only [Fin.coe_castSucc]
theorem after0 (c : Dev nD) (t : Fin cfg2.N) : (dat V c).after 0 t = blk V c 0 t := by dsimp only [dat]
theorem after1 (c : Dev nD) (t : Fin cfg2.N) : (dat V c).after 1 t = blk V c 1 t := by dsimp only [dat]
theorem after2 (c : Dev nD) (t : Fin cfg2.N) : (dat V c).after 2 t = blk V c 2 t := by dsimp only [dat]
theorem after3 (c : Dev nD) (t : Fin cfg2.N) : (dat V c).after 3 t = blk V c 3 t := by dsimp only [dat]
theorem after4 (c : Dev nD) (t : Fin cfg2.N) : (dat V c).after 4 t = blk V c 4 t := by dsimp only [dat]
theorem after_out (c : Dev nD) (t : Fin cfg2.N) : (dat V c).after 5 t = (outsAt V c t.val t.isLt).1 := by dsimp only [dat]
theorem before0 (c : Dev nD) (t : Fin cfg2.N) (d) : (dat V c).before 0 t d = blk V c 0 t :=
  before0_of V (dat V c) (A_eq V c 0) (after0 V c) t d
theorem before1 (c : Dev nD) (t : Fin cfg2.N) (d) : (dat V c).before 1 t d = blk V c 1 t :=
  before1_of V (dat V c) (A_eq V c 1) (after1 V c) t d
theorem before2 (c : Dev nD) (t : Fin cfg2.N) (d) : (dat V c).before 2 t d = blk V c 2 t :=
  before2_of V (dat V c) (A_eq V c 2) (after2 V c) t d
theorem before3 (c : Dev nD) (t : Fin cfg2.N) (d) : (dat V c).before 3 t d = blk V c 3 t :=
  before3_of V (dat V c) (A_eq V c 3) (after3 V c) t d
theorem before4 (c : Dev nD) (t : Fin cfg2.N) (d) : (dat V c).before 4 t d = blk V c 4 t :=
  before4_of V (dat V c) (A_eq V c 4) (after4 V c) t d

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 8000000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  rw [show (dat V c).leavesExact 4 t = owns (c : Thread nD τ) (ms4 t) fullShare ((dat V c).after 4 t) from by
    unfold Dat.leavesExact; rw [live4 t], after4]
  have hN := grid_lt t
  by_cases h0 : t.val % 8 = 0
  · have h1 : ¬t.val % 8 = 7 := by omega
    rw [Dat.leavesExact_idle (dat V c) 5 t (idle_out t (notLast_of t h1)) (noflush_out t (notLast_of t h1))]
    rw [outsAt_first V c t h0]
    unfold accFirst; (try dsimp only)
    by_cases hz : t.val = 0
    · rw [Phi_castSucc V c t, PhiS_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := PhiA_open (F := F) c $$ HΦ
      icases HΦ' with ⟨HS, Hr, Hg⟩
      iapply ((runFirst c (grid2.coords t) _ _ _ _ _ _ _ _ _ _ _ _ _ _ (first_of t h0) (notLast_of_first t h0) (blk V c 0 t) (blk V c 1 t) (blk V c 2 t) (blk V c 3 t) (blk V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hr Hg]
      · isplitl [HS]
        · unfold owns; iexists _; isplitr
          swap; · iexact HS
          ipureintro; exact View.read_writes_of_cover _ _ _ _ _ (accFirst_cover c _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [Phi_castSucc V c t, PhiS_pos V c _ _ hz]
      iintro ⟨⟨HS, Hr, Hg⟩, Ho, ⟨%d0, H0⟩, ⟨%d1, H1⟩, ⟨%d2, H2⟩, ⟨%d3, H3⟩, ⟨%d4, H4⟩, ⟨%d5, H5⟩⟩
      iapply ((runFirst c (grid2.coords t) _ _ _ _ _ _ _ _ _ _ _ _ _ _ (first_of t h0) (notLast_of_first t h0) (blk V c 0 t) (blk V c 1 t) (blk V c 2 t) (blk V c 3 t) (blk V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hr Hg]
      · isplitl [HS]
        · unfold owns; iexists _; isplitr
          swap; · iexact HS
          ipureintro; exact View.read_writes_of_cover _ _ _ _ _ (accFirst_cover c _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    rw [Phi_castSucc V c t, PhiS_pos V c _ _ hz]
    by_cases h1 : t.val % 8 = 7
    · rw [show (dat V c).leavesExact 5 t = owns (c : Thread nD τ) (ms5 t) fullShare ((dat V c).after 5 t) from by
        unfold Dat.leavesExact; rw [live_out t (last_of t h1)], after_out]
      rw [outsAt_last V c t h0 h1]
      unfold outLast accLast; (try dsimp only)
      iintro ⟨⟨HS, Hr, Hg⟩, Ho, ⟨%d0, H0⟩, ⟨%d1, H1⟩, ⟨%d2, H2⟩, ⟨%d3, H3⟩, ⟨%d4, H4⟩, ⟨%d5, H5⟩⟩
      iapply ((runLast c (grid2.coords t) _ _ _ _ _ _ _ _ _ _ _ _ _ _ (notFirst_of t h0) (last_of t h1) (blk V c 0 t) (blk V c 1 t) (blk V c 2 t) (blk V c 3 t) (blk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hr Hg]
      · isplitl [HS]
        · unfold owns; iexists _; isplitr
          swap; · iexact HS
          ipureintro; exact View.read_writes_of_cover _ _ _ _ _ (accLast_cover c _ _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outLast_cover c _ _ _ _ _ _ _ _ _ _ _ _ _ _ _ _ _ _ _ _ _ _ _)
    · rw [Dat.leavesExact_idle (dat V c) 5 t (idle_out t (notLast_of t h1)) (noflush_out t (notLast_of t h1))]
      rw [outsAt_mid V c t h0 h1]
      unfold accMid; (try dsimp only)
      iintro ⟨⟨HS, Hr, Hg⟩, Ho, ⟨%d0, H0⟩, ⟨%d1, H1⟩, ⟨%d2, H2⟩, ⟨%d3, H3⟩, ⟨%d4, H4⟩, ⟨%d5, H5⟩⟩
      iapply ((runMid c (grid2.coords t) _ _ _ _ _ _ _ _ _ _ _ _ _ _ (notFirst_of t h0) (notLast_of t h1) (blk V c 0 t) (blk V c 1 t) (blk V c 2 t) (blk V c 3 t) (blk V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hr Hg]
      · isplitl [HS]
        · unfold owns; iexists _; isplitr
          swap; · iexact HS
          ipureintro; exact View.read_writes_of_cover _ _ _ _ _ (accMid_cover c _ _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dat (F := F) V c) (defs₀ (F := F)) Variants.none () Set.univ := fun t => by
  rw [bigSep_W2, bigSep_W2]
  exact sound_body V c t

theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 64 := N_2; omega)]
  unfold Pipeline.ΦA
  rw [scoped_split]
  iintro ⟨HS, Hr, Hg⟩
  isplitl [HS Hr]
  · isplitl [HS]; · iexists _; iexact HS
    iexact Hr
  iexact Hg

end Cert.Kernel.Scale

end
-- ==== Proof.KeRun.lean ====
/-
  The whole program: host operations build the adjacency matrix, the three kernel regions run, two reshapes sit between the
  second and the third. The contents of every unscoped buffer are followed from the launch to the return, segment by
  segment: a host stretch applies its operations, a region leaves its arrays at what its write-backs make of them and
  every other buffer alone. Every weakly fair execution terminates, and the final memory holds each unscoped buffer at
  the end of that fold — in particular the arguments as launched and the result at the last region's output.
-/
import proofs.«154144_j58067957842338_1_alg».proof.Proof.Gen.Kernel.Launch
import proofs.«154144_j58067957842338_1_alg».proof.Proof.Gen.Kernel.Skeleton
import proofs.«154144_j58067957842338_1_alg».proof.Proof.Gen.Kernel.Points
import proofs.«154144_j58067957842338_1_alg».proof.Proof.Gen.Kernel.Regions
import proofs.«154144_j58067957842338_1_alg».proof.Proof.KeProject
import proofs.«154144_j58067957842338_1_alg».proof.Proof.KeDegreeData
import proofs.«154144_j58067957842338_1_alg».proof.Proof.KeScaleData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- At launch. -/
abbrev W0 : Dev nD → Valuation τ sig (Elt F) := fun c b => m ((c : Dev nD), b)
/-- After the host operations that build the adjacency matrix. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At this region's exit: its arrays at what the write-backs leave, every other buffer as entered. -/
def W2 (c : Dev nD) : Valuation τ sig (Elt F) :=
  Pipeline.withArrays spec0 c (W1 m c) fun w => (Project.dat (V1 m) c).arrAt w cfg0.N
theorem W2_arr (c : Dev nD) (w : Fin cfg0.W) :
    W2 m c (Proc.devRef .tc (Pipeline.arrRef spec0 w)) = (Project.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Project.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At this region's exit: its arrays at what the write-backs leave, every other buffer as entered. -/
def W3 (c : Dev nD) : Valuation τ sig (Elt F) :=
  Pipeline.withArrays spec1 c (W2 m c) fun w => (Degree.dat (V2 m) c).arrAt w cfg1.N
theorem W3_arr (c : Dev nD) (w : Fin cfg1.W) :
    W3 m c (Proc.devRef .tc (Pipeline.arrRef spec1 w)) = (Degree.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Degree.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the two reshapes. -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- At this region's exit: its arrays at what the write-backs leave, every other buffer as entered. -/
def W5 (c : Dev nD) : Valuation τ sig (Elt F) :=
  Pipeline.withArrays spec2 c (W4 m c) fun w => (Scale.dat (V4 m) c).arrAt w cfg2.N
theorem W5_arr (c : Dev nD) (w : Fin cfg2.W) :
    W5 m c (Proc.devRef .tc (Pipeline.arrRef spec2 w)) = (Scale.dat (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (Scale.dat (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := (W2_arr m c 0).trans (((Project.dat (V1 m) c).arrAt_in 0 rfl _).trans (Project.A_eq (V1 m) c 0))
    _ = W0 m c (Proc.devRef .tc main_arg0) := StableHlo.after_of_writes_sub hostOps0 _ hostOps0_writes (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := (W2_arr m c 1).trans (((Project.dat (V1 m) c).arrAt_in 1 rfl _).trans (Project.A_eq (V1 m) c 1))
    _ = W0 m c (Proc.devRef .tc main_arg1) := StableHlo.after_of_writes_sub hostOps0 _ hostOps0_writes (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => Project.dat (V1 m) c
  | ⟨1, _⟩ => fun c => Degree.dat (V2 m) c
  | ⟨2, _⟩ => fun c => Scale.dat (V4 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Project.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Degree.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (Degree.dat (V2 m) c).Φ 0 from rfl]
    have hh := Degree.hin (V2 m) c
    unfold Pipeline.ΦA at hh
    iintro ⟨Hp, -, Hr⟩
    iapply hh
    isplitl [Hr]; · iexact Hr
    iexact Hp
  hout c := by
    rw [Pipeline.ownSems0_none, show (pdats m 1 c).Φ (Fin.last _) = (Degree.dat (V2 m) c).Φ (Fin.last cfg1.N) from rfl]
    have hh := Degree.hout (V2 m) c
    unfold Pipeline.ΦA at hh
    iintro HΦ
    ihave H := hh $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Scale.body_obligation (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (Scale.dat (V4 m) c).Φ 0 from rfl]
    have hh := Scale.hin (V4 m) c
    unfold Pipeline.ΦA at hh
    iintro ⟨Hp, -, Hr⟩
    iapply hh
    isplitl [Hr]; · iexact Hr
    iexact Hp
  hout c := by
    rw [Pipeline.ownSems0_none, show (pdats m 2 c).Φ (Fin.last _) = (Scale.dat (V4 m) c).Φ (Fin.last cfg2.N) from rfl]
    have hh := Scale.hout (V4 m) c
    unfold Pipeline.ΦA at hh
    iintro HΦ
    ihave H := hh $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m) ]
theorem main_run (c : Dev nD) : main (F := F) c = Pipeline.Seg.run (segs m) := (main_chain c).trans (by chain_rfl)

set_option backward.isDefEq.respectTransparency.types false in
/-- Every weakly fair execution of the program terminates without a fault, and the final memory holds every unscoped
    buffer of every core at the end of the fold. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: the arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run m ρ)

end Cert.Kernel.Whole

end
-- ==== Proof.KiProject.lean ====
/-
  The first kernel region: the projected features. The grid walks the node rows in eight blocks of 1024; at every
  point the body multiplies the block of `H` by the whole of `W` and stores the product as that block of the result.
  Nothing is carried from one point to the next.
-/
import proofs.«154144_j58067957842338_1_alg».proof.Proof.Gen.KernelIdeal.Launch
import proofs.«154144_j58067957842338_1_alg».proof.Proof.Gen.KernelIdeal.Skeleton
import proofs.«154144_j58067957842338_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Project

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The block of window `w`'s array that point `t` works on. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `H` are staged at every point: the buffer the body reads holds the point's block. -/
theorem before_rows {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- `W` is staged once, at the first point, and its block never moves: the buffer holds it at every point. -/
theorem before_weights {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

abbrev rRows : Rect S1024x256 := Rect.unit (s := S1024x256) ![0, 0] S1024x256.size inb_S1024x256_S1024x256_0_0
abbrev rWeights : Rect S256x256 := Rect.unit (s := S256x256) ![0, 0] S256x256.size inb_S256x256_S256x256_0_0

/-- What the body leaves in the result's buffer: one store of the product, covering the buffer. -/
def prod (x0 : Vec F S1024x256 .f32) (x1 : Vec F S256x256 .f32) : Vec F S1024x256 .f32 :=
  View.canon [⟨rRows, k0_pay1 (View.ld x0 rRows) (View.ld x1 rWeights)⟩]

theorem prod_cover (p0 : Vec F S1024x256 .f32) (y : S1024x256.Idx) :
    ∃ pc ∈ ([⟨rRows, p0⟩] : List (View.Piece (Elt F) S1024x256 .f32)), y ∈ pc.1.set :=
  View.cover_of_tiled [⟨rRows, p0⟩] S1024x256.size (by rfl) y

set_option maxHeartbeats 1000000 in
/-- The body on whole buffers, the two inputs at `x0`, `x1` and the result's at anything, runs to the end leaving the
    inputs as they were and the result's buffer at the product. -/
theorem sound_kernel (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S1024x256 .f32) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod x0 x1)) -∗ K ⟨⟩))
      ⊢ wp frame (wpE (defs₀ (F := F)) Variants.none c none) E (cc0__hw_kernel i arg1 harg1 arg2 harg2 arg3 harg3) K := by
  simp only [cc0__hw_kernel_eq_skeleton]; unfold cc0__hw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod_cover _)

/-- The region's proof data on core `c`: the arrays as the region finds them; after the body each input's buffer at
    its block and the result's at the product of the two blocks; nothing carried, nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => prod (blk V c 0 t) (blk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_rows (c : Dev nD) (t : Fin cfg0.N) : (dat V c).after 0 t = blk V c 0 t := by dsimp only [dat]
theorem after_weights (c : Dev nD) (t : Fin cfg0.N) : (dat V c).after 1 t = blk V c 1 t := by dsimp only [dat]
theorem after_prod (c : Dev nD) (t : Fin cfg0.N) : (dat V c).after 2 t = prod (blk V c 0 t) (blk V c 1 t) := by dsimp only [dat]

theorem before0 (c : Dev nD) (t : Fin cfg0.N) (d) : (dat V c).before 0 t d = blk V c 0 t :=
  before_rows V (dat V c) (A_eq V c 0) (after_rows V c) t d
theorem before1 (c : Dev nD) (t : Fin cfg0.N) (d) : (dat V c).before 1 t d = blk V c 1 t :=
  before_weights V (dat V c) (A_eq V c 1) (after_weights V c) t d

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).Φ t.succ = (dat V c).Φ t.castSucc from rfl,
    show (dat V c).owesAt () t.succ = (dat V c).owesAt () t.castSucc from rfl,
    after_rows, after_weights, after_prod]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W0, bigSep_W0]
  exact sound_body V c t

end Cert.KernelIdeal.Project

end
-- ==== Proof.KiDegree.lean ====
/-
  The second kernel region: the inverse square roots of the column degrees. The grid walks the rows of the adjacency
  matrix in 32 blocks of 256. A scratch row carries the running column sums from point to point: it is cleared at the
  first point, every point adds its block's column sums to it, and at the last point the result row is stored as
  `rsqrt (sums + 1)`. The result's buffer is untouched, and not written back, at every other point.
-/
import proofs.«154144_j58067957842338_1_alg».proof.Proof.Gen.KernelIdeal.Launch
import proofs.«154144_j58067957842338_1_alg».proof.Proof.Gen.KernelIdeal.Skeleton
import proofs.«154144_j58067957842338_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Degree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The block of window `w`'s array that point `t` works on. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of the adjacency matrix are staged at every point: the buffer the body reads holds the point's block. -/
theorem before_rows {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-! ## The body's two conditions, decided over the grid -/

/-- "This is the first block": the scratch row is cleared. -/
abbrev isFirst (i : grid1.Coords) : Prop :=
  (Scalar.cmpi .ne (Scalar.extui (Scalar.cmpi .eq (BitVec.ofNat 32 (i 0).val) 0#32)) 0#32) = 1#1
theorem isFirst_iff : ∀ t : Fin cfg1.N, isFirst (grid1.coords t) ↔ t.val % 32 = 0 :=
  (by decide +kernel : ∀ t : Fin grid1.N, isFirst (grid1.coords t) ↔ t.val % 32 = 0)

/-- "This is the last block": the result row is stored. -/
abbrev isLast (i : grid1.Coords) : Prop := k1_cond2 i = 1#1
theorem isLast_iff : ∀ t : Fin cfg1.N, isLast (grid1.coords t) ↔ t.val % 32 = 31 :=
  (by decide +kernel : ∀ t : Fin grid1.N, isLast (grid1.coords t) ↔ t.val % 32 = 31)

theorem live_rows : ∀ t : Fin cfg1.N, cfg1.idle 0 (grid1.coords t) = false := by decide +kernel
theorem idle_out : ∀ t : Fin cfg1.N, ¬isLast (grid1.coords t) → cfg1.idle 1 (grid1.coords t) = true := by decide +kernel
theorem noflush_out : ∀ t : Fin cfg1.N, ¬isLast (grid1.coords t) → (cfg1.win 1).flush t = false := by decide +kernel
theorem live_out : ∀ t : Fin cfg1.N, isLast (grid1.coords t) → cfg1.idle 1 (grid1.coords t) = false := by decide +kernel

/-! ## The buffers the body is called with -/

abbrev VO : View sig .tc .vmem S1x8192 .f32 := (Memref.whole cc1_stg1_0 : Memref sig .tc .vmem S1x8192 .f32).view
abbrev msRows (t : Fin cfg1.N) : Memref sig .tc .vmem S256x8192 .f32 := win1_0.stage (cfg1.slots t 0)
abbrev hsRows (t : Fin cfg1.N) : (msRows t).IsWhole := hstage1_0 ((cfg1.slots t 0).cast nbuf1_0)
abbrev msOut (t : Fin cfg1.N) : Memref sig .tc .vmem S1x8192 .f32 := win1_1.stage (cfg1.slots t 1)
abbrev hsOut (t : Fin cfg1.N) : (msOut t).IsWhole := hstage1_1 ((cfg1.slots t 1).cast nbuf1_1)
/-- The scratch row carrying the running sums. -/
abbrev scM : Memref sig .tc .vmem S1x8192 .f32 := Memref.whole cc1_scratch0
abbrev VS : View sig .tc .vmem S1x8192 .f32 := scM.view

/-- The core's other scoped buffers, which this region never opens. -/
abbrev others (c : Dev nD) : sProp 𝕄 :=
  Pipeline.scopedRestBut (Ix := Unit) (Name := ℕ) (U := UR sig nD τ) (Lvl := ℕ) (Val := Elt F) spec1 c [cc1_scratch0]

theorem scratch_mem : ([cc1_scratch0] : List (Ref sig .tc)).Forall fun b => b.isScoped = true ∧ ∀ (w : Fin 2) (s : Fin (spec1 w).nbuf), ((spec1 w).stage s).view.ref ≠ b := by
  decide

/-- The core's scoped buffers that are no staging buffer of this region: the scratch row, and the buffers never opened. -/
theorem scoped_split (c : Dev nD) :
    (Pipeline.scopedRest (Ix := Unit) (Name := ℕ) (U := UR sig nD τ) (Lvl := ℕ) (Val := Elt F) spec1 c : sProp 𝕄)
      = iprop((∃ d, owns (c : Thread nD τ) scM fullShare d) ∗ others (F := F) c) := by
  rw [Pipeline.scopedRest_split_of_list (Ix := Unit) (Name := ℕ) (U := UR sig nD τ) (Lvl := ℕ) (Val := Elt F) (win := spec1) (c := c) [cc1_scratch0] scratch_mem (by decide)]
  simp only [bigSepL, scM, owns_whole]
  rfl

/-- The class's invariant opened at the scratch row: it is held at some contents beside the buffers never opened and the
    generator register. -/
theorem PhiA_open (c : Dev nD) :
    (Pipeline.ΦA spec1 c : sProp 𝕄) ⊢ iprop((∃ d, owns (c : Thread nD τ) scM fullShare d) ∗ others (F := F) c ∗ (∃ r, prngReg c r)) := by
  unfold Pipeline.ΦA
  rw [scoped_split]
  iintro ⟨⟨HS, Hr⟩, Hg⟩
  isplitl [HS]; · iexact HS
  isplitl [Hr]; · iexact Hr
  iexact Hg

theorem PhiA_close (c : Dev nD) :
    iprop((∃ d, owns (c : Thread nD τ) scM fullShare d) ∗ others (F := F) c ∗ (∃ r, prngReg c r)) ⊢ (Pipeline.ΦA spec1 c : sProp 𝕄) := by
  unfold Pipeline.ΦA
  rw [scoped_split]
  iintro ⟨HS, Hr, Hg⟩
  isplitl [HS Hr]
  · isplitl [HS]; · iexact HS
    iexact Hr
  iexact Hg

end Cert.KernelIdeal.Degree

end
-- ==== Proof.KiDegreeRuns.lean ====
/-
  The body of the degree kernel run whole, once for each way its two conditions can fall on the grid: at the first block
  (the scratch row cleared, then the block's column sums added), at a middle block (the sums added to what the point
  before left), at the last block (the sums added, then the result row stored). Each run leaves the scratch row, and at
  the last block the result's buffer, written with the pieces its stores made.
-/
import proofs.«154144_j58067957842338_1_alg».proof.Proof.Gen.KernelIdeal.Launch
import proofs.«154144_j58067957842338_1_alg».proof.Proof.Gen.KernelIdeal.Skeleton
import proofs.«154144_j58067957842338_1_alg».proof.Proof.Gen.KernelIdeal.Points
import proofs.«154144_j58067957842338_1_alg».proof.Proof.KiDegree
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Degree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The first block: the scratch row at anything going in; the result's buffer handed back untouched. -/
noncomputable def runFirst (c : Dev nD) (i : grid1.Coords) (arg1 : Memref sig .tc .vmem S256x8192 .f32) (harg1 : arg1.IsWhole)
    (arg2 : Memref sig .tc .vmem S1x8192 .f32) (harg2 : arg2.IsWhole) (arg3 : Memref sig .tc .vmem S1x8192 .f32) (harg3 : arg3.IsWhole)
    (hc0 : isFirst i) (hc1 : ¬isLast i) (x0 : Vec F S256x8192 .f32) :
    Σ' (L1 : List (View.Piece (Elt F) S1x8192 .f32)), { LS : List (View.Piece (Elt F) S1x8192 .f32) //
      ∀ (xi1 : Vec F S1x8192 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS)) -∗ K ⟨⟩))
          ⊢ wp frame (wpE (defs₀ (F := F)) Variants.none c none) E (cc1__degree_kernel i arg1 harg1 arg2 harg2 arg3 harg3) K } := by
  refine ⟨[], ?_, fun xi1 E K => ?run⟩
  case run =>
    simp only [cc1__degree_kernel_eq_skeleton]; unfold cc1__degree_kernel_skel
    unfold owns
    iintro ⟨⟨%f0, %hf0, H0⟩, ⟨%f1, %hf1, H1⟩, ⟨%ds, %fs, -, HS⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS

set_option maxHeartbeats 2000000 in
/-- A middle block: the scratch row at what the point before left; the result's buffer handed back untouched. -/
noncomputable def runMid (c : Dev nD) (i : grid1.Coords) (arg1 : Memref sig .tc .vmem S256x8192 .f32) (harg1 : arg1.IsWhole)
    (arg2 : Memref sig .tc .vmem S1x8192 .f32) (harg2 : arg2.IsWhole) (arg3 : Memref sig .tc .vmem S1x8192 .f32) (harg3 : arg3.IsWhole)
    (hc0 : ¬isFirst i) (hc1 : ¬isLast i) (x0 : Vec F S256x8192 .f32) (xs : Vec F S1x8192 .f32) :
    Σ' (L1 : List (View.Piece (Elt F) S1x8192 .f32)), { LS : List (View.Piece (Elt F) S1x8192 .f32) //
      ∀ (xi1 : Vec F S1x8192 .f32) (E : Set ℕ) (K : PUnit → sProp 𝕄),
        iprop(owns (c : Thread nD τ) arg1 fullShare x0 ∗ owns (c : Thread nD τ) arg2 fullShare xi1 ∗ owns (c : Thread nD τ) arg3 fullShare xs
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS)) -∗ K ⟨⟩))
          ⊢ wp frame (wpE (defs₀ (F := F)) Variants.none c none) E (cc1__degree_kernel i arg1 harg1 arg2 harg2 arg3 harg3) K } := by
  refine ⟨[], ?_, fun xi1 E K => ?run⟩
  case run =>
    simp only [cc1__degree_kernel_eq_skeleton]; unfold cc1__degree_kernel_skel
    unfold owns
    iintro ⟨⟨%f0, %hf0, H0⟩, ⟨%f1, %hf1, H1⟩, ⟨%fs, %hfs, HS⟩, Hk⟩
    obtain rfl := harg1.eq_unread hf0; obtain rfl := harg2.eq_unread hf1; obtain rfl := harg3.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS

set_option maxHeartbeats 2000000 in
/-- The last block: the scratch row at what the point before left; the result's buffer written. -/
noncomputable def runLast (c : Dev nD) (i : grid1.Coords) (arg1 : Memref sig .tc .vmem S256x8192 .f32) (harg1 : arg1.IsWhole)
    (arg2 : Memref sig .tc .vmem S1x8192 .f32) (harg2 : arg2.IsWhole) (arg3 : Memref sig .tc .vmem S1x8192 .f32) (harg3 : arg3.IsWhole)
    (hc0 : ¬isFirst i) (hc1 : isLast i) (x0 : Vec F S256x8192 .f32) (xs : Vec F S1x8192 .f32) :
    Σ' (L1 : List (View.Piece (Elt F) S1x8192 .f32)), { LS : List (View.Piece (Elt F) S1x8192 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS)) -∗ K ⟨⟩))
          ⊢ wp frame (wpE (defs₀ (F := F)) Variants.none c none) E (cc1__degree_kernel i arg1 harg1 arg2 harg2 arg3 harg3) K } := by
  refine ⟨?_, ?_, fun E K => ?run⟩
  case run =>
    simp only [cc1__degree_kernel_eq_skeleton]; unfold cc1__degree_kernel_skel
    unfold owns
    iintro ⟨⟨%f0, %hf0, H0⟩, ⟨%d1, %f1, -, H1⟩, ⟨%fs, %hfs, HS⟩, Hk⟩
    obtain rfl := harg1.eq_unread hf0; obtain rfl := harg3.eq_unread hfs
    sl_exec (disch := first | exact hc0 | exact hc1)
    sl_step
    iapply Hk
    isplitl [H0]
    · iexists _; isplitr; · ipureintro; exact harg1.read_unread _
      iexact H0
    isplitl [H1]; · iexists _; iexact H1
    iexists _; iexact HS

end Cert.KernelIdeal.Degree

end
-- ==== Proof.KiDegreeData.lean ====
/-
  The degree kernel's proof data. What the scratch row and the result's buffer hold after each point is defined by
  recursion on the point: the first point's run from the block alone, every later point's run from the block and what
  the point before left in the scratch row. The region's invariant holds the scratch row at exactly that, beside the
  scoped buffers the region never opens.
-/
import proofs.«154144_j58067957842338_1_alg».proof.Proof.Gen.KernelIdeal.Launch
import proofs.«154144_j58067957842338_1_alg».proof.Proof.Gen.KernelIdeal.Skeleton
import proofs.«154144_j58067957842338_1_alg».proof.Proof.Gen.KernelIdeal.Points
import proofs.«154144_j58067957842338_1_alg».proof.Proof.KiDegreeRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Degree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the first case leaves in the scratch row: its pieces cover it, -/
theorem accFirst_cover (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : isFirst i) (hc1 : ¬isLast i) (x0 : Vec F S256x8192 .f32) (y : S1x8192.Idx) :
    ∃ pc ∈ (runFirst c i arg1 harg1 arg2 harg2 arg3 harg3 hc0 hc1 x0).2.1, y ∈ pc.1.set :=
  View.cover_of_tiledL (runFirst c i arg1 harg1 arg2 harg2 arg3 harg3 hc0 hc1 x0).2.1 S1x8192.size (by sl_kernel_rfl) y
/-- and read back they are its contents. -/
def accFirst (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : isFirst i) (hc1 : ¬isLast i) (x0 : Vec F S256x8192 .f32) : Vec F S1x8192 .f32 :=
  VS.read (Elt F) (VS.writes (Elt F) VS.junk (runFirst c i arg1 harg1 arg2 harg2 arg3 harg3 hc0 hc1 x0).2.1)
/-- The result's buffer is not stored into in this case: a placeholder nothing consults. -/
def outFirst (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : isFirst i) (hc1 : ¬isLast i) (x0 : Vec F S256x8192 .f32) : Vec F S1x8192 .f32 :=
  VO.read (Elt F) (VO.writes (Elt F) VO.junk (runFirst c i arg1 harg1 arg2 harg2 arg3 harg3 hc0 hc1 x0).1)

/-- What the mid case leaves in the scratch row: its pieces cover it, -/
theorem accMid_cover (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : ¬isFirst i) (hc1 : ¬isLast i) (x0 : Vec F S256x8192 .f32) (xs : Vec F S1x8192 .f32) (y : S1x8192.Idx) :
    ∃ pc ∈ (runMid c i arg1 harg1 arg2 harg2 arg3 harg3 hc0 hc1 x0 xs).2.1, y ∈ pc.1.set :=
  View.cover_of_tiledL (runMid c i arg1 harg1 arg2 harg2 arg3 harg3 hc0 hc1 x0 xs).2.1 S1x8192.size (by sl_kernel_rfl) y
/-- and read back they are its contents. -/
def accMid (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : ¬isFirst i) (hc1 : ¬isLast i) (x0 : Vec F S256x8192 .f32) (xs : Vec F S1x8192 .f32) : Vec F S1x8192 .f32 :=
  VS.read (Elt F) (VS.writes (Elt F) VS.junk (runMid c i arg1 harg1 arg2 harg2 arg3 harg3 hc0 hc1 x0 xs).2.1)
/-- The result's buffer is not stored into in this case: a placeholder nothing consults. -/
def outMid (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : ¬isFirst i) (hc1 : ¬isLast i) (x0 : Vec F S256x8192 .f32) (xs : Vec F S1x8192 .f32) : Vec F S1x8192 .f32 :=
  VO.read (Elt F) (VO.writes (Elt F) VO.junk (runMid c i arg1 harg1 arg2 harg2 arg3 harg3 hc0 hc1 x0 xs).1)

/-- What the last case leaves in the scratch row: its pieces cover it, -/
theorem accLast_cover (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : ¬isFirst i) (hc1 : isLast i) (x0 : Vec F S256x8192 .f32) (xs : Vec F S1x8192 .f32) (y : S1x8192.Idx) :
    ∃ pc ∈ (runLast c i arg1 harg1 arg2 harg2 arg3 harg3 hc0 hc1 x0 xs).2.1, y ∈ pc.1.set :=
  View.cover_of_tiledL (runLast c i arg1 harg1 arg2 harg2 arg3 harg3 hc0 hc1 x0 xs).2.1 S1x8192.size (by sl_kernel_rfl) y
/-- and read back they are its contents. -/
def accLast (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : ¬isFirst i) (hc1 : isLast i) (x0 : Vec F S256x8192 .f32) (xs : Vec F S1x8192 .f32) : Vec F S1x8192 .f32 :=
  VS.read (Elt F) (VS.writes (Elt F) VS.junk (runLast c i arg1 harg1 arg2 harg2 arg3 harg3 hc0 hc1 x0 xs).2.1)
/-- The last case's store of the result row covers its buffer, -/
theorem outLast_cover (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : ¬isFirst i) (hc1 : isLast i) (x0 : Vec F S256x8192 .f32) (xs : Vec F S1x8192 .f32) (y : S1x8192.Idx) :
    ∃ pc ∈ (runLast c i arg1 harg1 arg2 harg2 arg3 harg3 hc0 hc1 x0 xs).1, y ∈ pc.1.set :=
  View.cover_of_tiledL (runLast c i arg1 harg1 arg2 harg2 arg3 harg3 hc0 hc1 x0 xs).1 S1x8192.size (by sl_kernel_rfl) y
/-- and read back it is the buffer's contents. -/
def outLast (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : ¬isFirst i) (hc1 : isLast i) (x0 : Vec F S256x8192 .f32) (xs : Vec F S1x8192 .f32) : Vec F S1x8192 .f32 :=
  VO.read (Elt F) (VO.writes (Elt F) VO.junk (runLast c i arg1 harg1 arg2 harg2 arg3 harg3 hc0 hc1 x0 xs).1)

/-! ## Which case a point is in -/

theorem grid_lt (t : Fin cfg1.N) : t.val < 32 := lt_of_lt_of_eq t.isLt (show cfg1.N = 32 from N_1)
theorem first_of_zero (t : Fin cfg1.N) (h : t.val = 0) : isFirst (grid1.coords t) := (isFirst_iff t).mpr (by rw [h])
theorem notFirst_of_pos (t : Fin cfg1.N) (h : t.val ≠ 0) : ¬isFirst (grid1.coords t) := fun hf => by
  have h' := (isFirst_iff t).mp hf; have := grid_lt t; omega
theorem last_of (t : Fin cfg1.N) (h : t.val % 32 = 31) : isLast (grid1.coords t) := (isLast_iff t).mpr h
theorem notLast_of (t : Fin cfg1.N) (h : ¬t.val % 32 = 31) : ¬isLast (grid1.coords t) := fun hl => h ((isLast_iff t).mp hl)
theorem notLast_of_zero (t : Fin cfg1.N) (h : t.val = 0) : ¬isLast (grid1.coords t) := notLast_of t (by rw [h]; decide)

/-! ## What the buffers hold after each point -/

/-- After the body at position `n`: the result's buffer, then the scratch row. -/
def outsAt (c : Dev nD) : (n : ℕ) → n < cfg1.N → Vec F S1x8192 .f32 × Vec F S1x8192 .f32
  | 0, hn => (outFirst c (grid1.coords ⟨0, hn⟩) (msRows ⟨0, hn⟩) (hsRows ⟨0, hn⟩) (msOut ⟨0, hn⟩) (hsOut ⟨0, hn⟩) scM (Memref.isWhole_whole _) (first_of_zero ⟨0, hn⟩ rfl) (notLast_of_zero ⟨0, hn⟩ rfl) (blk V c 0 ⟨0, hn⟩),
              accFirst c (grid1.coords ⟨0, hn⟩) (msRows ⟨0, hn⟩) (hsRows ⟨0, hn⟩) (msOut ⟨0, hn⟩) (hsOut ⟨0, hn⟩) scM (Memref.isWhole_whole _) (first_of_zero ⟨0, hn⟩ rfl) (notLast_of_zero ⟨0, hn⟩ rfl) (blk V c 0 ⟨0, hn⟩))
  | n + 1, hn =>
    if h1 : (n + 1) % 32 = 31 then
      (outLast c (grid1.coords ⟨n + 1, hn⟩) (msRows ⟨n + 1, hn⟩) (hsRows ⟨n + 1, hn⟩) (msOut ⟨n + 1, hn⟩) (hsOut ⟨n + 1, hn⟩) scM (Memref.isWhole_whole _) (notFirst_of_pos ⟨n + 1, hn⟩ (Nat.succ_ne_zero n)) (last_of ⟨n + 1, hn⟩ h1) (blk V c 0 ⟨n + 1, hn⟩) (outsAt c n (Nat.lt_of_succ_lt hn)).2,
       accLast c (grid1.coords ⟨n + 1, hn⟩) (msRows ⟨n + 1, hn⟩) (hsRows ⟨n + 1, hn⟩) (msOut ⟨n + 1, hn⟩) (hsOut ⟨n + 1, hn⟩) scM (Memref.isWhole_whole _) (notFirst_of_pos ⟨n + 1, hn⟩ (Nat.succ_ne_zero n)) (last_of ⟨n + 1, hn⟩ h1) (blk V c 0 ⟨n + 1, hn⟩) (outsAt c n (Nat.lt_of_succ_lt hn)).2)
    else
      (outMid c (grid1.coords ⟨n + 1, hn⟩) (msRows ⟨n + 1, hn⟩) (hsRows ⟨n + 1, hn⟩) (msOut ⟨n + 1, hn⟩) (hsOut ⟨n + 1, hn⟩) scM (Memref.isWhole_whole _) (notFirst_of_pos ⟨n + 1, hn⟩ (Nat.succ_ne_zero n)) (notLast_of ⟨n + 1, hn⟩ h1) (blk V c 0 ⟨n + 1, hn⟩) (outsAt c n (Nat.lt_of_succ_lt hn)).2,
       accMid c (grid1.coords ⟨n + 1, hn⟩) (msRows ⟨n + 1, hn⟩) (hsRows ⟨n + 1, hn⟩) (msOut ⟨n + 1, hn⟩) (hsOut ⟨n + 1, hn⟩) scM (Memref.isWhole_whole _) (notFirst_of_pos ⟨n + 1, hn⟩ (Nat.succ_ne_zero n)) (notLast_of ⟨n + 1, hn⟩ h1) (blk V c 0 ⟨n + 1, hn⟩) (outsAt c n (Nat.lt_of_succ_lt hn)).2)

theorem outsAt_first (c : Dev nD) (t : Fin cfg1.N) (hz : t.val = 0) :
    outsAt V c t.val t.isLt = (outFirst c (grid1.coords t) (msRows t) (hsRows t) (msOut t) (hsOut t) scM (Memref.isWhole_whole _) (first_of_zero t hz) (notLast_of_zero t hz) (blk V c 0 t),
      accFirst c (grid1.coords t) (msRows t) (hsRows t) (msOut t) (hsOut t) scM (Memref.isWhole_whole _) (first_of_zero t hz) (notLast_of_zero t hz) (blk V c 0 t)) := by
  obtain ⟨n, hn⟩ := t
  cases n with
  | zero => rfl
  | succ n => exact absurd hz (Nat.succ_ne_zero n)

theorem outsAt_mid (c : Dev nD) (t : Fin cfg1.N) (hz : t.val ≠ 0) (h1 : ¬t.val % 32 = 31) :
    outsAt V c t.val t.isLt = (outMid c (grid1.coords t) (msRows t) (hsRows t) (msOut t) (hsOut t) scM (Memref.isWhole_whole _) (notFirst_of_pos t hz) (notLast_of t h1) (blk V c 0 t) (outsAt V c (t.val - 1) (Nat.lt_of_le_of_lt (Nat.sub_le _ _) t.isLt)).2,
      accMid c (grid1.coords t) (msRows t) (hsRows t) (msOut t) (hsOut t) scM (Memref.isWhole_whole _) (notFirst_of_pos t hz) (notLast_of t h1) (blk V c 0 t) (outsAt V c (t.val - 1) (Nat.lt_of_le_of_lt (Nat.sub_le _ _) t.isLt)).2) := by
  obtain ⟨n, hn⟩ := t
  cases n with
  | zero => exact absurd rfl hz
  | succ n => exact (dif_neg h1).trans rfl

theorem outsAt_last (c : Dev nD) (t : Fin cfg1.N) (hz : t.val ≠ 0) (h1 : t.val % 32 = 31) :
    outsAt V c t.val t.isLt = (outLast c (grid1.coords t) (msRows t) (hsRows t) (msOut t) (hsOut t) scM (Memref.isWhole_whole _) (notFirst_of_pos t hz) (last_of t h1) (blk V c 0 t) (outsAt V c (t.val - 1) (Nat.lt_of_le_of_lt (Nat.sub_le _ _) t.isLt)).2,
      accLast c (grid1.coords t) (msRows t) (hsRows t) (msOut t) (hsOut t) scM (Memref.isWhole_whole _) (notFirst_of_pos t hz) (last_of t h1) (blk V c 0 t) (outsAt V c (t.val - 1) (Nat.lt_of_le_of_lt (Nat.sub_le _ _) t.isLt)).2) := by
  obtain ⟨n, hn⟩ := t
  cases n with
  | zero => exact absurd rfl hz
  | succ n => exact (dif_pos h1).trans rfl

/-! ## The invariant -/

/-- Before position `n`: before the first point the class's invariant (the scratch row at anything); afterwards the scratch
    row at what the point before left, the buffers never opened, the generator register. -/
def PhiS (c : Dev nD) : (n : ℕ) → n ≤ cfg1.N → sProp 𝕄
  | 0, _ => Pipeline.ΦA spec1 c
  | n + 1, hn => iprop(owns (c : Thread nD τ) scM fullShare ((outsAt V c n hn).2) ∗ others (F := F) c ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scM fullShare ((outsAt V c n hn).2) ∗ others (F := F) c ∗ (∃ r, prngReg c r)) := rfl
theorem PhiS_pos (c : Dev nD) (n : ℕ) (h : n ≤ cfg1.N) (hz : n ≠ 0) :
    PhiS V c n h = iprop(owns (c : Thread nD τ) scM fullShare ((outsAt V c (n - 1) (by omega)).2) ∗ others (F := F) c ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) : (dat V c).Φ t.castSucc = PhiS V c t.val (Nat.le_of_lt t.isLt) := by
  dsimp only [dat]; simp only [Fin.coe_castSucc]
theorem after_rows (c : Dev nD) (t : Fin cfg1.N) : (dat V c).after 0 t = blk V c 0 t := by dsimp only [dat]
theorem after_out (c : Dev nD) (t : Fin cfg1.N) : (dat V c).after 1 t = (outsAt V c t.val t.isLt).1 := by dsimp only [dat]
theorem before0 (c : Dev nD) (t : Fin cfg1.N) (d) : (dat V c).before 0 t d = blk V c 0 t :=
  before_rows V (dat V c) (A_eq V c 0) (after_rows V c) t d

def bodyPre (c : Dev nD) (t : Fin cfg1.N) : sProp 𝕄 :=
  iprop((dat V c).Φ t.castSucc ∗ (dat V c).owesAt () t.castSucc
    ∗ (∃ d, owns (c : Thread nD τ) (msRows t) fullShare ((dat V c).before 0 t d))
    ∗ (∃ d, owns (c : Thread nD τ) (msOut t) fullShare ((dat V c).before 1 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (msRows t) fullShare ((dat V c).after 0 t) from by
    unfold Dat.leavesExact; rw [live_rows t], after_rows]
  have hN := grid_lt t
  by_cases hz : t.val = 0
  · have h1 : ¬t.val % 32 = 31 := by rw [hz]; decide
    rw [Dat.leavesExact_idle (dat V c) 1 t (idle_out t (notLast_of t h1)) (noflush_out t (notLast_of t h1))]
    rw [outsAt_first V c t hz]
    unfold accFirst; (try dsimp only)
    rw [Phi_castSucc V c t, PhiS_zero V c _ _ hz]
    iintro ⟨HΦ, Ho, ⟨%d0, H0⟩, ⟨%d1, H1⟩⟩
    ihave HΦ' := PhiA_open (F := F) c $$ HΦ
    icases HΦ' with ⟨HS, Hr, Hg⟩
    iapply ((runFirst c (grid1.coords t) _ _ _ _ _ _ (first_of_zero t hz) (notLast_of_zero t hz) (blk V c 0 t)).2.2 _ Set.univ _)
    isplitl [H0]; · iexact H0
    isplitl [H1]; · iexact H1
    isplitl [HS]; · iexact HS
    iintro ⟨H0, H1, ⟨%es, HS⟩⟩
    isplitl [HS Hr Hg]
    · isplitl [HS]
      · unfold owns; iexists _; isplitr
        swap; · iexact HS
        ipureintro; exact View.read_writes_of_cover _ _ _ _ _ (accFirst_cover c _ _ _ _ _ _ _ _ _ _)
      isplitl [Hr]; · iexact Hr
      iexact Hg
    isplitl [Ho]; · iexact Ho
    isplitl [H0]; · iexact H0
    iexists _; iexact H1
  · rw [Phi_castSucc V c t, PhiS_pos V c _ _ hz]
    by_cases h1 : t.val % 32 = 31
    · rw [show (dat V c).leavesExact 1 t = owns (c : Thread nD τ) (msOut t) fullShare ((dat V c).after 1 t) from by
        unfold Dat.leavesExact; rw [live_out t (last_of t h1)], after_out]
      rw [outsAt_last V c t hz h1]
      unfold outLast accLast; (try dsimp only)
      iintro ⟨⟨HS, Hr, Hg⟩, Ho, ⟨%d0, H0⟩, ⟨%d1, H1⟩⟩
      iapply ((runLast c (grid1.coords t) _ _ _ _ _ _ (notFirst_of_pos t hz) (last_of t h1) (blk V c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hr Hg]
      · isplitl [HS]
        · unfold owns; iexists _; isplitr
          swap; · iexact HS
          ipureintro; exact View.read_writes_of_cover _ _ _ _ _ (accLast_cover c _ _ _ _ _ _ _ _ _ _ _)
        isplitl [Hr]; · iexact Hr
        iexact Hg
      isplitl [Ho]; · iexact Ho
      isplitl [H0]; · iexact H0
      unfold owns; iexists _; isplitr
      swap; · iexact H1
      ipureintro; exact View.read_writes_of_cover _ _ _ _ _ (outLast_cover c _ _ _ _ _ _ _ _ _ _ _)
    · rw [Dat.leavesExact_idle (dat V c) 1 t (idle_out t (notLast_of t h1)) (noflush_out t (notLast_of t h1))]
      rw [outsAt_mid V c t hz h1]
      unfold accMid; (try dsimp only)
      iintro ⟨⟨HS, Hr, Hg⟩, Ho, ⟨%d0, H0⟩, ⟨%d1, H1⟩⟩
      iapply ((runMid c (grid1.coords t) _ _ _ _ _ _ (notFirst_of_pos t hz) (notLast_of t h1) (blk V c 0 t) _).2.2 _ Set.univ _)
      isplitl [H0]; · iexact H0
      isplitl [H1]; · iexact H1
      isplitl [HS]; · iexact HS
      iintro ⟨H0, H1, ⟨%es, HS⟩⟩
      isplitl [HS Hr Hg]
      · isplitl [HS]
        · unfold owns; iexists _; isplitr
          swap; · iexact HS
          ipureintro; exact View.read_writes_of_cover _ _ _ _ _ (accMid_cover c _ _ _ _ _ _ _ _ _ _ _)
        isplitl [Hr]; · iexact Hr
        iexact Hg
      isplitl [Ho]; · iexact Ho
      isplitl [H0]; · iexact H0
      iexists _; iexact H1

theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: what the scratch row holds is forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  unfold Pipeline.ΦA
  rw [scoped_split]
  iintro ⟨HS, Hr, Hg⟩
  isplitl [HS Hr]
  · isplitl [HS]; · iexists _; iexact HS
    iexact Hr
  iexact Hg

end Cert.KernelIdeal.Degree

end
-- ==== Proof.KiScale.lean ====
/-
  The third kernel region: the scaled adjacency matrix times the projected features, plus the bias. The grid is 8 × 8
  over tiles of 1024 × 1024 of the adjacency matrix: for each block of rows the second coordinate walks the contracted
  axis. A scratch block carries the partial products: it is cleared at the first tile of a row block, every tile adds
  its product to it — the tile with the identity added on the diagonal tiles, each entry scaled by its row's and its
  column's factor —, and at the last tile the result block is stored as the scratch plus the bias row. The result's
  buffer is untouched, and not written back, at every other point.
-/
import proofs.«154144_j58067957842338_1_alg».proof.Proof.Gen.KernelIdeal.Launch
import proofs.«154144_j58067957842338_1_alg».proof.Proof.Gen.KernelIdeal.Skeleton
import proofs.«154144_j58067957842338_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Scale

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` works on. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input's buffer holds the point's block, staged at that point or earlier with the block unmoved since. -/
theorem before0_of {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before1_of {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before2_of {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before3_of {c : Dev nD} (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before4_of {c : Dev nD} (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The body's two conditions, decided over the grid -/

/-- "This is the first tile of the row block": the scratch block is cleared. -/
abbrev isFirst (i : grid2.Coords) : Prop :=
  (Scalar.cmpi .ne (Scalar.extui (Scalar.cmpi .eq (BitVec.ofNat 32 (i 1).val) 0#32)) 0#32) = 1#1
theorem isFirst_iff : ∀ t : Fin cfg2.N, isFirst (grid2.coords t) ↔ t.val % 8 = 0 :=
  (by decide +kernel : ∀ t : Fin grid2.N, isFirst (grid2.coords t) ↔ t.val % 8 = 0)

/-- "This is the last tile of the row block": the result block is stored. -/
abbrev isLast (i : grid2.Coords) : Prop := k2_cond2 i = 1#1
theorem isLast_iff : ∀ t : Fin cfg2.N, isLast (grid2.coords t) ↔ t.val % 8 = 7 :=
  (by decide +kernel : ∀ t : Fin grid2.N, isLast (grid2.coords t) ↔ t.val % 8 = 7)

theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
theorem live3 : ∀ t : Fin cfg2.N, cfg2.idle 3 (grid2.coords t) = false := by decide +kernel
theorem live4 : ∀ t : Fin cfg2.N, cfg2.idle 4 (grid2.coords t) = false := by decide +kernel
theorem idle_out : ∀ t : Fin cfg2.N, ¬isLast (grid2.coords t) → cfg2.idle 5 (grid2.coords t) = true := by decide +kernel
theorem noflush_out : ∀ t : Fin cfg2.N, ¬isLast (grid2.coords t) → (cfg2.win 5).flush t = false := by decide +kernel
theorem live_out : ∀ t : Fin cfg2.N, isLast (grid2.coords t) → cfg2.idle 5 (grid2.coords t) = false := by decide +kernel

/-! ## The buffers the body is called with -/

abbrev VO : View sig .tc .vmem S1024x256 .f32 := (Memref.whole cc2_stg5_0 : Memref sig .tc .vmem S1024x256 .f32).view
abbrev ms0 (t : Fin cfg2.N) : Memref sig .tc .vmem S1024x1024 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1024x256 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1024x1 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x1024 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x256 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S1024x256 .f32 := win2_5.stage (cfg2.slots t 5)
abbrev hs5 (t : Fin cfg2.N) : (ms5 t).IsWhole := hstage2_5 ((cfg2.slots t 5).cast nbuf2_5)
/-- The scratch block carrying the partial products. -/
abbrev scM : Memref sig .tc .vmem S1024x256 .f32 := Memref.whole cc2_scratch0
abbrev VS : View sig .tc .vmem S1024x256 .f32 := scM.view

/-- The core's other scoped buffers, which this region never opens. -/
abbrev others (c : Dev nD) : sProp 𝕄 :=
  Pipeline.scopedRestBut (Ix := Unit) (Name := ℕ) (U := UR sig nD τ) (Lvl := ℕ) (Val := Elt F) spec2 c [cc2_scratch0]

theorem scratch_mem : ([cc2_scratch0] : List (Ref sig .tc)).Forall fun b => b.isScoped = true ∧ ∀ (w : Fin 6) (s : Fin (spec2 w).nbuf), ((spec2 w).stage s).view.ref ≠ b := by
  decide

theorem scoped_split (c : Dev nD) :
    (Pipeline.scopedRest (Ix := Unit) (Name := ℕ) (U := UR sig nD τ) (Lvl := ℕ) (Val := Elt F) spec2 c : sProp 𝕄)
      = iprop((∃ d, owns (c : Thread nD τ) scM fullShare d) ∗ others (F := F) c) := by
  rw [Pipeline.scopedRest_split_of_list (Ix := Unit) (Name := ℕ) (U := UR sig nD τ) (Lvl := ℕ) (Val := Elt F) (win := spec2) (c := c) [cc2_scratch0] scratch_mem (by decide)]
  simp only [bigSepL, scM, owns_whole]
  rfl

theorem PhiA_open (c : Dev nD) :
    (Pipeline.ΦA spec2 c : sProp 𝕄) ⊢ iprop((∃ d, owns (c : Thread nD τ) scM fullShare d) ∗ others (F := F) c ∗ (∃ r, prngReg c r)) := by
  unfold Pipeline.ΦA
  rw [scoped_split]
  iintro ⟨⟨HS, Hr⟩, Hg⟩
  isplitl [HS]; · iexact HS
  isplitl [Hr]; · iexact Hr
  iexact Hg

theorem PhiA_close (c : Dev nD) :
    iprop((∃ d, owns (c : Thread nD τ) scM fullShare d) ∗ others (F := F) c ∗ (∃ r, prngReg c r)) ⊢ (Pipeline.ΦA spec2 c : sProp 𝕄) := by
  unfold Pipeline.ΦA
  rw [scoped_split]
  iintro ⟨HS, Hr, Hg⟩
  isplitl [HS Hr]
  · isplitl [HS]; · iexact HS
    iexact Hr
  iexact Hg

end Cert.KernelIdeal.Scale

end
-- ==== Proof.KiScaleRuns.lean ====
/-
  The body of the scaled-product kernel run whole, once for each way its two conditions can fall on the grid: at the first
  tile of a row block (the scratch block cleared, then the tile's product added), at a middle tile (the product added to
  what the point before left), at the last tile (the product added, then the result block stored). Each run leaves the
  scratch block, and at the last tile the result's buffer, written with the pieces its stores made.
-/
import proofs.«154144_j58067957842338_1_alg».proof.Proof.Gen.KernelIdeal.Launch
import proofs.«154144_j58067957842338_1_alg».proof.Proof.Gen.KernelIdeal.Skeleton
import proofs.«154144_j58067957842338_1_alg».proof.Proof.Gen.KernelIdeal.Points
import proofs.«154144_j58067957842338_1_alg».proof.Proof.KiScale
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Scale

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first tile: the scratch block at anything going in; the result's buffer handed back untouched. -/
noncomputable def runFirst (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (hc0 : isFirst i) (hc1 : ¬isLast i) (x0 : Vec F S1024x1024 .f32) (x1 : Vec F S1024x256 .f32) (x2 : Vec F S1024x1 .f32) (x3 : Vec F S1x1024 .f32) (x4 : Vec F S1x256 .f32) :
    Σ' (L5 : List (View.Piece (Elt F) S1024x256 .f32)), { LS : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc2__gcn_kernel i arg2 harg2 arg3 harg3 arg4 harg4 arg5 harg5 arg6 harg6 arg7 harg7 arg8 harg8) K } := by
  refine ⟨[], ?_, fun xi5 E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

set_option maxHeartbeats 4000000 in
/-- A middle tile: the scratch block at what the point before left; the result's buffer handed back untouched. -/
noncomputable def runMid (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (hc0 : ¬isFirst i) (hc1 : ¬isLast i) (x0 : Vec F S1024x1024 .f32) (x1 : Vec F S1024x256 .f32) (x2 : Vec F S1024x1 .f32) (x3 : Vec F S1x1024 .f32) (x4 : Vec F S1x256 .f32) (xs : Vec F S1024x256 .f32) :
    Σ' (L5 : List (View.Piece (Elt F) S1024x256 .f32)), { LS : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc2__gcn_kernel i arg2 harg2 arg3 harg3 arg4 harg4 arg5 harg5 arg6 harg6 arg7 harg7 arg8 harg8) K } := by
  refine ⟨[], ?_, fun xi5 E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

set_option maxHeartbeats 4000000 in
/-- The last tile: the scratch block at what the point before left; the result's buffer written. -/
noncomputable def runLast (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (hc0 : ¬isFirst i) (hc1 : isLast i) (x0 : Vec F S1024x1024 .f32) (x1 : Vec F S1024x256 .f32) (x2 : Vec F S1024x1 .f32) (x3 : Vec F S1x1024 .f32) (x4 : Vec F S1x256 .f32) (xs : Vec F S1024x256 .f32) :
    Σ' (L5 : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc2__gcn_kernel i arg2 harg2 arg3 harg3 arg4 harg4 arg5 harg5 arg6 harg6 arg7 harg7 arg8 harg8) K } := by
  refine ⟨?_, ?_, fun E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Scale

end
-- ==== Proof.KiScaleData.lean ====
/-
  The scaled-product kernel's proof data. What the scratch block and the result's buffer hold after each point is defined
  by recursion on the point: at the first tile of a row block the run from the point's blocks alone, at every other tile
  the run from the blocks and what the point before left in the scratch block. The region's invariant holds the scratch
  block at exactly that, beside the scoped buffers the region never opens.
-/
import proofs.«154144_j58067957842338_1_alg».proof.Proof.Gen.KernelIdeal.Launch
import proofs.«154144_j58067957842338_1_alg».proof.Proof.Gen.KernelIdeal.Skeleton
import proofs.«154144_j58067957842338_1_alg».proof.Proof.Gen.KernelIdeal.Points
import proofs.«154144_j58067957842338_1_alg».proof.Proof.KiScaleRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Scale

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem accFirst_cover (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : isFirst i) (hc1 : ¬isLast i) (x0 : Vec F S1024x1024 .f32) (x1 : Vec F S1024x256 .f32) (x2 : Vec F S1024x1 .f32) (x3 : Vec F S1x1024 .f32) (x4 : Vec F S1x256 .f32) (y : S1024x256.Idx) :
    ∃ pc ∈ (runFirst c i arg2 harg2 arg3 harg3 arg4 harg4 arg5 harg5 arg6 harg6 arg7 harg7 arg8 harg8 hc0 hc1 x0 x1 x2 x3 x4).2.1, y ∈ pc.1.set :=
  View.cover_of_tiledL (runFirst c i arg2 harg2 arg3 harg3 arg4 harg4 arg5 harg5 arg6 harg6 arg7 harg7 arg8 harg8 hc0 hc1 x0 x1 x2 x3 x4).2.1 S1024x256.size (by sl_kernel_rfl) y
/-- What the case leaves in the scratch block: its pieces, which cover it, read back. -/
def accFirst (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : isFirst i) (hc1 : ¬isLast i) (x0 : Vec F S1024x1024 .f32) (x1 : Vec F S1024x256 .f32) (x2 : Vec F S1024x1 .f32) (x3 : Vec F S1x1024 .f32) (x4 : Vec F S1x256 .f32) : Vec F S1024x256 .f32 :=
  VS.read (Elt F) (VS.writes (Elt F) VS.junk (runFirst c i arg2 harg2 arg3 harg3 arg4 harg4 arg5 harg5 arg6 harg6 arg7 harg7 arg8 harg8 hc0 hc1 x0 x1 x2 x3 x4).2.1)
/-- The result's buffer is not stored into in this case: a placeholder nothing consults. -/
def outFirst (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : isFirst i) (hc1 : ¬isLast i) (x0 : Vec F S1024x1024 .f32) (x1 : Vec F S1024x256 .f32) (x2 : Vec F S1024x1 .f32) (x3 : Vec F S1x1024 .f32) (x4 : Vec F S1x256 .f32) : Vec F S1024x256 .f32 :=
  VO.read (Elt F) (VO.writes (Elt F) VO.junk (runFirst c i arg2 harg2 arg3 harg3 arg4 harg4 arg5 harg5 arg6 harg6 arg7 harg7 arg8 harg8 hc0 hc1 x0 x1 x2 x3 x4).1)

theorem accMid_cover (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬isFirst i) (hc1 : ¬isLast i) (x0 : Vec F S1024x1024 .f32) (x1 : Vec F S1024x256 .f32) (x2 : Vec F S1024x1 .f32) (x3 : Vec F S1x1024 .f32) (x4 : Vec F S1x256 .f32) (xs : Vec F S1024x256 .f32) (y : S1024x256.Idx) :
    ∃ pc ∈ (runMid c i arg2 harg2 arg3 harg3 arg4 harg4 arg5 harg5 arg6 harg6 arg7 harg7 arg8 harg8 hc0 hc1 x0 x1 x2 x3 x4 xs).2.1, y ∈ pc.1.set :=
  View.cover_of_tiledL (runMid c i arg2 harg2 arg3 harg3 arg4 harg4 arg5 harg5 arg6 harg6 arg7 harg7 arg8 harg8 hc0 hc1 x0 x1 x2 x3 x4 xs).2.1 S1024x256.size (by sl_kernel_rfl) y
/-- What the case leaves in the scratch block: its pieces, which cover it, read back. -/
def accMid (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬isFirst i) (hc1 : ¬isLast i) (x0 : Vec F S1024x1024 .f32) (x1 : Vec F S1024x256 .f32) (x2 : Vec F S1024x1 .f32) (x3 : Vec F S1x1024 .f32) (x4 : Vec F S1x256 .f32) (xs : Vec F S1024x256 .f32) : Vec F S1024x256 .f32 :=
  VS.read (Elt F) (VS.writes (Elt F) VS.junk (runMid c i arg2 harg2 arg3 harg3 arg4 harg4 arg5 harg5 arg6 harg6 arg7 harg7 arg8 harg8 hc0 hc1 x0 x1 x2 x3 x4 xs).2.1)
/-- The result's buffer is not stored into in this case: a placeholder nothing consults. -/
def outMid (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬isFirst i) (hc1 : ¬isLast i) (x0 : Vec F S1024x1024 .f32) (x1 : Vec F S1024x256 .f32) (x2 : Vec F S1024x1 .f32) (x3 : Vec F S1x1024 .f32) (x4 : Vec F S1x256 .f32) (xs : Vec F S1024x256 .f32) : Vec F S1024x256 .f32 :=
  VO.read (Elt F) (VO.writes (Elt F) VO.junk (runMid c i arg2 harg2 arg3 harg3 arg4 harg4 arg5 harg5 arg6 harg6 arg7 harg7 arg8 harg8 hc0 hc1 x0 x1 x2 x3 x4 xs).1)

theorem accLast_cover (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬isFirst i) (hc1 : isLast i) (x0 : Vec F S1024x1024 .f32) (x1 : Vec F S1024x256 .f32) (x2 : Vec F S1024x1 .f32) (x3 : Vec F S1x1024 .f32) (x4 : Vec F S1x256 .f32) (xs : Vec F S1024x256 .f32) (y : S1024x256.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S1024x256.size (by sl_kernel_rfl) y
/-- What the case leaves in the scratch block: its pieces, which cover it, read back. -/
def accLast (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬isFirst i) (hc1 : isLast i) (x0 : Vec F S1024x1024 .f32) (x1 : Vec F S1024x256 .f32) (x2 : Vec F S1024x1 .f32) (x3 : Vec F S1x1024 .f32) (x4 : Vec F S1x256 .f32) (xs : Vec F S1024x256 .f32) : Vec F S1024x256 .f32 :=
  VS.read (Elt F) (VS.writes (Elt F) VS.junk (runLast c i arg2 harg2 arg3 harg3 arg4 harg4 arg5 harg5 arg6 harg6 arg7 harg7 arg8 harg8 hc0 hc1 x0 x1 x2 x3 x4 xs).2.1)
theorem outLast_cover (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬isFirst i) (hc1 : isLast i) (x0 : Vec F S1024x1024 .f32) (x1 : Vec F S1024x256 .f32) (x2 : Vec F S1024x1 .f32) (x3 : Vec F S1x1024 .f32) (x4 : Vec F S1x256 .f32) (xs : Vec F S1024x256 .f32) (y : S1024x256.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S1024x256.size (by sl_kernel_rfl) y
/-- What the case leaves in the result's buffer: its store, which covers it, read back. -/
def outLast (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬isFirst i) (hc1 : isLast i) (x0 : Vec F S1024x1024 .f32) (x1 : Vec F S1024x256 .f32) (x2 : Vec F S1024x1 .f32) (x3 : Vec F S1x1024 .f32) (x4 : Vec F S1x256 .f32) (xs : Vec F S1024x256 .f32) : Vec F S1024x256 .f32 :=
  VO.read (Elt F) (VO.writes (Elt F) VO.junk (runLast c i arg2 harg2 arg3 harg3 arg4 harg4 arg5 harg5 arg6 harg6 arg7 harg7 arg8 harg8 hc0 hc1 x0 x1 x2 x3 x4 xs).1)

/-! ## Which case a point is in -/

theorem grid_lt (t : Fin cfg2.N) : t.val < 64 := lt_of_lt_of_eq t.isLt (show cfg2.N = 64 from N_2)
theorem first_of (t : Fin cfg2.N) (h : t.val % 8 = 0) : isFirst (grid2.coords t) := (isFirst_iff t).mpr h
theorem notFirst_of (t : Fin cfg2.N) (h : ¬t.val % 8 = 0) : ¬isFirst (grid2.coords t) := fun hf => h ((isFirst_iff t).mp hf)
theorem last_of (t : Fin cfg2.N) (h : t.val % 8 = 7) : isLast (grid2.coords t) := (isLast_iff t).mpr h
theorem notLast_of (t : Fin cfg2.N) (h : ¬t.val % 8 = 7) : ¬isLast (grid2.coords t) := fun hl => h ((isLast_iff t).mp hl)
theorem notLast_of_first (t : Fin cfg2.N) (h : t.val % 8 = 0) : ¬isLast (grid2.coords t) := notLast_of t (by omega)

/-! ## What the buffers hold after each point -/

/-- After the body at position `n`: the result's buffer, then the scratch block. -/
def outsAt (c : Dev nD) : (n : ℕ) → n < cfg2.N → Vec F S1024x256 .f32 × Vec F S1024x256 .f32
  | 0, hn => (outFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) (first_of ⟨0, hn⟩ (Nat.zero_mod _)) (notLast_of_first ⟨0, hn⟩ (Nat.zero_mod _)) (blk V c 0 ⟨0, hn⟩) (blk V c 1 ⟨0, hn⟩) (blk V c 2 ⟨0, hn⟩) (blk V c 3 ⟨0, hn⟩) (blk V c 4 ⟨0, hn⟩),
              accFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) (first_of ⟨0, hn⟩ (Nat.zero_mod _)) (notLast_of_first ⟨0, hn⟩ (Nat.zero_mod _)) (blk V c 0 ⟨0, hn⟩) (blk V c 1 ⟨0, hn⟩) (blk V c 2 ⟨0, hn⟩) (blk V c 3 ⟨0, hn⟩) (blk V c 4 ⟨0, hn⟩))
  | n + 1, hn =>
    if h0 : (n + 1) % 8 = 0 then
      (outFirst c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (first_of ⟨n + 1, hn⟩ h0) (notLast_of_first ⟨n + 1, hn⟩ h0) (blk V c 0 ⟨n + 1, hn⟩) (blk V c 1 ⟨n + 1, hn⟩) (blk V c 2 ⟨n + 1, hn⟩) (blk V c 3 ⟨n + 1, hn⟩) (blk V c 4 ⟨n + 1, hn⟩),
       accFirst c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (first_of ⟨n + 1, hn⟩ h0) (notLast_of_first ⟨n + 1, hn⟩ h0) (blk V c 0 ⟨n + 1, hn⟩) (blk V c 1 ⟨n + 1, hn⟩) (blk V c 2 ⟨n + 1, hn⟩) (blk V c 3 ⟨n + 1, hn⟩) (blk V c 4 ⟨n + 1, hn⟩))
    else if h1 : (n + 1) % 8 = 7 then
      (outLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (notFirst_of ⟨n + 1, hn⟩ h0) (last_of ⟨n + 1, hn⟩ h1) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2,
       accLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (notFirst_of ⟨n + 1, hn⟩ h0) (last_of ⟨n + 1, hn⟩ h1) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2)
    else
      (outMid c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (notFirst_of ⟨n + 1, hn⟩ h0) (notLast_of ⟨n + 1, hn⟩ h1) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2,
       accMid c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (notFirst_of ⟨n + 1, hn⟩ h0) (notLast_of ⟨n + 1, hn⟩ h1) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2)

theorem outsAt_first (c : Dev nD) (t : Fin cfg2.N) (h0 : t.val % 8 = 0) :
    outsAt V c t.val t.isLt = (outFirst c (grid2.coords t) (ms0 t) (hs0 t) (ms1 t) (hs1 t) (ms2 t) (hs2 t) (ms3 t) (hs3 t) (ms4 t) (hs4 t) (ms5 t) (hs5 t) scM (Memref.isWhole_whole _) (first_of t h0) (notLast_of_first t h0) (blk V c 0 t) (blk V c 1 t) (blk V c 2 t) (blk V c 3 t) (blk V c 4 t),
      accFirst c (grid2.coords t) (ms0 t) (hs0 t) (ms1 t) (hs1 t) (ms2 t) (hs2 t) (ms3 t) (hs3 t) (ms4 t) (hs4 t) (ms5 t) (hs5 t) scM (Memref.isWhole_whole _) (first_of t h0) (notLast_of_first t h0) (blk V c 0 t) (blk V c 1 t) (blk V c 2 t) (blk V c 3 t) (blk V c 4 t)) := by
  obtain ⟨n, hn⟩ := t
  cases n with
  | zero => rfl
  | succ n => exact (dif_pos h0).trans rfl

theorem outsAt_mid (c : Dev nD) (t : Fin cfg2.N) (h0 : ¬t.val % 8 = 0) (h1 : ¬t.val % 8 = 7) :
    outsAt V c t.val t.isLt = (outMid c (grid2.coords t) (ms0 t) (hs0 t) (ms1 t) (hs1 t) (ms2 t) (hs2 t) (ms3 t) (hs3 t) (ms4 t) (hs4 t) (ms5 t) (hs5 t) scM (Memref.isWhole_whole _) (notFirst_of t h0) (notLast_of t h1) (blk V c 0 t) (blk V c 1 t) (blk V c 2 t) (blk V c 3 t) (blk V c 4 t) (outsAt V c (t.val - 1) (Nat.lt_of_le_of_lt (Nat.sub_le _ _) t.isLt)).2,
      accMid c (grid2.coords t) (ms0 t) (hs0 t) (ms1 t) (hs1 t) (ms2 t) (hs2 t) (ms3 t) (hs3 t) (ms4 t) (hs4 t) (ms5 t) (hs5 t) scM (Memref.isWhole_whole _) (notFirst_of t h0) (notLast_of t h1) (blk V c 0 t) (blk V c 1 t) (blk V c 2 t) (blk V c 3 t) (blk V c 4 t) (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt_last (c : Dev nD) (t : Fin cfg2.N) (h0 : ¬t.val % 8 = 0) (h1 : t.val % 8 = 7) :
    outsAt V c t.val t.isLt = (outLast c (grid2.coords t) (ms0 t) (hs0 t) (ms1 t) (hs1 t) (ms2 t) (hs2 t) (ms3 t) (hs3 t) (ms4 t) (hs4 t) (ms5 t) (hs5 t) scM (Memref.isWhole_whole _) (notFirst_of t h0) (last_of t h1) (blk V c 0 t) (blk V c 1 t) (blk V c 2 t) (blk V c 3 t) (blk V c 4 t) (outsAt V c (t.val - 1) (Nat.lt_of_le_of_lt (Nat.sub_le _ _) t.isLt)).2,
      accLast c (grid2.coords t) (ms0 t) (hs0 t) (ms1 t) (hs1 t) (ms2 t) (hs2 t) (ms3 t) (hs3 t) (ms4 t) (hs4 t) (ms5 t) (hs5 t) scM (Memref.isWhole_whole _) (notFirst_of t h0) (last_of t h1) (blk V c 0 t) (blk V c 1 t) (blk V c 2 t) (blk V c 3 t) (blk V c 4 t) (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant -/

def PhiS (c : Dev nD) : (n : ℕ) → n ≤ cfg2.N → sProp 𝕄
  | 0, _ => Pipeline.ΦA spec2 c
  | n + 1, hn => iprop(owns (c : Thread nD τ) scM fullShare ((outsAt V c n hn).2) ∗ others (F := F) c ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(owns (c : Thread nD τ) scM fullShare ((outsAt V c n hn).2) ∗ others (F := F) c ∗ (∃ r, prngReg c r)) := rfl
theorem PhiS_pos (c : Dev nD) (n : ℕ) (h : n ≤ cfg2.N) (hz : n ≠ 0) :
    PhiS V c n h = iprop(owns (c : Thread nD τ) scM fullShare ((outsAt V c (n - 1) (by omega)).2) ∗ others (F := F) c ∗ (∃ r, prngReg c r)) := by
  cases n with
  | zero => exact absurd rfl hz
  | succ n => rfl

/-! ## The proof data -/

def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem Phi_castSucc (c : Dev nD) (t : Fin cfg2.N) : (dat V c).Φ t.castSucc = PhiS V c t.val (Nat.le_of_lt t.isLt) := by
  dsimp only [dat]; simp only [Fin.coe_castSucc]
theorem after0 (c : Dev nD) (t : Fin cfg2.N) : (dat V c).after 0 t = blk V c 0 t := by dsimp only [dat]
theorem after1 (c : Dev nD) (t : Fin cfg2.N) : (dat V c).after 1 t = blk V c 1 t := by dsimp only [dat]
theorem after2 (c : Dev nD) (t : Fin cfg2.N) : (dat V c).after 2 t = blk V c 2 t := by dsimp only [dat]
theorem after3 (c : Dev nD) (t : Fin cfg2.N) : (dat V c).after 3 t = blk V c 3 t := by dsimp only [dat]
theorem after4 (c : Dev nD) (t : Fin cfg2.N) : (dat V c).after 4 t = blk V c 4 t := by dsimp only [dat]
theorem after_out (c : Dev nD) (t : Fin cfg2.N) : (dat V c).after 5 t = (outsAt V c t.val t.isLt).1 := by dsimp only [dat]
theorem before0 (c : Dev nD) (t : Fin cfg2.N) (d) : (dat V c).before 0 t d = blk V c 0 t :=
  before0_of V (dat V c) (A_eq V c 0) (after0 V c) t d
theorem before1 (c : Dev nD) (t : Fin cfg2.N) (d) : (dat V c).before 1 t d = blk V c 1 t :=
  before1_of V (dat V c) (A_eq V c 1) (after1 V c) t d
theorem before2 (c : Dev nD) (t : Fin cfg2.N) (d) : (dat V c).before 2 t d = blk V c 2 t :=
  before2_of V (dat V c) (A_eq V c 2) (after2 V c) t d
theorem before3 (c : Dev nD) (t : Fin cfg2.N) (d) : (dat V c).before 3 t d = blk V c 3 t :=
  before3_of V (dat V c) (A_eq V c 3) (after3 V c) t d
theorem before4 (c : Dev nD) (t : Fin cfg2.N) (d) : (dat V c).before 4 t d = blk V c 4 t :=
  before4_of V (dat V c) (A_eq V c 4) (after4 V c) t d

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 8000000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  rw [show (dat V c).leavesExact 4 t = owns (c : Thread nD τ) (ms4 t) fullShare ((dat V c).after 4 t) from by
    unfold Dat.leavesExact; rw [live4 t], after4]
  have hN := grid_lt t
  by_cases h0 : t.val % 8 = 0
  · have h1 : ¬t.val % 8 = 7 := by omega
    rw [Dat.leavesExact_idle (dat V c) 5 t (idle_out t (notLast_of t h1)) (noflush_out t (notLast_of t h1))]
    rw [outsAt_first V c t h0]
    unfold accFirst; (try dsimp only)
    by_cases hz : t.val = 0
    · rw [Phi_castSucc V c t, PhiS_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := PhiA_open (F := F) c $$ HΦ
      icases HΦ' with ⟨HS, Hr, Hg⟩
      iapply ((runFirst c (grid2.coords t) _ _ _ _ _ _ _ _ _ _ _ _ _ _ (first_of t h0) (notLast_of_first t h0) (blk V c 0 t) (blk V c 1 t) (blk V c 2 t) (blk V c 3 t) (blk V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hr Hg]
      · isplitl [HS]
        · unfold owns; iexists _; isplitr
          swap; · iexact HS
          ipureintro; exact View.read_writes_of_cover _ _ _ _ _ (accFirst_cover c _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [Phi_castSucc V c t, PhiS_pos V c _ _ hz]
      iintro ⟨⟨HS, Hr, Hg⟩, Ho, ⟨%d0, H0⟩, ⟨%d1, H1⟩, ⟨%d2, H2⟩, ⟨%d3, H3⟩, ⟨%d4, H4⟩, ⟨%d5, H5⟩⟩
      iapply ((runFirst c (grid2.coords t) _ _ _ _ _ _ _ _ _ _ _ _ _ _ (first_of t h0) (notLast_of_first t h0) (blk V c 0 t) (blk V c 1 t) (blk V c 2 t) (blk V c 3 t) (blk V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hr Hg]
      · isplitl [HS]
        · unfold owns; iexists _; isplitr
          swap; · iexact HS
          ipureintro; exact View.read_writes_of_cover _ _ _ _ _ (accFirst_cover c _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    rw [Phi_castSucc V c t, PhiS_pos V c _ _ hz]
    by_cases h1 : t.val % 8 = 7
    · rw [show (dat V c).leavesExact 5 t = owns (c : Thread nD τ) (ms5 t) fullShare ((dat V c).after 5 t) from by
        unfold Dat.leavesExact; rw [live_out t (last_of t h1)], after_out]
      rw [outsAt_last V c t h0 h1]
      unfold outLast accLast; (try dsimp only)
      iintro ⟨⟨HS, Hr, Hg⟩, Ho, ⟨%d0, H0⟩, ⟨%d1, H1⟩, ⟨%d2, H2⟩, ⟨%d3, H3⟩, ⟨%d4, H4⟩, ⟨%d5, H5⟩⟩
      iapply ((runLast c (grid2.coords t) _ _ _ _ _ _ _ _ _ _ _ _ _ _ (notFirst_of t h0) (last_of t h1) (blk V c 0 t) (blk V c 1 t) (blk V c 2 t) (blk V c 3 t) (blk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hr Hg]
      · isplitl [HS]
        · unfold owns; iexists _; isplitr
          swap; · iexact HS
          ipureintro; exact View.read_writes_of_cover _ _ _ _ _ (accLast_cover c _ _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outLast_cover c _ _ _ _ _ _ _ _ _ _ _ _ _ _ _ _ _ _ _ _ _ _ _)
    · rw [Dat.leavesExact_idle (dat V c) 5 t (idle_out t (notLast_of t h1)) (noflush_out t (notLast_of t h1))]
      rw [outsAt_mid V c t h0 h1]
      unfold accMid; (try dsimp only)
      iintro ⟨⟨HS, Hr, Hg⟩, Ho, ⟨%d0, H0⟩, ⟨%d1, H1⟩, ⟨%d2, H2⟩, ⟨%d3, H3⟩, ⟨%d4, H4⟩, ⟨%d5, H5⟩⟩
      iapply ((runMid c (grid2.coords t) _ _ _ _ _ _ _ _ _ _ _ _ _ _ (notFirst_of t h0) (notLast_of t h1) (blk V c 0 t) (blk V c 1 t) (blk V c 2 t) (blk V c 3 t) (blk V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hr Hg]
      · isplitl [HS]
        · unfold owns; iexists _; isplitr
          swap; · iexact HS
          ipureintro; exact View.read_writes_of_cover _ _ _ _ _ (accMid_cover c _ _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dat (F := F) V c) (defs₀ (F := F)) Variants.none () Set.univ := fun t => by
  rw [bigSep_W2, bigSep_W2]
  exact sound_body V c t

theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 64 := N_2; omega)]
  unfold Pipeline.ΦA
  rw [scoped_split]
  iintro ⟨HS, Hr, Hg⟩
  isplitl [HS Hr]
  · isplitl [HS]; · iexists _; iexact HS
    iexact Hr
  iexact Hg

end Cert.KernelIdeal.Scale

end
-- ==== Proof.KiRun.lean ====
/-
  The whole program: host operations build the adjacency matrix, the three kernel regions run, two reshapes sit between the
  second and the third. The contents of every unscoped buffer are followed from the launch to the return, segment by
  segment: a host stretch applies its operations, a region leaves its arrays at what its write-backs make of them and
  every other buffer alone. Every weakly fair execution terminates, and the final memory holds each unscoped buffer at
  the end of that fold — in particular the arguments as launched and the result at the last region's output.
-/
import proofs.«154144_j58067957842338_1_alg».proof.Proof.Gen.KernelIdeal.Launch
import proofs.«154144_j58067957842338_1_alg».proof.Proof.Gen.KernelIdeal.Skeleton
import proofs.«154144_j58067957842338_1_alg».proof.Proof.Gen.KernelIdeal.Points
import proofs.«154144_j58067957842338_1_alg».proof.Proof.Gen.KernelIdeal.Regions
import proofs.«154144_j58067957842338_1_alg».proof.Proof.KiProject
import proofs.«154144_j58067957842338_1_alg».proof.Proof.KiDegreeData
import proofs.«154144_j58067957842338_1_alg».proof.Proof.KiScaleData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- At launch. -/
abbrev W0 : Dev nD → Valuation τ sig (Elt F) := fun c b => m ((c : Dev nD), b)
/-- After the host operations that build the adjacency matrix. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At this region's exit: its arrays at what the write-backs leave, every other buffer as entered. -/
def W2 (c : Dev nD) : Valuation τ sig (Elt F) :=
  Pipeline.withArrays spec0 c (W1 m c) fun w => (Project.dat (V1 m) c).arrAt w cfg0.N
theorem W2_arr (c : Dev nD) (w : Fin cfg0.W) :
    W2 m c (Proc.devRef .tc (Pipeline.arrRef spec0 w)) = (Project.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Project.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At this region's exit: its arrays at what the write-backs leave, every other buffer as entered. -/
def W3 (c : Dev nD) : Valuation τ sig (Elt F) :=
  Pipeline.withArrays spec1 c (W2 m c) fun w => (Degree.dat (V2 m) c).arrAt w cfg1.N
theorem W3_arr (c : Dev nD) (w : Fin cfg1.W) :
    W3 m c (Proc.devRef .tc (Pipeline.arrRef spec1 w)) = (Degree.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Degree.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the two reshapes. -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- At this region's exit: its arrays at what the write-backs leave, every other buffer as entered. -/
def W5 (c : Dev nD) : Valuation τ sig (Elt F) :=
  Pipeline.withArrays spec2 c (W4 m c) fun w => (Scale.dat (V4 m) c).arrAt w cfg2.N
theorem W5_arr (c : Dev nD) (w : Fin cfg2.W) :
    W5 m c (Proc.devRef .tc (Pipeline.arrRef spec2 w)) = (Scale.dat (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (Scale.dat (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := (W2_arr m c 0).trans (((Project.dat (V1 m) c).arrAt_in 0 rfl _).trans (Project.A_eq (V1 m) c 0))
    _ = W0 m c (Proc.devRef .tc main_arg0) := StableHlo.after_of_writes_sub hostOps0 _ hostOps0_writes (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := (W2_arr m c 1).trans (((Project.dat (V1 m) c).arrAt_in 1 rfl _).trans (Project.A_eq (V1 m) c 1))
    _ = W0 m c (Proc.devRef .tc main_arg1) := StableHlo.after_of_writes_sub hostOps0 _ hostOps0_writes (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => Project.dat (V1 m) c
  | ⟨1, _⟩ => fun c => Degree.dat (V2 m) c
  | ⟨2, _⟩ => fun c => Scale.dat (V4 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Project.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Degree.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (Degree.dat (V2 m) c).Φ 0 from rfl]
    have hh := Degree.hin (V2 m) c
    unfold Pipeline.ΦA at hh
    iintro ⟨Hp, -, Hr⟩
    iapply hh
    isplitl [Hr]; · iexact Hr
    iexact Hp
  hout c := by
    rw [Pipeline.ownSems0_none, show (pdats m 1 c).Φ (Fin.last _) = (Degree.dat (V2 m) c).Φ (Fin.last cfg1.N) from rfl]
    have hh := Degree.hout (V2 m) c
    unfold Pipeline.ΦA at hh
    iintro HΦ
    ihave H := hh $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Scale.body_obligation (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (Scale.dat (V4 m) c).Φ 0 from rfl]
    have hh := Scale.hin (V4 m) c
    unfold Pipeline.ΦA at hh
    iintro ⟨Hp, -, Hr⟩
    iapply hh
    isplitl [Hr]; · iexact Hr
    iexact Hp
  hout c := by
    rw [Pipeline.ownSems0_none, show (pdats m 2 c).Φ (Fin.last _) = (Scale.dat (V4 m) c).Φ (Fin.last cfg2.N) from rfl]
    have hh := Scale.hout (V4 m) c
    unfold Pipeline.ΦA at hh
    iintro HΦ
    ihave H := hh $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m) ]
theorem main_run (c : Dev nD) : main (F := F) c = Pipeline.Seg.run (segs m) := (main_chain c).trans (by chain_rfl)

set_option backward.isDefEq.respectTransparency.types false in
/-- Every weakly fair execution of the program terminates without a fault, and the final memory holds every unscoped
    buffer of every core at the end of the fold. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: the arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run m ρ)

end Cert.KernelIdeal.Whole

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.KiPayloads.lean ====
/-
  The kernel bodies' arithmetic read at one entry, over the extended reals.

  Each of the three kernel functions stores a few values computed from the blocks it has read. Here each such value
  is read at an entry `(r, c)` of its block, as a formula in the entries of the blocks it was computed from:

  * the projection step: a matrix product into a zero accumulator, `∑ d, x (r, d) * w (d, c)`;
  * the degree step: a row cleared to `0`; the running row plus the column sums of a block,
    `acc (0, j) + ∑ r, a (r, j)`; and the reciprocal square root of the row plus one;
  * the aggregation step: a block cleared to `0`; the running block plus the product of the scaled tile with the
    projected rows, where the scaled tile at `(r, q)` is `(a (r, q) + [the tile is diagonal and r = q]) * dl (r) * dr (q)`;
    and the running block plus a bias row.

  Over the extended reals a change of float format is the identity, a re-laying to the same shape is the identity, the
  word `0x00000000` is `0` and the word `0x3F800000` is `1`.
-/
import proofs.«154144_j58067957842338_1_alg».proof.Proof.Gen.KernelIdeal.Skeleton
import proofs.«154144_j58067957842338_1_alg».proof.Proof.LibMatProd
import proofs.«154144_j58067957842338_1_alg».proof.Proof.LibBroadcastTo
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The word `0x3F800000` is the number one. -/
theorem one_f32' : Ideal.ofBits .f32 0x3F800000#32 = 1 := by
  simp [Ideal.ofBits, Ideal.ieee, -EReal.coe_mul]; norm_num

/-- A scalar float literal over the extended reals is the number its word encodes. -/
theorem scalar_ofBits (b : BitVec (FTy.bits .f32)) : Scalar.ofBits (F := Ideal) .f32 b = Ideal.ofBits .f32 b := rfl

/-! ## The degree step -/

/-- The cleared row is `0` at every entry. -/
theorem clearRow_apply (j : Fin 8192) : k1_pay1 (F := Ideal) (ix2 (0 : Fin 1) j) = 0 := by
  dsimp only [k1_pay1]
  rw [shapeCast_self, broadcast_apply, scalar_ofBits, Ideal.ofBits_zero_f32]

/-- The reciprocal square root of the row plus one, entry by entry. -/
theorem rsqrt_apply (v15 : Vec Ideal S1x8192 .f32) (j : Fin 8192) :
    k1_pay3 (F := Ideal) v15 (ix2 (0 : Fin 1) j) = Ideal.rsqrt (v15 (ix2 0 j) + 1) := by
  dsimp only [k1_pay3]
  show Ideal.rsqrt (v15 (ix2 0 j) + Ideal.ofBits .f32 0x3F800000#32) = _
  rw [one_f32']

/-! ## The aggregation step: clearing, and the bias -/

/-- The cleared block is `0` at every entry. -/
theorem clearBlock_apply (r : Fin 1024) (c : Fin 256) : k2_pay1 (F := Ideal) (ix2 r c) = 0 := by
  dsimp only [k2_pay1]
  rw [shapeCast_self, broadcast_apply, scalar_ofBits, Ideal.ofBits_zero_f32]

/-- The running block plus the bias row broadcast down the rows. -/
theorem bias_apply (v35 : Vec Ideal S1024x256 .f32) (v36 : Vec Ideal S1x256 .f32) (r : Fin 1024) (c : Fin 256) :
    k2_pay3 (F := Ideal) v35 v36 (ix2 r c) = v35 (ix2 r c) + v36 (ix2 0 c) := by
  dsimp only [k2_pay3]
  rw [addf_apply, shapeCast_self, Cert.BroadcastTo.row_apply]

/-! ## The degree step: the column sums -/

/-- The column sums of a block of 256 rows, read at column `j`: the sum over the rows. The word the reduction starts
    from is the zero word, stated as the equation the program carries. -/
theorem colsum_reduce (v : FVec Ideal S256x8192 .f32) (h : S256x8192.Reduces [0] S8192)
    (hφ : FKind.Formats .f32) (hacc : (0x00000000#32 : BitVec 32) = 0x00000000#32) (j : Fin 8192) :
    multiReduction (F := Ideal) .add [0] S8192 v 0x00000000#32 h hφ hacc (ix1 j) = ∑ r : Fin 256, v (ix2 r j) := by
  refine (Ideal.multiReduction_add_single v 0x00000000#32 h hφ hacc (ix1 j)).trans ?_
  refine Finset.sum_congr rfl fun r _ => congrArg v ?_
  funext a
  match a with
  | ⟨0, _⟩ => rfl
  | ⟨1, _⟩ => rfl

/-- The running row plus the column sums of the block. -/
theorem colsum_apply (v3 : Vec Ideal S1x8192 .f32) (v4 : Vec Ideal S256x8192 .f32) (j : Fin 8192) :
    k1_pay2 (F := Ideal) v3 v4 (ix2 (0 : Fin 1) j) = v3 (ix2 0 j) + ∑ r : Fin 256, v4 (ix2 r j) := by
  dsimp only [k1_pay2]
  rw [shapeCast_self, addf_apply, shapeCast_self]
  refine congrArg (v3 (ix2 0 j) + ·) ?_
  refine (shapeCast_addUnit_apply (![8192] : Fin 1 → Nat) _ shapeCasts_S8192_S1x8192 (ix2 (0 : Fin 1) j)).trans ?_
  refine Eq.trans (congrArg _ ?_) (colsum_reduce v4 _ _ _ j)
  funext a
  match a with
  | ⟨0, _⟩ => rfl

/-! ## The projection step -/

/-- The projection's dimension numbers are those of the plain product of a `[1024, 256]` by a `[256, 256]` matrix. -/
theorem dot_proj_eq :
    dot_S1024x256_S256x256_S1024x256_1_0_0_1_n_n = DotDims.plain 1024 256 256 := rfl

/-- The projected block at `(r, c)`: row `r` of the block times column `c` of the weights. -/
theorem proj_apply (v0 : Vec Ideal S1024x256 .f32) (v2 : Vec Ideal S256x256 .f32) (r : Fin 1024) (c : Fin 256) :
    k0_pay1 (F := Ideal) v0 v2 (ix2 r c) = ∑ d : Fin 256, v0 (ix2 r d) * v2 (ix2 d c) := by
  dsimp only [k0_pay1]
  rw [dot_proj_eq]
  refine (Cert.MatProd.matmul_plain_zero_apply (M := 1024) (K := 256) (N := 256) none
    (truncf .bf16 v0 bitsLt_bf16_f32) (truncf .bf16 v2 bitsLt_bf16_f32) r c).trans ?_
  exact Finset.sum_congr rfl fun d _ => by rw [truncf_apply, truncf_apply]

/-! ## The aggregation step: one tile -/

/-- The tile product's dimension numbers are those of the plain product of a `[1024, 1024]` by a `[1024, 256]` matrix. -/
theorem dot_tile_eq :
    dot_S1024x1024_S1024x256_S1024x256_1_0_0_1_n_n = DotDims.plain 1024 1024 256 := rfl

/-- Two tile coordinates below 8, written as 32-bit words, compare equal exactly when they are the same number. -/
theorem coord_cmpi (a b : Nat) (ha : a < 8) (hb : b < 8) :
    Scalar.cmpi .eq (BitVec.ofNat 32 a) (BitVec.ofNat 32 b) = if a = b then 1#1 else 0#1 := by
  interval_cases a <;> interval_cases b <;> rfl

/-- Two row numbers below 1024, written as 32-bit words, are the same word only when they are the same number. -/
theorem word_inj (r q : Fin 1024) (h : BitVec.ofNat 32 r.val = BitVec.ofNat 32 q.val) : r = q := by
  have h' := congrArg BitVec.toNat h
  rw [BitVec.toNat_ofNat, BitVec.toNat_ofNat] at h'
  have hr := r.isLt
  have hq := q.isLt
  exact Fin.ext (by omega)

/-- The diagonal pattern of a square tile: the integer `1` where the row number is the column number and `0` elsewhere,
    converted exactly. -/
theorem diag_apply (h0 : S1024x1024.Iotas .tc 32 [0]) (h1 : S1024x1024.Iotas .tc 32 [1]) (h32 : 1 < 32) (r q : Fin 1024) :
    (sitofp (F := Ideal) .f32
        (extui 32 (cmpi .eq (iota .tc S1024x1024 32 [0] h0) (iota .tc S1024x1024 32 [1] h1)) h32)) (ix2 r q)
      = if r = q then (1 : EReal) else 0 := by
  show ((((IntOp.cmpi .eq (iota .tc S1024x1024 32 [0] h0 (ix2 r q)) (iota .tc S1024x1024 32 [1] h1 (ix2 r q))).setWidth 32).toInt : ℝ) : EReal) = _
  rw [iota_single_apply, iota_single_apply]
  show ((((IntOp.cmpi .eq (BitVec.ofNat 32 r.val) (BitVec.ofNat 32 q.val)).setWidth 32).toInt : ℝ) : EReal) = _
  have e1 : ((1#1 : BitVec 1).setWidth 32).toInt = 1 := by decide
  have e0 : ((0#1 : BitVec 1).setWidth 32).toInt = 0 := by decide
  by_cases h : r = q
  · subst h
    have hc : IntOp.cmpi .eq (BitVec.ofNat 32 r.val) (BitVec.ofNat 32 r.val) = 1#1 := by simp [IntOp.cmpi]
    rw [if_pos rfl, hc, e1]
    simp
  · have hne : BitVec.ofNat 32 r.val ≠ BitVec.ofNat 32 q.val := fun e => h (word_inj r q e)
    have hc : IntOp.cmpi .eq (BitVec.ofNat 32 r.val) (BitVec.ofNat 32 q.val) = 0#1 := by
      show BitVec.ofBool (BitVec.ofNat 32 r.val == BitVec.ofNat 32 q.val) = 0#1
      rw [beq_eq_false_iff_ne.mpr hne]
      rfl
    rw [if_neg h, hc, e0]
    simp

/-- The pattern added to a tile: the diagonal pattern on a tile whose two coordinates agree, nothing on the others. -/
theorem mask_apply (i : grid2.Coords) (hi0 : (i 0).val < 8) (hi1 : (i 1).val < 8)
    (D Z : FVec Ideal S1024x1024 .f32) (r q : Fin 1024)
    (hD : D (ix2 r q) = if r = q then (1 : EReal) else 0) (hZ : Z (ix2 r q) = 0) :
    (Scalar.select (Scalar.cmpi .eq (BitVec.ofNat 32 (i 0).val) (BitVec.ofNat 32 (i 1).val)) D Z) (ix2 r q)
      = if (i 0).val = (i 1).val ∧ r = q then (1 : EReal) else 0 := by
  rw [coord_cmpi _ _ hi0 hi1]
  by_cases h : (i 0).val = (i 1).val
  · rw [if_pos h, select_one, hD]
    by_cases h' : r = q
    · rw [if_pos h', if_pos ⟨h, h'⟩]
    · rw [if_neg h', if_neg (fun e => h' e.2)]
  · rw [if_neg h, select_zero, hZ, if_neg (fun e => h e.1)]

/-- One tile's contribution: the running block plus the product of the scaled tile with the projected rows. The scaled
    tile at `(r, q)` is the tile's entry, plus one on the diagonal of a diagonal tile, times the row's and the column's
    scale. -/
theorem tile_apply (i : grid2.Coords) (hi0 : (i 0).val < 8) (hi1 : (i 1).val < 8) (v3 : Vec Ideal S1024x1024 .f32)
    (v14 : Vec Ideal S1024x1 .f32) (v16 : Vec Ideal S1x1024 .f32) (v23 : Vec Ideal S1024x256 .f32)
    (v26 : Vec Ideal S1024x256 .f32) (r : Fin 1024) (c : Fin 256) :
    k2_pay2 (F := Ideal) i v3 v14 v16 v23 v26 (ix2 r c)
      = v26 (ix2 r c) + ∑ q : Fin 1024, ((v3 (ix2 r q) + (if (i 0).val = (i 1).val ∧ r = q then (1 : EReal) else 0))
          * v14 (ix2 r 0) * v16 (ix2 0 q)) * v23 (ix2 q c) := by
  dsimp only [k2_pay2]
  simp only [shapeCast_self]
  rw [addf_apply, dot_tile_eq]
  refine congrArg (v26 (ix2 r c) + ·) ?_
  refine (Cert.MatProd.matmul_plain_zero_apply (M := 1024) (K := 1024) (N := 256) none _ _ r c).trans ?_
  refine Finset.sum_congr rfl fun q _ => ?_
  rw [truncf_apply, truncf_apply, mulf_apply, mulf_apply, addf_apply, Cert.BroadcastTo.col_apply,
    Cert.BroadcastTo.row_apply,
    mask_apply i hi0 hi1 _ _ r q (diag_apply _ _ _ r q)
      (by rw [broadcast_apply, scalar_ofBits, Ideal.ofBits_zero_f32])]

end Cert.KernelIdeal.Pay

end
-- ==== Proof.KiBlocks.lean ====
/-
  The blocks the three kernel regions work on, read at an entry.

  Every window of a region cuts its array into equal blocks, and the block a grid point works on starts at the block
  index times the block size on each axis. The first region walks the node rows in 8 blocks of 1024, the second in 32
  blocks of 256; the third walks an 8 × 8 grid, point `t` being row block `t / 8` and column tile `t % 8`. An entry of a
  block is therefore the entry of the array at the block's start plus the entry's coordinates inside the block.
-/
import proofs.«154144_j58067957842338_1_alg».proof.Proof.KiProject
import proofs.«154144_j58067957842338_1_alg».proof.Proof.KiDegree
import proofs.«154144_j58067957842338_1_alg».proof.Proof.KiScale
import Idealize.ShloMosaic.Lib.ValueIdx

noncomputable section

namespace Cert.KernelIdeal.Blocks

open Cert.KernelIdeal Cert.KernelIdeal.Gen
open Idealize.ShloMosaic Idealize.ShloMosaic.TcCoe Idealize.ShloMosaic.ValueIdx

variable {F : FTy → Type} [FloatOps F]

-- the TensorCore's buffer contents when a region is entered
variable (V : (c : Dev nD) → (b : Ref sig .tc) → Buf (Elt F) ((c : Thread nD τ).loc b))

/-! ## The grids -/

theorem t0_lt (t : Fin cfg0.N) : t.val < 8 := lt_of_lt_of_eq t.isLt (show cfg0.N = 8 from N_0)
theorem t1_lt (t : Fin cfg1.N) : t.val < 32 := lt_of_lt_of_eq t.isLt (show cfg1.N = 32 from N_1)
theorem t2_lt (t : Fin cfg2.N) : t.val < 64 := lt_of_lt_of_eq t.isLt (show cfg2.N = 64 from N_2)

/-- The block indices of the first region's three windows at every point. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- The block indices of the second region's two windows at every point. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0 :=
  (by decide +kernel : ∀ t : Fin grid1.N,
    win1_0.index t (0 : Fin 2) = t.val ∧ win1_0.index t (1 : Fin 2) = 0
    ∧ win1_1.index t (0 : Fin 2) = 0 ∧ win1_1.index t (1 : Fin 2) = 0)

/-- The third region's grid: point `t` is row block `t / 8`, column tile `t % 8`. -/
theorem coords2 : ∀ t : Fin cfg2.N, ((grid2.coords t) 0).val = t.val / 8 ∧ ((grid2.coords t) 1).val = t.val % 8 :=
  (by decide +kernel : ∀ t : Fin grid2.N, ((grid2.coords t) 0).val = t.val / 8 ∧ ((grid2.coords t) 1).val = t.val % 8)

/-- The block indices of the third region's six windows at every point. -/
theorem idx2 : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = 0 ∧ win2_3.index t (1 : Fin 2) = t.val % 8
    ∧ win2_4.index t (0 : Fin 2) = 0 ∧ win2_4.index t (1 : Fin 2) = 0
    ∧ win2_5.index t (0 : Fin 2) = t.val / 8 ∧ win2_5.index t (1 : Fin 2) = 0 :=
  (by decide +kernel : ∀ t : Fin grid2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = 0 ∧ win2_3.index t (1 : Fin 2) = t.val % 8
    ∧ win2_4.index t (0 : Fin 2) = 0 ∧ win2_4.index t (1 : Fin 2) = 0
    ∧ win2_5.index t (0 : Fin 2) = t.val / 8 ∧ win2_5.index t (1 : Fin 2) = 0)

/-- Where the first region's result block sits. -/
theorem out_index0 (t : Fin cfg0.N) : win0_2.index t (0 : Fin 2) = t.val ∧ win0_2.index t (1 : Fin 2) = 0 :=
  ⟨(idx0 t).2.2.2.2.1, (idx0 t).2.2.2.2.2⟩

/-- Where the third region's result block sits. -/
theorem out_index2 (t : Fin cfg2.N) : win2_5.index t (0 : Fin 2) = t.val / 8 ∧ win2_5.index t (1 : Fin 2) = 0 :=
  ⟨(idx2 t).2.2.2.2.2.2.2.2.2.2.1, (idx2 t).2.2.2.2.2.2.2.2.2.2.2⟩

/-! ## The first region -/

/-- A block of 1024 rows of the features. -/
theorem proj_rows (c : Dev nD) (t : Fin cfg0.N) (r : Fin 1024) (d : Fin 256) :
    (Project.blk V c 0 t : Vec F S1024x256 .f32) (ix2 r d)
      = (V c main_arg0 : S8192x256.Idx → Elt F .f32) (ix2 ⟨1024 * t.val + r.val, by have := t0_lt t; have := r.isLt; omega⟩ d) := by
  unfold Project.blk
  rw [View.read_apply]
  show V c main_arg0 _ = V c main_arg0 _
  congr 1
  funext a
  apply Fin.ext
  match a with
  | ⟨0, _⟩ => show win0_0.index t (0 : Fin 2) * 1024 + 1 * r.val = 1024 * t.val + r.val; rw [(idx0 t).1]; omega
  | ⟨1, _⟩ => show win0_0.index t (1 : Fin 2) * 256 + 1 * d.val = d.val; rw [(idx0 t).2.1]; omega

/-- The whole of the weights, at every point. -/
theorem proj_weights (c : Dev nD) (t : Fin cfg0.N) (d c' : Fin 256) :
    (Project.blk V c 1 t : Vec F S256x256 .f32) (ix2 d c') = (V c main_arg1 : S256x256.Idx → Elt F .f32) (ix2 d c') := by
  unfold Project.blk
  rw [View.read_apply]
  show V c main_arg1 _ = V c main_arg1 _
  congr 1
  funext a
  apply Fin.ext
  match a with
  | ⟨0, _⟩ => show win0_1.index t (0 : Fin 2) * 256 + 1 * d.val = d.val; rw [(idx0 t).2.2.1]; omega
  | ⟨1, _⟩ => show win0_1.index t (1 : Fin 2) * 256 + 1 * c'.val = c'.val; rw [(idx0 t).2.2.2.1]; omega

/-! ## The second region -/

/-- A block of 256 rows of the adjacency matrix. -/
theorem deg_rows (c : Dev nD) (t : Fin cfg1.N) (r : Fin 256) (j : Fin 8192) :
    (Degree.blk V c 0 t : Vec F S256x8192 .f32) (ix2 r j)
      = (V c main_v19 : S8192x8192.Idx → Elt F .f32) (ix2 ⟨256 * t.val + r.val, by have := t1_lt t; have := r.isLt; omega⟩ j) := by
  unfold Degree.blk
  rw [View.read_apply]
  show V c main_v19 _ = V c main_v19 _
  congr 1
  funext a
  apply Fin.ext
  match a with
  | ⟨0, _⟩ => show win1_0.index t (0 : Fin 2) * 256 + 1 * r.val = 256 * t.val + r.val; rw [(idx1 t).1]; omega
  | ⟨1, _⟩ => show win1_0.index t (1 : Fin 2) * 8192 + 1 * j.val = j.val; rw [(idx1 t).2.1]; omega

/-! ## The third region -/

/-- A tile of the adjacency matrix. -/
theorem tile_A (c : Dev nD) (t : Fin cfg2.N) (r q : Fin 1024) :
    (Scale.blk V c 0 t : Vec F S1024x1024 .f32) (ix2 r q)
      = (V c main_v19 : S8192x8192.Idx → Elt F .f32)
          (ix2 ⟨1024 * (t.val / 8) + r.val, by have := t2_lt t; have := r.isLt; omega⟩
            ⟨1024 * (t.val % 8) + q.val, by have := q.isLt; omega⟩) := by
  unfold Scale.blk
  rw [View.read_apply]
  show V c main_v19 _ = V c main_v19 _
  congr 1
  funext a
  apply Fin.ext
  match a with
  | ⟨0, _⟩ => show win2_0.index t (0 : Fin 2) * 1024 + 1 * r.val = 1024 * (t.val / 8) + r.val; rw [(idx2 t).1]; omega
  | ⟨1, _⟩ => show win2_0.index t (1 : Fin 2) * 1024 + 1 * q.val = 1024 * (t.val % 8) + q.val; rw [(idx2 t).2.1]; omega

/-- The rows of the projected features that meet the tile's columns. -/
theorem tile_feat (c : Dev nD) (t : Fin cfg2.N) (q : Fin 1024) (c' : Fin 256) :
    (Scale.blk V c 1 t : Vec F S1024x256 .f32) (ix2 q c')
      = (V c main_v20 : S8192x256.Idx → Elt F .f32) (ix2 ⟨1024 * (t.val % 8) + q.val, by have := q.isLt; omega⟩ c') := by
  unfold Scale.blk
  rw [View.read_apply]
  show V c main_v20 _ = V c main_v20 _
  congr 1
  funext a
  apply Fin.ext
  match a with
  | ⟨0, _⟩ => show win2_1.index t (0 : Fin 2) * 1024 + 1 * q.val = 1024 * (t.val % 8) + q.val; rw [(idx2 t).2.2.1]; omega
  | ⟨1, _⟩ => show win2_1.index t (1 : Fin 2) * 256 + 1 * c'.val = c'.val; rw [(idx2 t).2.2.2.1]; omega

/-- The scaling factors of the tile's rows. -/
theorem tile_rowScale (c : Dev nD) (t : Fin cfg2.N) (r : Fin 1024) :
    (Scale.blk V c 2 t : Vec F S1024x1 .f32) (ix2 r (0 : Fin 1))
      = (V c main_v22 : S8192x1.Idx → Elt F .f32) (ix2 ⟨1024 * (t.val / 8) + r.val, by have := t2_lt t; have := r.isLt; omega⟩ (0 : Fin 1)) := by
  unfold Scale.blk
  rw [View.read_apply]
  show V c main_v22 _ = V c main_v22 _
  congr 1
  funext a
  apply Fin.ext
  match a with
  | ⟨0, _⟩ => show win2_2.index t (0 : Fin 2) * 1024 + 1 * r.val = 1024 * (t.val / 8) + r.val; rw [(idx2 t).2.2.2.2.1]; omega
  | ⟨1, _⟩ => show win2_2.index t (1 : Fin 2) * 1 + 1 * 0 = 0; rw [(idx2 t).2.2.2.2.2.1]

/-- The scaling factors of the tile's columns. -/
theorem tile_colScale (c : Dev nD) (t : Fin cfg2.N) (q : Fin 1024) :
    (Scale.blk V c 3 t : Vec F S1x1024 .f32) (ix2 (0 : Fin 1) q)
      = (V c main_v21 : S1x8192.Idx → Elt F .f32) (ix2 (0 : Fin 1) ⟨1024 * (t.val % 8) + q.val, by have := q.isLt; omega⟩) := by
  unfold Scale.blk
  rw [View.read_apply]
  show V c main_v21 _ = V c main_v21 _
  congr 1
  funext a
  apply Fin.ext
  match a with
  | ⟨0, _⟩ => show win2_3.index t (0 : Fin 2) * 1 + 1 * 0 = 0; rw [(idx2 t).2.2.2.2.2.2.1]
  | ⟨1, _⟩ => show win2_3.index t (1 : Fin 2) * 1024 + 1 * q.val = 1024 * (t.val % 8) + q.val; rw [(idx2 t).2.2.2.2.2.2.2.1]; omega

/-- The bias row, at every point. -/
theorem tile_bias (c : Dev nD) (t : Fin cfg2.N) (c' : Fin 256) :
    (Scale.blk V c 4 t : Vec F S1x256 .f32) (ix2 (0 : Fin 1) c') = (V c main_v23 : S1x256.Idx → Elt F .f32) (ix2 (0 : Fin 1) c') := by
  unfold Scale.blk
  rw [View.read_apply]
  show V c main_v23 _ = V c main_v23 _
  congr 1
  funext a
  apply Fin.ext
  match a with
  | ⟨0, _⟩ => show win2_4.index t (0 : Fin 2) * 1 + 1 * 0 = 0; rw [(idx2 t).2.2.2.2.2.2.2.2.1]
  | ⟨1, _⟩ => show win2_4.index t (1 : Fin 2) * 256 + 1 * c'.val = c'.val; rw [(idx2 t).2.2.2.2.2.2.2.2.2.1]; omega

end Cert.KernelIdeal.Blocks

end
-- ==== Proof.Spec.lean ====
/-
  The function both programs compute, entry by entry, on the extended reals.

  `A` is the dense adjacency matrix: entry `(i, j)` counts the edges `i → j`. A self loop is added to every node,
  the degree of column `j` is its column sum plus one, and every entry is scaled by the inverse square roots of the
  degrees of its row and of its column. The scaled matrix multiplies the projected features `H · W`, and the bias is
  added to every row:

    out r c = Σ_j ((A r j + [r = j]) · dis r · dis j) · (Σ_d H j d · W d c) + b c,   dis j = (Σ_i A i j + 1)^(-1/2).
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-- The adjacency matrix, the node features, the weights and the bias column, as arrays of extended reals. -/
abbrev Adj : Type := (⟨2, ![8192, 8192]⟩ : Shape).Idx → EReal
abbrev Feat : Type := (⟨2, ![8192, 256]⟩ : Shape).Idx → EReal
abbrev Wt : Type := (⟨2, ![256, 256]⟩ : Shape).Idx → EReal
abbrev Bias : Type := (⟨2, ![256, 1]⟩ : Shape).Idx → EReal

/-- The identity matrix's entry: the self loop added to every node. -/
def selfLoop (r j : Fin 8192) : EReal := if r = j then 1 else 0

/-- The sum of column `j` of the adjacency matrix. -/
def colSum (A : Adj) (j : Fin 8192) : EReal := ∑ i : Fin 8192, A (ix2 i j)

/-- The inverse square root of node `j`'s degree (its column sum, plus one for the self loop). -/
def dis (A : Adj) (j : Fin 8192) : EReal := Ideal.rsqrt (colSum A j + 1)

/-- The projected features `H · W` at row `j`, channel `c`. -/
def proj (H : Feat) (W : Wt) (j : Fin 8192) (c : Fin 256) : EReal := ∑ d : Fin 256, H (ix2 j d) * W (ix2 d c)

/-- The layer's output at node `r`, channel `c`. -/
def out (A : Adj) (H : Feat) (W : Wt) (b : Bias) (r : Fin 8192) (c : Fin 256) : EReal :=
  (∑ j : Fin 8192, ((A (ix2 r j) + selfLoop r j) * dis A r * dis A j) * proj H W j c) + b (ix2 c 0)

/-- The layer's output as one array. -/
def G (A : Adj) (H : Feat) (W : Wt) (b : Bias) : Feat := fun i => out A H W b (i 0) (i 1)

theorem G_apply (A : Adj) (H : Feat) (W : Wt) (b : Bias) (r : Fin 8192) (c : Fin 256) :
    G A H W b (ix2 r c) = out A H W b r c := rfl

end Cert.Gcn

end
-- ==== Proof.KiProjectIdeal.lean ====
/-
  The first region's result array in closed form, over the extended reals.

  Every point of the first region stores, as its block of the result, the product of its block of 1024 feature rows with
  the whole weight matrix. Entry `(r, c)` of that block is the sum over `d` of row `1024 t + r` of the features times
  column `c` of the weights: the projected features at node `1024 t + r`, channel `c`. Every point writes its block back
  and the eight blocks tile the result, so the result array ends as the projected features.
-/
import proofs.«154144_j58067957842338_1_alg».proof.Proof.KiProject
import proofs.«154144_j58067957842338_1_alg».proof.Proof.KiPayloads
import proofs.«154144_j58067957842338_1_alg».proof.Proof.KiBlocks
import proofs.«154144_j58067957842338_1_alg».proof.Proof.Spec
import proofs.«154144_j58067957842338_1_alg».proof.Proof.Gen.KernelIdeal.Points
import Idealize.ShloMosaic.Lib.Pipeline.Value
import Idealize.ShloMosaic.Lib.ValueIdx

noncomputable section

open scoped BigOperators

namespace Cert.KernelIdeal.Project

open Cert.KernelIdeal Cert.KernelIdeal.Gen
open Idealize.ShloMosaic Idealize.ShloMosaic.TcCoe Idealize.ShloMosaic.ValueIdx
open Idealize.ShloMosaic.Pipeline (Dat)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The projected features of the arrays the region finds, as one array. -/
def projArr (c : Dev nD) : Buf (Elt Ideal) ((c : Thread nD τ).loc main_v20) :=
  (fun i : S8192x256.Idx => Cert.Gcn.proj (V c main_arg0) (V c main_arg1) (i 0) (i 1) : S8192x256.Idx → EReal)

theorem projArr_apply (c : Dev nD) (j : Fin 8192) (q : Fin 256) :
    (projArr V c : S8192x256.Idx → EReal) (ix2 j q) = Cert.Gcn.proj (V c main_arg0) (V c main_arg1) j q := rfl

/-- Where point `t`'s block sits in the result. -/
theorem out_emb (t : Fin cfg0.N) (r : Fin 1024) (q : Fin 256) :
    ((cfg0.win 2).blk t).view.emb (ix2 r q : S1024x256.Idx)
      = (ix2 ⟨1024 * t.val + r.val, by have := Blocks.t0_lt t; have := r.isLt; omega⟩ q : S8192x256.Idx) := by
  funext a
  apply Fin.ext
  match a with
  | ⟨0, _⟩ =>
    show win0_2.index t (0 : Fin 2) * 1024 + 1 * r.val = 1024 * t.val + r.val
    rw [(Blocks.out_index0 t).1]; omega
  | ⟨1, _⟩ =>
    show win0_2.index t (1 : Fin 2) * 256 + 1 * q.val = q.val
    rw [(Blocks.out_index0 t).2]; omega

/-- What point `t` writes back is its block of the projected features. -/
theorem flushed_eq (c : Dev nD) (t : Fin cfg0.N) :
    (dat V c).flushed 2 t = ((cfg0.win 2).blk t).view.read (Elt Ideal) (projArr V c) := by
  show (cfg0.win 2).cut (grid0.coords t) ((dat V c).after 2 t) = _
  rw [after_prod]
  unfold prod
  rw [View.canon_unit_zero hz]
  simp only [View.ld_unit_zero (S := S1024x256) hz, View.ld_unit_zero (S := S256x256) hz]
  refine funext fun (y : S1024x256.Idx) => ?_
  obtain ⟨r, q, rfl⟩ : ∃ (r : Fin 1024) (q : Fin 256), y = ix2 r q := ⟨y 0, y 1, eq_ix2 y⟩
  rw [View.read_apply]
  show k0_pay1 (F := Ideal) (blk V c 0 t) (blk V c 1 t) (ix2 r q)
    = (projArr V c : S8192x256.Idx → EReal) (((cfg0.win 2).blk t).view.emb (ix2 r q : S1024x256.Idx))
  rw [Pay.proj_apply, out_emb, projArr_apply]
  unfold Cert.Gcn.proj
  refine Finset.sum_congr rfl fun d _ => ?_
  rw [Blocks.proj_rows V c t r d, Blocks.proj_weights V c t d q]

/-- An entry of the result is in point `t`'s block exactly when each coordinate is in the block's range on its axis. -/
theorem mem_out (t : Fin cfg0.N) (i : S8192x256.Idx) :
    i ∈ ((cfg0.win 2).blk t).view.set ↔ ∀ a : Fin 2, win0_2.index t a * S1024x256.size a ≤ (i a).val
      ∧ (i a).val < win0_2.index t a * S1024x256.size a + S1024x256.size a := by
  show i ∈ ((View.whole main_v20).slice (win0_2.rect t)).set ↔ _
  rw [View.set_slice_whole, Rect.mem_set_unit]
  exact Iff.rfl

/-- Every entry of the result is in the block of a point that writes back: the point of the entry's row block. -/
theorem out_cover (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 8 := N_0
  obtain ⟨t, ht⟩ : ∃ t : Fin cfg0.N, t.val = (i 0).val / 1024 :=
    ⟨⟨(i 0).val / 1024, lt_of_lt_of_eq (by omega) hN.symm⟩, rfl⟩
  refine ⟨t, flush0_2 t, ?_⟩
  rw [mem_out]
  obtain ⟨e0, e1⟩ := Blocks.out_index0 t
  intro a
  match a with
  | ⟨0, _⟩ =>
    show win0_2.index t (0 : Fin 2) * 1024 ≤ (i 0).val ∧ (i 0).val < win0_2.index t (0 : Fin 2) * 1024 + 1024
    rw [e0]; omega
  | ⟨1, _⟩ =>
    show win0_2.index t (1 : Fin 2) * 256 ≤ (i 1).val ∧ (i 1).val < win0_2.index t (1 : Fin 2) * 256 + 256
    rw [e1]; omega

/-- The result array after the region: the projected features. -/
theorem final (c : Dev nD) : (dat V c).arrAt 2 cfg0.N = projArr V c :=
  (dat V c).arrAt_eq_of_cover 2 (projArr V c) (fun t _ => flushed_eq V c t) out_cover

end Cert.KernelIdeal.Project

end
-- ==== Proof.KiDegreeValue.lean ====
/-
  What the degree kernel leaves in its result row. Each case's found pieces read back as the body's arithmetic of the
  buffers it loaded: the first block leaves the cleared row plus its column sums, every later block what the point before
  left plus its column sums. So the scratch row after point `n` is a running sum, by induction on the point; the result
  row is stored once, at the last block, as the inverse square root of the completed sums plus one, and that one
  write-back covers the whole one-row array.
-/
import proofs.«154144_j58067957842338_1_alg».proof.Proof.Gen.KernelIdeal.Launch
import proofs.«154144_j58067957842338_1_alg».proof.Proof.Gen.KernelIdeal.Skeleton
import proofs.«154144_j58067957842338_1_alg».proof.Proof.Gen.KernelIdeal.Points
import proofs.«154144_j58067957842338_1_alg».proof.Proof.KiDegreeData
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Degree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz : (![0, 0] : Fin 2 → Nat) = fun _ => 0 := funext fun a => by fin_cases a <;> rfl

/-- A middle block adds its column sums to what the scratch row held. -/
theorem accMid_eq (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : ¬isFirst i) (hc1 : ¬isLast i) (x0 : Vec F S256x8192 .f32) (xs : Vec F S1x8192 .f32) :
    accMid c i arg1 harg1 arg2 harg2 arg3 harg3 hc0 hc1 x0 xs = k1_pay2 xs x0 := by
  unfold accMid
  rw [View.read_writes_eq_canon _ _ _ (accMid_cover c i arg1 harg1 arg2 harg2 arg3 harg3 hc0 hc1 x0 xs)]
  unfold runMid
  dsimp only
  rw [View.canon_unit_zero hz]
  simp only [View.readAt_eq_ld, harg1.read_unread, harg3.read_unread, View.ld_unit_zero (S := S1x8192) hz, View.ld_unit_zero (S := S256x8192) hz]

/-- The first block adds its column sums to the cleared row. -/
theorem accFirst_eq (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : isFirst i) (hc1 : ¬isLast i) (x0 : Vec F S256x8192 .f32) :
    accFirst c i arg1 harg1 arg2 harg2 arg3 harg3 hc0 hc1 x0 = k1_pay2 (k1_pay1 (F := F)) x0 := by
  unfold accFirst
  rw [View.read_writes_eq_canon _ _ _ (accFirst_cover c i arg1 harg1 arg2 harg2 arg3 harg3 hc0 hc1 x0)]
  unfold runFirst
  dsimp only
  sl_unfold_words
  rw [View.canon_cons_unit_zero (S := S1x8192) hz, View.readCov_unit_zero (S := S1x8192) _ hz]
  simp only [View.readAt_eq_ld, harg1.read_unread, View.ld_unit_zero (S := S256x8192) hz]

/-- The last block adds its column sums like any other, -/
theorem accLast_eq (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : ¬isFirst i) (hc1 : isLast i) (x0 : Vec F S256x8192 .f32) (xs : Vec F S1x8192 .f32) :
    accLast c i arg1 harg1 arg2 harg2 arg3 harg3 hc0 hc1 x0 xs = k1_pay2 xs x0 := by
  unfold accLast
  rw [View.read_writes_eq_canon _ _ _ (accLast_cover c i arg1 harg1 arg2 harg2 arg3 harg3 hc0 hc1 x0 xs)]
  unfold runLast
  dsimp only
  sl_unfold_words
  rw [View.canon_unit_zero hz]
  simp only [View.readAt_eq_ld, harg1.read_unread, harg3.read_unread, View.ld_unit_zero (S := S1x8192) hz, View.ld_unit_zero (S := S256x8192) hz]

/-- and stores the result row from the completed sums. -/
theorem outLast_eq (c : Dev nD) (i : grid1.Coords) (arg1 : Memref sig .tc .vmem S256x8192 .f32) (harg1 : arg1.IsWhole) (arg2 : Memref sig .tc .vmem S1x8192 .f32) (harg2 : arg2.IsWhole) (arg3 : Memref sig .tc .vmem S1x8192 .f32) (harg3 : arg3.IsWhole) (hc0 : ¬isFirst i) (hc1 : isLast i) (x0 : Vec F S256x8192 .f32) (xs : Vec F S1x8192 .f32) :
    outLast c i arg1 harg1 arg2 harg2 arg3 harg3 hc0 hc1 x0 xs = k1_pay3 (k1_pay2 xs x0) := by
  unfold outLast
  rw [View.read_writes_eq_canon _ _ _ (outLast_cover c i arg1 harg1 arg2 harg2 arg3 harg3 hc0 hc1 x0 xs)]
  unfold runLast
  dsimp only
  sl_unfold_words
  rw [View.canon_unit_zero hz, View.readCov_unit_zero (S := S1x8192) _ hz]
  simp only [View.readAt_eq_ld, harg1.read_unread, harg3.read_unread, View.ld_unit_zero (S := S1x8192) hz, View.ld_unit_zero (S := S256x8192) hz]

/-- The running sums after point `n`: the cleared row plus the first block's column sums, then one block more per point. -/
def sums (c : Dev nD) : (n : ℕ) → n < cfg1.N → Vec F S1x8192 .f32
  | 0, h => k1_pay2 (k1_pay1 (F := F)) (blk V c 0 ⟨0, h⟩)
  | n + 1, h => k1_pay2 (sums c n (Nat.lt_of_succ_lt h)) (blk V c 0 ⟨n + 1, h⟩)

theorem sums_zero (c : Dev nD) (h : 0 < cfg1.N) : sums V c 0 h = k1_pay2 (k1_pay1 (F := F)) (blk V c 0 ⟨0, h⟩) := rfl
theorem sums_succ (c : Dev nD) (n : ℕ) (h : n + 1 < cfg1.N) :
    sums V c (n + 1) h = k1_pay2 (sums V c n (Nat.lt_of_succ_lt h)) (blk V c 0 ⟨n + 1, h⟩) := rfl

end Cert.KernelIdeal.Degree

end
-- ==== Proof.KiDegreeFold.lean ====
/-
  The scratch row of the degree kernel as a sequence over the grid: after the first point it is the cleared row plus the
  first block's column sums, after every later point what it held before plus that block's column sums. The result's
  buffer is stored at the last point only, from the completed sums, and that one write-back covers the one-row array.
-/
import proofs.«154144_j58067957842338_1_alg».proof.Proof.Gen.KernelIdeal.Launch
import proofs.«154144_j58067957842338_1_alg».proof.Proof.Gen.KernelIdeal.Skeleton
import proofs.«154144_j58067957842338_1_alg».proof.Proof.Gen.KernelIdeal.Points
import proofs.«154144_j58067957842338_1_alg».proof.Proof.KiDegreeValue
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Degree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- After the first point. -/
theorem acc_first (c : Dev nD) (t : Fin cfg1.N) (h0 : t.val = 0) :
    (outsAt V c t.val t.isLt).2 = k1_pay2 (k1_pay1 (F := F)) (blk V c 0 t) := by
  rw [outsAt_first V c t h0]
  dsimp only
  exact accFirst_eq (F := F) c (grid1.coords t) (msRows t) (hsRows t) (msOut t) (hsOut t) scM (Memref.isWhole_whole cc1_scratch0) (first_of_zero t h0) (notLast_of_zero t h0) (blk V c 0 t)

/-- After a later point: what the point before left, plus the block's column sums. -/
theorem acc_later (c : Dev nD) (t : Fin cfg1.N) (h0 : t.val ≠ 0) :
    (outsAt V c t.val t.isLt).2
      = k1_pay2 (outsAt V c (t.val - 1) (Nat.lt_of_le_of_lt (Nat.sub_le _ _) t.isLt)).2 (blk V c 0 t) := by
  by_cases h1 : t.val % 32 = 31
  · rw [outsAt_last V c t h0 h1]
    dsimp only
    exact accLast_eq (F := F) c (grid1.coords t) (msRows t) (hsRows t) (msOut t) (hsOut t) scM (Memref.isWhole_whole cc1_scratch0) (notFirst_of_pos t h0) (last_of t h1) (blk V c 0 t)
      (outsAt V c (t.val - 1) (Nat.lt_of_le_of_lt (Nat.sub_le _ _) t.isLt)).2
  · rw [outsAt_mid V c t h0 h1]
    dsimp only
    exact accMid_eq (F := F) c (grid1.coords t) (msRows t) (hsRows t) (msOut t) (hsOut t) scM (Memref.isWhole_whole cc1_scratch0) (notFirst_of_pos t h0) (notLast_of t h1) (blk V c 0 t)
      (outsAt V c (t.val - 1) (Nat.lt_of_le_of_lt (Nat.sub_le _ _) t.isLt)).2

/-- At the last point the result's buffer is stored from the scratch row as the point leaves it. -/
theorem out_last (c : Dev nD) (t : Fin cfg1.N) (h0 : t.val ≠ 0) (h1 : t.val % 32 = 31) :
    (outsAt V c t.val t.isLt).1 = k1_pay3 (outsAt V c t.val t.isLt).2 := by
  rw [outsAt_last V c t h0 h1]
  dsimp only
  exact (outLast_eq (F := F) c (grid1.coords t) (msRows t) (hsRows t) (msOut t) (hsOut t) scM (Memref.isWhole_whole cc1_scratch0) (notFirst_of_pos t h0) (last_of t h1) (blk V c 0 t)
      (outsAt V c (t.val - 1) (Nat.lt_of_le_of_lt (Nat.sub_le _ _) t.isLt)).2).trans
    (congrArg k1_pay3 (accLast_eq (F := F) c (grid1.coords t) (msRows t) (hsRows t) (msOut t) (hsOut t) scM (Memref.isWhole_whole cc1_scratch0) (notFirst_of_pos t h0) (last_of t h1) (blk V c 0 t)
      (outsAt V c (t.val - 1) (Nat.lt_of_le_of_lt (Nat.sub_le _ _) t.isLt)).2).symm)

/-- The scratch row after point `k`, as a sequence over the naturals (anything past the grid). -/
def accAt (c : Dev nD) (k : ℕ) : Vec F S1x8192 .f32 :=
  if h : k < cfg1.N then (outsAt V c k h).2 else k1_pay1 (F := F)
/-- The block of point `k`, as a sequence over the naturals. -/
def rowsAt (c : Dev nD) (k : ℕ) : Vec F S256x8192 .f32 :=
  if h : k < cfg1.N then blk V c 0 ⟨k, h⟩ else fun _ => Scalar.ofBits .f32 0x00000000#32

theorem accAt_of (c : Dev nD) (t : Fin cfg1.N) : accAt V c t.val = (outsAt V c t.val t.isLt).2 := dif_pos t.isLt
theorem rowsAt_of (c : Dev nD) (t : Fin cfg1.N) : rowsAt V c t.val = blk V c 0 t := dif_pos t.isLt

theorem accAt_zero (c : Dev nD) : accAt V c 0 = k1_pay2 (k1_pay1 (F := F)) (rowsAt V c 0) := by
  have hN : 0 < cfg1.N := by rw [show cfg1.N = 32 from N_1]; decide
  have e := acc_first V c ⟨0, hN⟩ rfl
  rw [← accAt_of V c ⟨0, hN⟩, ← rowsAt_of V c ⟨0, hN⟩] at e
  exact e

theorem accAt_succ (c : Dev nD) (n : ℕ) (hn : n + 1 < 32) : accAt V c (n + 1) = k1_pay2 (accAt V c n) (rowsAt V c (n + 1)) := by
  have hN : n + 1 < cfg1.N := by rw [show cfg1.N = 32 from N_1]; exact hn
  have e := acc_later V c ⟨n + 1, hN⟩ (Nat.succ_ne_zero n)
  rw [← accAt_of V c ⟨n + 1, hN⟩, ← rowsAt_of V c ⟨n + 1, hN⟩] at e
  rw [e]
  congr 1
  show (outsAt V c n (Nat.lt_of_succ_lt hN)).2 = accAt V c n
  unfold accAt
  rw [dif_pos (Nat.lt_of_succ_lt hN)]

/-- The result row: from the scratch row after the last point. -/
def result (c : Dev nD) : Buf (Elt F) ((c : Thread nD τ).loc main_v21) := k1_pay3 (accAt V c 31)

/-- The result window's one block sits at the origin at every point and is the whole row. -/
theorem out_index : ∀ t : Fin cfg1.N, win1_1.index t 0 = 0 ∧ win1_1.index t 1 = 0 :=
  (by decide +kernel : ∀ t : Fin grid1.N, win1_1.index t 0 = 0 ∧ win1_1.index t 1 = 0)
theorem out_xsize : ∀ t : Fin cfg1.N, win1_1.xsize (grid1.coords t) 0 = 1 ∧ win1_1.xsize (grid1.coords t) 1 = 8192 :=
  (by decide +kernel : ∀ t : Fin grid1.N, win1_1.xsize (grid1.coords t) 0 = 1 ∧ win1_1.xsize (grid1.coords t) 1 = 8192)

/-- The one write-back, at the last block, writes the result row: block (0, 0) of the one-row array is the array. -/
theorem flushed_eq (c : Dev nD) (t : Fin cfg1.N) (hf : (cfg1.win 1).flush t = true) :
    (dat V c).flushed 1 t = ((cfg1.win 1).blk t).view.read (Elt F) (result V c) := by
  have h31 : t.val % 32 = 31 := (flush1_1 t).mp hf
  have hN := grid_lt t
  have ht : t.val = 31 := by omega
  show (cfg1.win 1).cut (grid1.coords t) ((dat V c).after 1 t) = _
  rw [after_out, out_last V c t (by omega) h31, ← accAt_of V c t, ht]
  have hz' : (fun a => win1_1.index t a * main_v21.ty.shape.size a) = fun _ => 0 := funext fun a => by
    fin_cases a
    · show win1_1.index t 0 * _ = 0; rw [(out_index t).1, Nat.zero_mul]
    · show win1_1.index t 1 * _ = 0; rw [(out_index t).2, Nat.zero_mul]
  exact (Memref.read_access_unit_zero (Elt F) main_v21 hz' (fun a => by rw [congrFun hz' a]; simp) (result V c)).symm

theorem lastPoint_lt : 31 < cfg1.N := by rw [show cfg1.N = 32 from N_1]; decide

/-- So the result array ends holding the result row. -/
theorem final (c : Dev nD) : (dat V c).arrAt 1 cfg1.N = result V c :=
  (dat V c).arrAt_eq_of_cover 1 (result V c) (flushed_eq V c) fun i =>
    ⟨⟨31, lastPoint_lt⟩, (flush1_1 ⟨31, lastPoint_lt⟩).mpr rfl, by
      show i ∈ ((View.whole main_v21).slice (win1_1.rect ⟨31, lastPoint_lt⟩)).set
      rw [View.set_slice_whole, Rect.mem_set_unit]
      intro a
      have h0 : (i 0 : Nat) < 1 := (i 0).isLt
      have h1 : (i 1 : Nat) < 8192 := (i 1).isLt
      have hi := out_index (⟨31, lastPoint_lt⟩ : Fin cfg1.N)
      have hx := out_xsize (⟨31, lastPoint_lt⟩ : Fin cfg1.N)
      match a with
      | ⟨0, _⟩ => show win1_1.index ⟨31, lastPoint_lt⟩ 0 * win1_1.size 0 ≤ (i 0 : Nat) ∧ (i 0 : Nat) < win1_1.index ⟨31, lastPoint_lt⟩ 0 * win1_1.size 0 + win1_1.xsize (grid1.coords ⟨31, lastPoint_lt⟩) 0
                  rw [hi.1, hx.1]; omega
      | ⟨1, _⟩ => show win1_1.index ⟨31, lastPoint_lt⟩ 1 * win1_1.size 1 ≤ (i 1 : Nat) ∧ (i 1 : Nat) < win1_1.index ⟨31, lastPoint_lt⟩ 1 * win1_1.size 1 + win1_1.xsize (grid1.coords ⟨31, lastPoint_lt⟩) 1
                  rw [hi.2, hx.2]; omega⟩

end Cert.KernelIdeal.Degree

end
-- ==== Proof.LibChunks.lean ====
/-
  A running value updated chunk by chunk ends at the value over the whole range.

  A range of T·C places is visited in T chunks of C places. Three running values are considered, each started at a
  value b and updated once per chunk: a sum that adds the chunk's sum, a minimum that takes the minimum with the chunk's
  minimum, a maximum that takes the maximum with the chunk's maximum. After the last chunk the sum is the sum over all
  places (in any commutative additive monoid, so on the extended reals with no finiteness asked), and the minimum
  (maximum) is the minimum (maximum) from b over all places (in any linear order; the chunk's own minimum may be taken
  from any start value not below b, the chunk's own maximum from any start value not above b, since b is folded in
  anyway). Over Mathlib only.
-/
import Mathlib.Algebra.BigOperators.Fin
import Mathlib.Logic.Equiv.Fin.Basic
import Mathlib.Data.Finset.Fold
import Mathlib.Order.Lattice

namespace LibChunks

open Finset

/-- The place C·t + c lies below T·C when t < T and c < C. -/
theorem place_lt {T C : ℕ} {t : ℕ} (ht : t < T) (c : Fin C) : C * t + c.val < T * C := by
  calc C * t + c.val < C * t + C := Nat.add_lt_add_left c.isLt _
    _ = C * (t + 1) := (Nat.mul_succ _ _).symm
    _ ≤ C * T := Nat.mul_le_mul_left _ ht
    _ = T * C := Nat.mul_comm _ _

/-- Every place below T·C is C·t + c for its chunk t and its position c in the chunk. -/
theorem place_split {T C : ℕ} (k : Fin (T * C)) :
    ∃ (t : ℕ) (ht : t < T) (c : Fin C), (⟨C * t + c.val, place_lt ht c⟩ : Fin (T * C)) = k := by
  have hlt : k.val < T * C := k.isLt
  have hC : 0 < C := by
    rcases Nat.eq_zero_or_pos C with h | h
    · exfalso
      have h2 : T * C = 0 := by rw [h, Nat.mul_zero]
      omega
    · exact h
  have hk : k.val < C * T := by
    have h3 := Nat.mul_comm C T
    omega
  refine ⟨k.val / C, Nat.div_lt_of_lt_mul hk, ⟨k.val % C, Nat.mod_lt _ hC⟩, Fin.ext ?_⟩
  exact Nat.div_add_mod k.val C

section Sum

variable {M : Type*} [AddCommMonoid M]

/-- A sum started at zero that adds one chunk's sum per step holds, after n steps, the sum of the first n chunks. -/
theorem chain_sum_prefix (T : ℕ) (S : (t : ℕ) → t < T → M) (acc : ℕ → M) (h0 : acc 0 = 0)
    (hs : ∀ n (h : n < T), acc (n + 1) = acc n + S n h) :
    ∀ n (hn : n ≤ T), acc n = ∑ t : Fin n, S t.val (Nat.lt_of_lt_of_le t.isLt hn)
  | 0, _ => by rw [h0]; exact (Finset.sum_empty).symm
  | n + 1, hn => by
    rw [hs n hn, chain_sum_prefix T S acc h0 hs n (Nat.le_of_lt hn), Fin.sum_univ_castSucc]
    rfl

/-- … and after the last step the sum over all T·C places. -/
theorem chain_sum_blocks (T C : ℕ) (g : Fin (T * C) → M) (acc : ℕ → M) (h0 : acc 0 = 0)
    (hs : ∀ n (h : n < T), acc (n + 1) = acc n + ∑ c : Fin C, g ⟨C * n + c.val, place_lt h c⟩) :
    acc T = ∑ k : Fin (T * C), g k := by
  rw [chain_sum_prefix T (fun n h => ∑ c : Fin C, g ⟨C * n + c.val, place_lt h c⟩) acc h0 hs T (Nat.le_refl _),
    ← Equiv.sum_comp (finProdFinEquiv (m := T) (n := C)) g, Fintype.sum_prod_type]
  refine Finset.sum_congr rfl fun t _ => Finset.sum_congr rfl fun c _ => ?_
  congr 1
  apply Fin.ext
  simp [finProdFinEquiv, Nat.add_comm]

end Sum

section Order

variable {β : Type*} [LinearOrder β]

/-- A minimum started at b that takes, per step, the minimum with the chunk's minimum (from any b' ≥ b) is, after the
    last step, the minimum from b over all T·C places. -/
theorem chain_min_blocks (T C : ℕ) (b b' : β) (hb : b ≤ b') (g : Fin (T * C) → β) (acc : ℕ → β) (h0 : acc 0 = b)
    (hs : ∀ n (h : n < T), acc (n + 1)
      = min (acc n) ((Finset.univ : Finset (Fin C)).fold min b' fun c => g ⟨C * n + c.val, place_lt h c⟩)) :
    acc T = (Finset.univ : Finset (Fin (T * C))).fold min b g := by
  have key : ∀ n (hn : n ≤ T) (z : β),
      z ≤ acc n ↔ z ≤ b ∧ ∀ t (ht : t < n) (c : Fin C), z ≤ g ⟨C * t + c.val, place_lt (Nat.lt_of_lt_of_le ht hn) c⟩ := by
    intro n
    induction n with
    | zero => intro _ z; rw [h0]; exact ⟨fun h => ⟨h, fun t ht => absurd ht (Nat.not_lt_zero t)⟩, fun h => h.1⟩
    | succ n ih =>
      intro hn z
      rw [hs n hn, le_min_iff, ih (Nat.le_of_lt hn), Finset.le_fold_min]
      constructor
      · rintro ⟨⟨h1, h2⟩, _, h4⟩
        refine ⟨h1, fun t ht c => ?_⟩
        rcases Nat.lt_succ_iff_lt_or_eq.mp ht with h | rfl
        · exact h2 t h c
        · exact h4 c (Finset.mem_univ c)
      · rintro ⟨h1, h2⟩
        exact ⟨⟨h1, fun t ht c => h2 t (Nat.lt_succ_of_lt ht) c⟩, le_trans h1 hb, fun c _ => h2 n (Nat.lt_succ_self n) c⟩
  refine le_antisymm ?_ ?_
  · refine (Finset.le_fold_min _).2 ⟨((key T (Nat.le_refl _) _).1 le_rfl).1, fun k _ => ?_⟩
    obtain ⟨t, ht, c, rfl⟩ := place_split k
    exact ((key T (Nat.le_refl _) _).1 le_rfl).2 t ht c
  · refine (key T (Nat.le_refl _) _).2 ⟨(Finset.le_fold_min _).1 le_rfl |>.1, fun t ht c => ?_⟩
    exact ((Finset.le_fold_min _).1 le_rfl).2 _ (Finset.mem_univ _)

/-- A maximum started at b that takes, per step, the maximum with the chunk's maximum (from any b' ≤ b) is, after the
    last step, the maximum from b over all T·C places. -/
theorem chain_max_blocks (T C : ℕ) (b b' : β) (hb : b' ≤ b) (g : Fin (T * C) → β) (acc : ℕ → β) (h0 : acc 0 = b)
    (hs : ∀ n (h : n < T), acc (n + 1)
      = max (acc n) ((Finset.univ : Finset (Fin C)).fold max b' fun c => g ⟨C * n + c.val, place_lt h c⟩)) :
    acc T = (Finset.univ : Finset (Fin (T * C))).fold max b g := by
  have key : ∀ n (hn : n ≤ T) (z : β),
      acc n ≤ z ↔ b ≤ z ∧ ∀ t (ht : t < n) (c : Fin C), g ⟨C * t + c.val, place_lt (Nat.lt_of_lt_of_le ht hn) c⟩ ≤ z := by
    intro n
    induction n with
    | zero => intro _ z; rw [h0]; exact ⟨fun h => ⟨h, fun t ht => absurd ht (Nat.not_lt_zero t)⟩, fun h => h.1⟩
    | succ n ih =>
      intro hn z
      rw [hs n hn, max_le_iff, ih (Nat.le_of_lt hn), Finset.fold_max_le]
      constructor
      · rintro ⟨⟨h1, h2⟩, _, h4⟩
        refine ⟨h1, fun t ht c => ?_⟩
        rcases Nat.lt_succ_iff_lt_or_eq.mp ht with h | rfl
        · exact h2 t h c
        · exact h4 c (Finset.mem_univ c)
      · rintro ⟨h1, h2⟩
        exact ⟨⟨h1, fun t ht c => h2 t (Nat.lt_succ_of_lt ht) c⟩, le_trans hb h1, fun c _ => h2 n (Nat.lt_succ_self n) c⟩
  refine le_antisymm ?_ ?_
  · refine (key T (Nat.le_refl _) _).2 ⟨(Finset.fold_max_le _).1 le_rfl |>.1, fun t ht c => ?_⟩
    exact ((Finset.fold_max_le _).1 le_rfl).2 _ (Finset.mem_univ _)
  · refine (Finset.fold_max_le _).2 ⟨((key T (Nat.le_refl _) _).1 le_rfl).1, fun k _ => ?_⟩
    obtain ⟨t, ht, c, rfl⟩ := place_split k
    exact ((key T (Nat.le_refl _) _).1 le_rfl).2 t ht c

end Order

end LibChunks
-- ==== Proof.KiFolds.lean ====
/-
  The two accumulations of the kernel, summed up over their grid.

  * The column degrees. The 8192 rows of the adjacency matrix are visited in 32 blocks of 256 rows. A row of running
    sums is cleared, and every block adds its column sums to it; after the last block the row holds the column sums of
    the whole matrix, and the stored result is the reciprocal square root of that plus one.

  * One block of 1024 output rows. The 8192 columns of the scaled matrix are visited in 8 tiles of 1024 columns. A block
    of running sums is cleared, and every tile adds the product of its scaled entries with the matching 1024 projected
    rows; after the last tile an entry of the block is the sum over all 8192 columns, and the stored result adds the
    bias. A tile on the diagonal of the 8 × 8 arrangement carries the self loops: for a row `1024 I + r` and a column
    `1024 k + q` with `r, q < 1024`, the row is the column exactly when `I = k` and `r = q`.

  Only the reordering of finite sums is used (a sum over `T · C` places as `T` chunks of `C`), and `0 + x = x`.
-/
import proofs.«154144_j58067957842338_1_alg».proof.Proof.KiPayloads
import proofs.«154144_j58067957842338_1_alg».proof.Proof.Spec
import proofs.«154144_j58067957842338_1_alg».proof.Proof.LibChunks

noncomputable section

open scoped BigOperators

namespace Cert.KernelIdeal.Pay

open Cert.KernelIdeal Cert.KernelIdeal.Gen Idealize.ShloMosaic Idealize.ShloMosaic.ValueIdx

/-- A running value listed from its first update on, with its start value put in front. -/
def shift {α : Type} (b : α) (f : ℕ → α) : ℕ → α
  | 0 => b
  | n + 1 => f n

/-! ## The column degrees -/

/-- After the 32 blocks the stored row is the inverse square root of the degrees. -/
theorem degree_total (A : (⟨2, ![8192, 8192]⟩ : Shape).Idx → EReal) (x : ℕ → Vec Ideal S256x8192 .f32)
    (s : ℕ → Vec Ideal S1x8192 .f32)
    (hx : ∀ (k : ℕ) (hk : k < 32) (r : Fin 256) (j : Fin 8192), x k (ix2 r j) = A (ix2 ⟨256 * k + r.val, by omega⟩ j))
    (h0 : s 0 = k1_pay2 (F := Ideal) (k1_pay1 (F := Ideal)) (x 0))
    (hs : ∀ n, n + 1 < 32 → s (n + 1) = k1_pay2 (F := Ideal) (s n) (x (n + 1)))
    (j : Fin 8192) : k1_pay3 (F := Ideal) (s 31) (ix2 (0 : Fin 1) j) = Cert.Gcn.dis A j := by
  rw [rsqrt_apply]
  unfold Cert.Gcn.dis Cert.Gcn.colSum
  refine congrArg (fun z => Ideal.rsqrt (z + 1)) ?_
  have hstep : ∀ n (h : n < 32), shift (0 : EReal) (fun n => s n (ix2 (0 : Fin 1) j)) (n + 1)
      = shift (0 : EReal) (fun n => s n (ix2 (0 : Fin 1) j)) n
        + ∑ c : Fin 256, (fun k : Fin (32 * 256) => A (ix2 (⟨k.val, k.isLt⟩ : Fin 8192) j))
            ⟨256 * n + c.val, LibChunks.place_lt h c⟩ := by
    intro n h
    cases n with
    | zero =>
      show s 0 (ix2 (0 : Fin 1) j) = 0 + _
      rw [h0, colsum_apply, clearRow_apply]
      exact congrArg (0 + ·) (Finset.sum_congr rfl fun c _ => hx 0 h c j)
    | succ m =>
      show s (m + 1) (ix2 (0 : Fin 1) j) = s m (ix2 (0 : Fin 1) j) + _
      rw [hs m h, colsum_apply]
      exact congrArg (s m (ix2 (0 : Fin 1) j) + ·) (Finset.sum_congr rfl fun c _ => hx (m + 1) h c j)
  exact LibChunks.chain_sum_blocks 32 256 (fun k : Fin (32 * 256) => A (ix2 (⟨k.val, k.isLt⟩ : Fin 8192) j))
    (shift (0 : EReal) (fun n => s n (ix2 (0 : Fin 1) j))) rfl hstep

/-! ## One block of output rows -/

/-- The term of an output entry's sum at column `j`: the scaled matrix's entry `(R, j)` times the projected feature
    `(j, c)`. -/
def term (A : (⟨2, ![8192, 8192]⟩ : Shape).Idx → EReal) (HW : (⟨2, ![8192, 256]⟩ : Shape).Idx → EReal)
    (dr : (⟨2, ![8192, 1]⟩ : Shape).Idx → EReal) (dc : (⟨2, ![1, 8192]⟩ : Shape).Idx → EReal)
    (R : Fin 8192) (c : Fin 256) (j : Fin 8192) : EReal :=
  ((A (ix2 R j) + Cert.Gcn.selfLoop R j) * dr (ix2 R 0) * dc (ix2 0 j)) * HW (ix2 j c)

/-- After the 8 tiles the stored block is the scaled matrix's rows times the projected features, plus the bias. -/
theorem scale_total (A : (⟨2, ![8192, 8192]⟩ : Shape).Idx → EReal) (HW : (⟨2, ![8192, 256]⟩ : Shape).Idx → EReal)
    (dr : (⟨2, ![8192, 1]⟩ : Shape).Idx → EReal) (dc : (⟨2, ![1, 8192]⟩ : Shape).Idx → EReal)
    (bb : (⟨2, ![1, 256]⟩ : Shape).Idx → EReal)
    (I : Fin 8) (ik : ℕ → grid2.Coords) (hik : ∀ k, k < 8 → ((ik k) 0).val = I.val ∧ ((ik k) 1).val = k)
    (x3 : ℕ → Vec Ideal S1024x1024 .f32) (x14 : ℕ → Vec Ideal S1024x1 .f32) (x16 : ℕ → Vec Ideal S1x1024 .f32)
    (x23 : ℕ → Vec Ideal S1024x256 .f32) (x36 : Vec Ideal S1x256 .f32)
    (h3 : ∀ k (hk : k < 8) (r q : Fin 1024),
      x3 k (ix2 r q) = A (ix2 ⟨1024 * I.val + r.val, by omega⟩ ⟨1024 * k + q.val, by omega⟩))
    (h14 : ∀ k, k < 8 → ∀ r : Fin 1024, x14 k (ix2 r 0) = dr (ix2 ⟨1024 * I.val + r.val, by omega⟩ 0))
    (h16 : ∀ k (hk : k < 8) (q : Fin 1024), x16 k (ix2 0 q) = dc (ix2 0 ⟨1024 * k + q.val, by omega⟩))
    (h23 : ∀ k (hk : k < 8) (q : Fin 1024) (c : Fin 256), x23 k (ix2 q c) = HW (ix2 ⟨1024 * k + q.val, by omega⟩ c))
    (h36 : ∀ c : Fin 256, x36 (ix2 0 c) = bb (ix2 0 c))
    (a : ℕ → Vec Ideal S1024x256 .f32)
    (h0 : a 0 = k2_pay2 (F := Ideal) (ik 0) (x3 0) (x14 0) (x16 0) (x23 0) (k2_pay1 (F := Ideal)))
    (hs : ∀ k, k + 1 < 8 → a (k + 1)
      = k2_pay2 (F := Ideal) (ik (k + 1)) (x3 (k + 1)) (x14 (k + 1)) (x16 (k + 1)) (x23 (k + 1)) (a k))
    (r : Fin 1024) (c : Fin 256) :
    k2_pay3 (F := Ideal) (a 7) x36 (ix2 r c)
      = (∑ j : Fin 8192, ((A (ix2 ⟨1024 * I.val + r.val, by omega⟩ j)
            + Cert.Gcn.selfLoop ⟨1024 * I.val + r.val, by omega⟩ j) * dr (ix2 ⟨1024 * I.val + r.val, by omega⟩ 0)
            * dc (ix2 0 j)) * HW (ix2 j c)) + bb (ix2 0 c) := by
  rw [bias_apply, h36 c]
  refine congrArg (· + bb (ix2 0 c)) ?_
  have hI := I.isLt
  have hr := r.isLt
  -- one tile: the running entry plus the 1024 terms of the tile's columns
  have htile : ∀ k (hk : k < 8) (w : Vec Ideal S1024x256 .f32),
      k2_pay2 (F := Ideal) (ik k) (x3 k) (x14 k) (x16 k) (x23 k) w (ix2 r c)
        = w (ix2 r c) + ∑ q : Fin 1024,
            term A HW dr dc ⟨1024 * I.val + r.val, by omega⟩ c ⟨1024 * k + q.val, by omega⟩ := by
    intro k hk w
    obtain ⟨e0, e1⟩ := hik k hk
    rw [tile_apply (ik k) (by omega) (by omega)]
    refine congrArg (w (ix2 r c) + ·) (Finset.sum_congr rfl fun q _ => ?_)
    have hq := q.isLt
    rw [h3 k hk r q, h14 k hk r, h16 k hk q, h23 k hk q c, e0, e1]
    unfold term Cert.Gcn.selfLoop
    have hm : (I.val = k ∧ r = q)
        ↔ ((⟨1024 * I.val + r.val, by omega⟩ : Fin 8192) = ⟨1024 * k + q.val, by omega⟩) := by
      constructor
      · rintro ⟨h1, h2⟩
        exact Fin.ext (show 1024 * I.val + r.val = 1024 * k + q.val by rw [h1, h2])
      · intro h
        have h' : 1024 * I.val + r.val = 1024 * k + q.val := congrArg Fin.val h
        exact ⟨by omega, Fin.ext (by omega)⟩
    rw [if_congr hm rfl rfl]
  have hstep : ∀ k (h : k < 8), shift (0 : EReal) (fun k => a k (ix2 r c)) (k + 1)
      = shift (0 : EReal) (fun k => a k (ix2 r c)) k
        + ∑ q : Fin 1024, (fun j : Fin (8 * 1024) =>
            term A HW dr dc ⟨1024 * I.val + r.val, by omega⟩ c (⟨j.val, j.isLt⟩ : Fin 8192))
            ⟨1024 * k + q.val, LibChunks.place_lt h q⟩ := by
    intro k h
    cases k with
    | zero =>
      show a 0 (ix2 r c) = 0 + _
      rw [h0, htile 0 h, clearBlock_apply]
    | succ m =>
      show a (m + 1) (ix2 r c) = a m (ix2 r c) + _
      rw [hs m h, htile (m + 1) h]
  exact LibChunks.chain_sum_blocks 8 1024
    (fun j : Fin (8 * 1024) => term A HW dr dc ⟨1024 * I.val + r.val, by omega⟩ c (⟨j.val, j.isLt⟩ : Fin 8192))
    (shift (0 : EReal) (fun k => a k (ix2 r c))) rfl hstep

end Cert.KernelIdeal.Pay

end
-- ==== Proof.KiDegreeIdeal.lean ====
/-
  The degree kernel's result row on the extended reals: entry `j` is the inverse square root of column `j`'s degree.
  The scratch row's sequence over the 32 blocks adds up, block after block, to the column sum of the adjacency matrix.
-/
import proofs.«154144_j58067957842338_1_alg».proof.Proof.Gen.KernelIdeal.Launch
import proofs.«154144_j58067957842338_1_alg».proof.Proof.Gen.KernelIdeal.Skeleton
import proofs.«154144_j58067957842338_1_alg».proof.Proof.Gen.KernelIdeal.Points
import proofs.«154144_j58067957842338_1_alg».proof.Proof.KiDegreeFold
import proofs.«154144_j58067957842338_1_alg».proof.Proof.KiFolds
import proofs.«154144_j58067957842338_1_alg».proof.Proof.KiBlocks
import proofs.«154144_j58067957842338_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Degree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

theorem result_apply (c : Dev nD) (j : Fin 8192) :
    (result V c : S1x8192.Idx → EReal) (ix2 (0 : Fin 1) j) = Cert.Gcn.dis (V c main_v19) j := by
  unfold result
  refine Cert.KernelIdeal.Pay.degree_total (V c main_v19) (rowsAt V c) (accAt V c) (fun k hk r j' => ?_) (accAt_zero V c)
    (fun n hn => accAt_succ V c n hn) j
  have hN : k < cfg1.N := by rw [show cfg1.N = 32 from N_1]; exact hk
  rw [show rowsAt V c k = blk V c 0 ⟨k, hN⟩ from dif_pos hN]
  exact Cert.KernelIdeal.Blocks.deg_rows V c ⟨k, hN⟩ r j'

end Cert.KernelIdeal.Degree

end
-- ==== Proof.KiScaleValue.lean ====
/-
  What each case of the scaled-product kernel leaves behind, as the body's arithmetic of the buffers it loaded: the first
  tile of a row block leaves the cleared block plus its product, every later tile what the point before left plus its
  product, and the last tile also stores the result block as the completed sum plus the bias row.
-/
import proofs.«154144_j58067957842338_1_alg».proof.Proof.Gen.KernelIdeal.Launch
import proofs.«154144_j58067957842338_1_alg».proof.Proof.Gen.KernelIdeal.Skeleton
import proofs.«154144_j58067957842338_1_alg».proof.Proof.Gen.KernelIdeal.Points
import proofs.«154144_j58067957842338_1_alg».proof.Proof.KiScaleData
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Scale

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zero_offsets : (![0, 0] : Fin 2 → Nat) = fun _ => 0 := funext fun a => by fin_cases a <;> rfl

theorem accMid_eq (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬isFirst i) (hc1 : ¬isLast i) (x0 : Vec F S1024x1024 .f32) (x1 : Vec F S1024x256 .f32) (x2 : Vec F S1024x1 .f32) (x3 : Vec F S1x1024 .f32) (x4 : Vec F S1x256 .f32) (xs : Vec F S1024x256 .f32) :
    accMid c i arg2 harg2 arg3 harg3 arg4 harg4 arg5 harg5 arg6 harg6 arg7 harg7 arg8 harg8 hc0 hc1 x0 x1 x2 x3 x4 xs = k2_pay2 i x0 x2 x3 x1 xs := by
  unfold accMid
  rw [View.read_writes_eq_canon _ _ _ (accMid_cover c i arg2 harg2 arg3 harg3 arg4 harg4 arg5 harg5 arg6 harg6 arg7 harg7 arg8 harg8 hc0 hc1 x0 x1 x2 x3 x4 xs)]
  unfold runMid
  dsimp only
  rw [View.canon_unit_zero zero_offsets]
  simp only [View.readAt_eq_ld, harg2.read_unread, harg3.read_unread, harg4.read_unread, harg5.read_unread, harg8.read_unread, View.ld_unit_zero (S := S1024x1024) zero_offsets, View.ld_unit_zero (S := S1024x256) zero_offsets, View.ld_unit_zero (S := S1024x1) zero_offsets, View.ld_unit_zero (S := S1x1024) zero_offsets, View.ld_unit_zero (S := S1x256) zero_offsets]

theorem accFirst_eq (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : isFirst i) (hc1 : ¬isLast i) (x0 : Vec F S1024x1024 .f32) (x1 : Vec F S1024x256 .f32) (x2 : Vec F S1024x1 .f32) (x3 : Vec F S1x1024 .f32) (x4 : Vec F S1x256 .f32) :
    accFirst c i arg2 harg2 arg3 harg3 arg4 harg4 arg5 harg5 arg6 harg6 arg7 harg7 arg8 harg8 hc0 hc1 x0 x1 x2 x3 x4 = k2_pay2 i x0 x2 x3 x1 (k2_pay1 (F := F)) := by
  unfold accFirst
  rw [View.read_writes_eq_canon _ _ _ (accFirst_cover c i arg2 harg2 arg3 harg3 arg4 harg4 arg5 harg5 arg6 harg6 arg7 harg7 arg8 harg8 hc0 hc1 x0 x1 x2 x3 x4)]
  unfold runFirst
  dsimp only
  sl_unfold_words
  rw [View.canon_cons_unit_zero (S := S1024x256) zero_offsets, View.readCov_unit_zero (S := S1024x256) _ zero_offsets]
  simp only [View.readAt_eq_ld, harg2.read_unread, harg3.read_unread, harg4.read_unread, harg5.read_unread, View.ld_unit_zero (S := S1024x1024) zero_offsets, View.ld_unit_zero (S := S1024x256) zero_offsets, View.ld_unit_zero (S := S1024x1) zero_offsets, View.ld_unit_zero (S := S1x1024) zero_offsets, View.ld_unit_zero (S := S1x256) zero_offsets]

theorem accLast_eq (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬isFirst i) (hc1 : isLast i) (x0 : Vec F S1024x1024 .f32) (x1 : Vec F S1024x256 .f32) (x2 : Vec F S1024x1 .f32) (x3 : Vec F S1x1024 .f32) (x4 : Vec F S1x256 .f32) (xs : Vec F S1024x256 .f32) :
    accLast c i arg2 harg2 arg3 harg3 arg4 harg4 arg5 harg5 arg6 harg6 arg7 harg7 arg8 harg8 hc0 hc1 x0 x1 x2 x3 x4 xs = k2_pay2 i x0 x2 x3 x1 xs := by
  unfold accLast
  rw [View.read_writes_eq_canon _ _ _ (accLast_cover c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero zero_offsets]
  simp only [View.readAt_eq_ld, harg2.read_unread, harg3.read_unread, harg4.read_unread, harg5.read_unread, harg8.read_unread, View.ld_unit_zero (S := S1024x1024) zero_offsets, View.ld_unit_zero (S := S1024x256) zero_offsets, View.ld_unit_zero (S := S1024x1) zero_offsets, View.ld_unit_zero (S := S1x1024) zero_offsets, View.ld_unit_zero (S := S1x256) zero_offsets]

theorem outLast_eq (c : Dev nD) (i : grid2.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬isFirst i) (hc1 : isLast i) (x0 : Vec F S1024x1024 .f32) (x1 : Vec F S1024x256 .f32) (x2 : Vec F S1024x1 .f32) (x3 : Vec F S1x1024 .f32) (x4 : Vec F S1x256 .f32) (xs : Vec F S1024x256 .f32) :
    outLast c i arg2 harg2 arg3 harg3 arg4 harg4 arg5 harg5 arg6 harg6 arg7 harg7 arg8 harg8 hc0 hc1 x0 x1 x2 x3 x4 xs = k2_pay3 (k2_pay2 i x0 x2 x3 x1 xs) x4 := by
  unfold outLast
  rw [View.read_writes_eq_canon _ _ _ (outLast_cover c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero zero_offsets, View.readCov_unit_zero (S := S1024x256) _ zero_offsets]
  simp only [View.readAt_eq_ld, harg2.read_unread, harg3.read_unread, harg4.read_unread, harg5.read_unread, harg6.read_unread, harg8.read_unread, View.ld_unit_zero (S := S1024x1024) zero_offsets, View.ld_unit_zero (S := S1024x256) zero_offsets, View.ld_unit_zero (S := S1024x1) zero_offsets, View.ld_unit_zero (S := S1x1024) zero_offsets, View.ld_unit_zero (S := S1x256) zero_offsets]

end Cert.KernelIdeal.Scale

end
-- ==== Proof.KiScaleFold.lean ====
/-
  The scratch block of the scaled-product kernel as a sequence over the grid: after the first tile of a row block it is
  the cleared block plus that tile's product, after every later tile what it held before plus the tile's product. The
  result's buffer is stored at the last tile of the row block only, as the completed sum plus the bias row. Read per row
  block, the eight tiles give a sequence over the naturals that starts from the cleared block.
-/
import proofs.«154144_j58067957842338_1_alg».proof.Proof.Gen.KernelIdeal.Launch
import proofs.«154144_j58067957842338_1_alg».proof.Proof.Gen.KernelIdeal.Skeleton
import proofs.«154144_j58067957842338_1_alg».proof.Proof.Gen.KernelIdeal.Points
import proofs.«154144_j58067957842338_1_alg».proof.Proof.KiScaleValue
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Scale

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- After the first tile of a row block. -/
theorem acc_first (c : Dev nD) (t : Fin cfg2.N) (h0 : t.val % 8 = 0) :
    (outsAt V c t.val t.isLt).2 = k2_pay2 (grid2.coords t) (blk V c 0 t) (blk V c 2 t) (blk V c 3 t) (blk V c 1 t) (k2_pay1 (F := F)) := by
  rw [outsAt_first V c t h0]
  dsimp only
  exact accFirst_eq (F := F) c (grid2.coords t) (ms0 t) (hs0 t) (ms1 t) (hs1 t) (ms2 t) (hs2 t) (ms3 t) (hs3 t) (ms4 t) (hs4 t) (ms5 t) (hs5 t) scM (Memref.isWhole_whole cc2_scratch0) (first_of t h0) (notLast_of_first t h0) (blk V c 0 t) (blk V c 1 t) (blk V c 2 t) (blk V c 3 t) (blk V c 4 t)

/-- After a later tile: what the point before left, plus the tile's product. -/
theorem acc_later (c : Dev nD) (t : Fin cfg2.N) (h0 : ¬t.val % 8 = 0) :
    (outsAt V c t.val t.isLt).2
      = k2_pay2 (grid2.coords t) (blk V c 0 t) (blk V c 2 t) (blk V c 3 t) (blk V c 1 t) (outsAt V c (t.val - 1) (Nat.lt_of_le_of_lt (Nat.sub_le _ _) t.isLt)).2 := by
  by_cases h1 : t.val % 8 = 7
  · rw [outsAt_last V c t h0 h1]
    dsimp only
    exact accLast_eq (F := F) c (grid2.coords t) (ms0 t) (hs0 t) (ms1 t) (hs1 t) (ms2 t) (hs2 t) (ms3 t) (hs3 t) (ms4 t) (hs4 t) (ms5 t) (hs5 t) scM (Memref.isWhole_whole cc2_scratch0) (notFirst_of t h0) (last_of t h1) (blk V c 0 t) (blk V c 1 t) (blk V c 2 t) (blk V c 3 t) (blk V c 4 t) (outsAt V c (t.val - 1) (Nat.lt_of_le_of_lt (Nat.sub_le _ _) t.isLt)).2
  · rw [outsAt_mid V c t h0 h1]
    dsimp only
    exact accMid_eq (F := F) c (grid2.coords t) (ms0 t) (hs0 t) (ms1 t) (hs1 t) (ms2 t) (hs2 t) (ms3 t) (hs3 t) (ms4 t) (hs4 t) (ms5 t) (hs5 t) scM (Memref.isWhole_whole cc2_scratch0) (notFirst_of t h0) (notLast_of t h1) (blk V c 0 t) (blk V c 1 t) (blk V c 2 t) (blk V c 3 t) (blk V c 4 t) (outsAt V c (t.val - 1) (Nat.lt_of_le_of_lt (Nat.sub_le _ _) t.isLt)).2

/-- At the last tile the result's buffer is stored from the scratch block as the point leaves it, plus the bias row. -/
theorem out_last (c : Dev nD) (t : Fin cfg2.N) (h0 : ¬t.val % 8 = 0) (h1 : t.val % 8 = 7) :
    (outsAt V c t.val t.isLt).1 = k2_pay3 (outsAt V c t.val t.isLt).2 (blk V c 4 t) := by
  rw [outsAt_last V c t h0 h1]
  dsimp only
  exact (outLast_eq (F := F) c (grid2.coords t) (ms0 t) (hs0 t) (ms1 t) (hs1 t) (ms2 t) (hs2 t) (ms3 t) (hs3 t) (ms4 t) (hs4 t) (ms5 t) (hs5 t) scM (Memref.isWhole_whole cc2_scratch0) (notFirst_of t h0) (last_of t h1) (blk V c 0 t) (blk V c 1 t) (blk V c 2 t) (blk V c 3 t) (blk V c 4 t) (outsAt V c (t.val - 1) (Nat.lt_of_le_of_lt (Nat.sub_le _ _) t.isLt)).2).trans
    (congrArg (fun s => k2_pay3 s (blk V c 4 t)) (accLast_eq (F := F) c (grid2.coords t) (ms0 t) (hs0 t) (ms1 t) (hs1 t) (ms2 t) (hs2 t) (ms3 t) (hs3 t) (ms4 t) (hs4 t) (ms5 t) (hs5 t) scM (Memref.isWhole_whole cc2_scratch0) (notFirst_of t h0) (last_of t h1) (blk V c 0 t) (blk V c 1 t) (blk V c 2 t) (blk V c 3 t) (blk V c 4 t) (outsAt V c (t.val - 1) (Nat.lt_of_le_of_lt (Nat.sub_le _ _) t.isLt)).2).symm)

/-! ## One row block as sequences over the naturals -/

theorem pt_lt (I k : ℕ) (hI : I < 8) (hk : k < 8) : 8 * I + k < cfg2.N := by rw [show cfg2.N = 64 from N_2]; omega
theorem zero_lt : 0 < cfg2.N := by rw [show cfg2.N = 64 from N_2]; decide

/-- The scratch block after tile `k` of row block `I` (anything outside the grid). -/
def accRow (c : Dev nD) (I k : ℕ) : Vec F S1024x256 .f32 :=
  if h : 8 * I + k < cfg2.N then (outsAt V c (8 * I + k) h).2 else k2_pay1 (F := F)
/-- The point's grid coordinates. -/
def ikRow (I k : ℕ) : grid2.Coords :=
  if h : 8 * I + k < cfg2.N then grid2.coords ⟨8 * I + k, h⟩ else grid2.coords ⟨0, zero_lt⟩
/-- The adjacency tile, the feature rows, the row factors and the column factors the point works on. -/
def tileRow (c : Dev nD) (I k : ℕ) : Vec F S1024x1024 .f32 :=
  if h : 8 * I + k < cfg2.N then blk V c 0 ⟨8 * I + k, h⟩ else fun _ => Scalar.ofBits .f32 0x00000000#32
def featRow (c : Dev nD) (I k : ℕ) : Vec F S1024x256 .f32 :=
  if h : 8 * I + k < cfg2.N then blk V c 1 ⟨8 * I + k, h⟩ else fun _ => Scalar.ofBits .f32 0x00000000#32
def rowScaleRow (c : Dev nD) (I k : ℕ) : Vec F S1024x1 .f32 :=
  if h : 8 * I + k < cfg2.N then blk V c 2 ⟨8 * I + k, h⟩ else fun _ => Scalar.ofBits .f32 0x00000000#32
def colScaleRow (c : Dev nD) (I k : ℕ) : Vec F S1x1024 .f32 :=
  if h : 8 * I + k < cfg2.N then blk V c 3 ⟨8 * I + k, h⟩ else fun _ => Scalar.ofBits .f32 0x00000000#32

theorem accRow_of (c : Dev nD) (I k : ℕ) (h : 8 * I + k < cfg2.N) : accRow V c I k = (outsAt V c (8 * I + k) h).2 := dif_pos h
theorem ikRow_of (I k : ℕ) (h : 8 * I + k < cfg2.N) : ikRow I k = grid2.coords ⟨8 * I + k, h⟩ := dif_pos h
theorem tileRow_of (c : Dev nD) (I k : ℕ) (h : 8 * I + k < cfg2.N) : tileRow V c I k = blk V c 0 ⟨8 * I + k, h⟩ := dif_pos h
theorem featRow_of (c : Dev nD) (I k : ℕ) (h : 8 * I + k < cfg2.N) : featRow V c I k = blk V c 1 ⟨8 * I + k, h⟩ := dif_pos h
theorem rowScaleRow_of (c : Dev nD) (I k : ℕ) (h : 8 * I + k < cfg2.N) : rowScaleRow V c I k = blk V c 2 ⟨8 * I + k, h⟩ := dif_pos h
theorem colScaleRow_of (c : Dev nD) (I k : ℕ) (h : 8 * I + k < cfg2.N) : colScaleRow V c I k = blk V c 3 ⟨8 * I + k, h⟩ := dif_pos h

/-- The first tile starts from the cleared block. -/
theorem accRow_zero (c : Dev nD) (I : ℕ) (hI : I < 8) :
    accRow V c I 0 = k2_pay2 (ikRow I 0) (tileRow V c I 0) (rowScaleRow V c I 0) (colScaleRow V c I 0) (featRow V c I 0) (k2_pay1 (F := F)) := by
  have h := pt_lt I 0 hI (by decide)
  rw [accRow_of V c I 0 h, ikRow_of I 0 h, tileRow_of V c I 0 h, rowScaleRow_of V c I 0 h, colScaleRow_of V c I 0 h, featRow_of V c I 0 h]
  exact acc_first V c ⟨8 * I + 0, h⟩ (by show (8 * I + 0) % 8 = 0; omega)

/-- Every later tile adds its product to what the tile before left. -/
theorem accRow_succ (c : Dev nD) (I : ℕ) (hI : I < 8) (k : ℕ) (hk : k + 1 < 8) :
    accRow V c I (k + 1) = k2_pay2 (ikRow I (k + 1)) (tileRow V c I (k + 1)) (rowScaleRow V c I (k + 1)) (colScaleRow V c I (k + 1)) (featRow V c I (k + 1)) (accRow V c I k) := by
  have h := pt_lt I (k + 1) hI hk
  have h' := pt_lt I k hI (by omega)
  rw [accRow_of V c I (k + 1) h, ikRow_of I (k + 1) h, tileRow_of V c I (k + 1) h, rowScaleRow_of V c I (k + 1) h, colScaleRow_of V c I (k + 1) h, featRow_of V c I (k + 1) h,
    accRow_of V c I k h']
  exact acc_later V c ⟨8 * I + (k + 1), h⟩ (by show ¬(8 * I + (k + 1)) % 8 = 0; omega)

end Cert.KernelIdeal.Scale

end
-- ==== Proof.KiScaleCover.lean ====
/-
  Where the third region's result blocks sit, and that they cover the result.

  The result is written back at the last tile of every row block: point `t` with `t % 8 = 7` writes rows
  `1024 · (t / 8)` to `1024 · (t / 8) + 1023`, all 256 columns. Row `i` of the result is therefore written by the
  point `8 · (i / 1024) + 7`.
-/
import proofs.«154144_j58067957842338_1_alg».proof.Proof.KiScale
import proofs.«154144_j58067957842338_1_alg».proof.Proof.KiBlocks
import proofs.«154144_j58067957842338_1_alg».proof.Proof.Gen.KernelIdeal.Points
import Idealize.ShloMosaic.Lib.Pipeline.Value
import Idealize.ShloMosaic.Lib.ValueIdx

noncomputable section

namespace Cert.KernelIdeal.Scale

open Cert.KernelIdeal Cert.KernelIdeal.Gen
open Idealize.ShloMosaic Idealize.ShloMosaic.TcCoe Idealize.ShloMosaic.ValueIdx

/-- An entry of the result is in point `t`'s block exactly when each coordinate is in the block's range on its axis. -/
theorem mem_out (t : Fin cfg2.N) (i : S8192x256.Idx) :
    i ∈ ((cfg2.win 5).blk t).view.set ↔ ∀ a : Fin 2, win2_5.index t a * S1024x256.size a ≤ (i a).val
      ∧ (i a).val < win2_5.index t a * S1024x256.size a + S1024x256.size a := by
  show i ∈ ((View.whole main_v24).slice (win2_5.rect t)).set ↔ _
  rw [View.set_slice_whole, Rect.mem_set_unit]
  exact Iff.rfl

/-- Every entry of the result is in the block of a point that writes back: the last tile of the entry's row block. -/
theorem out_cover (i : S8192x256.Idx) :
    ∃ t : Fin cfg2.N, (cfg2.win 5).flush t = true ∧ i ∈ ((cfg2.win 5).blk t).view.set := by
  have hi0 : (i 0).val < 8192 := (i 0).isLt
  have hi1 : (i 1).val < 256 := (i 1).isLt
  have hN : cfg2.N = 64 := N_2
  obtain ⟨t, ht⟩ : ∃ t : Fin cfg2.N, t.val = 8 * ((i 0).val / 1024) + 7 :=
    ⟨⟨8 * ((i 0).val / 1024) + 7, lt_of_lt_of_eq (by omega) hN.symm⟩, rfl⟩
  refine ⟨t, (flush2_5 t).2 (by omega), ?_⟩
  rw [mem_out]
  obtain ⟨e0, e1⟩ := Blocks.out_index2 t
  intro a
  match a with
  | ⟨0, _⟩ =>
    show win2_5.index t (0 : Fin 2) * 1024 ≤ (i 0).val ∧ (i 0).val < win2_5.index t (0 : Fin 2) * 1024 + 1024
    rw [e0]; omega
  | ⟨1, _⟩ =>
    show win2_5.index t (1 : Fin 2) * 256 ≤ (i 1).val ∧ (i 1).val < win2_5.index t (1 : Fin 2) * 256 + 256
    rw [e1]; omega

/-- Where point `t`'s block sits in the result. -/
theorem out_emb (t : Fin cfg2.N) (r : Fin 1024) (q : Fin 256) :
    ((cfg2.win 5).blk t).view.emb (ix2 r q : S1024x256.Idx)
      = (ix2 ⟨1024 * (t.val / 8) + r.val, by have := Blocks.t2_lt t; have := r.isLt; omega⟩ q : S8192x256.Idx) := by
  funext a
  apply Fin.ext
  match a with
  | ⟨0, _⟩ =>
    show win2_5.index t (0 : Fin 2) * 1024 + 1 * r.val = 1024 * (t.val / 8) + r.val
    rw [(Blocks.out_index2 t).1]; omega
  | ⟨1, _⟩ =>
    show win2_5.index t (1 : Fin 2) * 256 + 1 * q.val = q.val
    rw [(Blocks.out_index2 t).2]; omega

end Cert.KernelIdeal.Scale

end
-- ==== Proof.KiScaleIdeal.lean ====
/-
  The third region's result array on the extended reals. At the last tile of row block `I` the result block is the
  scratch block's completed sum over the eight tiles plus the bias row; tile by tile the products add up to the
  contraction over all 8192 columns, the identity's entry falling on the diagonal tiles. So the block written back is
  the block of the layer's output read off the arrays the region was entered with, and the eight write-backs cover the
  array.
-/
import proofs.«154144_j58067957842338_1_alg».proof.Proof.Gen.KernelIdeal.Launch
import proofs.«154144_j58067957842338_1_alg».proof.Proof.Gen.KernelIdeal.Skeleton
import proofs.«154144_j58067957842338_1_alg».proof.Proof.Gen.KernelIdeal.Points
import proofs.«154144_j58067957842338_1_alg».proof.Proof.KiScaleFold
import proofs.«154144_j58067957842338_1_alg».proof.Proof.KiScaleCover
import proofs.«154144_j58067957842338_1_alg».proof.Proof.KiFolds
import proofs.«154144_j58067957842338_1_alg».proof.Proof.KiBlocks
import proofs.«154144_j58067957842338_1_alg».proof.Proof.Spec
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Scale

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- One entry of the layer's output from the adjacency matrix, the projected features, the row and column factors and the
    bias row. -/
def entry (A : S8192x8192.Idx → EReal) (HW : S8192x256.Idx → EReal) (dr : S8192x1.Idx → EReal) (dc : S1x8192.Idx → EReal)
    (bb : S1x256.Idx → EReal) (R : Fin 8192) (q : Fin 256) : EReal :=
  (∑ j : Fin 8192, ((A (ix2 R j) + Cert.Gcn.selfLoop R j) * dr (ix2 R 0) * dc (ix2 0 j)) * HW (ix2 j q)) + bb (ix2 0 q)

/-- The layer's output from the arrays the region is entered with. -/
def outArr (c : Dev nD) : Buf (Elt Ideal) ((c : Thread nD τ).loc main_v24) := fun i =>
  entry (V c main_v19) (V c main_v20) (V c main_v22) (V c main_v21) (V c main_v23) (i 0) (i 1)

theorem outsAt_congr (c : Dev nD) {n n' : ℕ} (e : n = n') (h : n < cfg2.N) (h' : n' < cfg2.N) :
    outsAt V c n h = outsAt V c n' h' := by subst e; rfl

theorem ix2_congr {n0 n1 : ℕ} {a a' : Fin n0} {b b' : Fin n1} (ha : a.val = a'.val) (hb : b.val = b'.val) :
    (ix2 a b : (⟨2, ![n0, n1]⟩ : Shape).Idx) = ix2 a' b' := by rw [Fin.ext ha, Fin.ext hb]

/-- What the last tile of a row block writes back is that block of the output. -/
theorem flushed_eq (c : Dev nD) (t : Fin cfg2.N) (hf : (cfg2.win 5).flush t = true) :
    (dat V c).flushed 5 t = ((cfg2.win 5).blk t).view.read (Elt Ideal) (outArr V c) := by
  have h7 : t.val % 8 = 7 := (flush2_5 t).mp hf
  have hN := grid_lt t
  have hI : t.val / 8 < 8 := by omega
  show (cfg2.win 5).cut (grid2.coords t) ((dat V c).after 5 t) = _
  rw [after_out, out_last V c t (by omega) h7]
  funext y
  obtain ⟨r, q, rfl⟩ : ∃ (r : Fin 1024) (q : Fin 256), y = ix2 r q := ⟨y 0, y 1, eq_ix2 y⟩
  show _ = outArr V c (((cfg2.win 5).blk t).view.emb (ix2 r q))
  rw [out_emb t r q]
  have hpt : 8 * (t.val / 8) + 7 = t.val := by omega
  have hacc : accRow V c (t.val / 8) 7 = (outsAt V c t.val t.isLt).2 := by
    rw [accRow_of V c (t.val / 8) 7 (pt_lt _ 7 hI (by decide))]
    exact congrArg Prod.snd (outsAt_congr V c hpt _ _)
  rw [← hacc]
  refine (Cert.KernelIdeal.Pay.scale_total (V c main_v19) (V c main_v20) (V c main_v22) (V c main_v21) (V c main_v23) ⟨t.val / 8, hI⟩
    (ikRow (t.val / 8)) ?hik (tileRow V c (t.val / 8)) (rowScaleRow V c (t.val / 8)) (colScaleRow V c (t.val / 8)) (featRow V c (t.val / 8)) (blk V c 4 t)
    ?h3 ?h14 ?h16 ?h23 ?h36 (accRow V c (t.val / 8)) (accRow_zero V c _ hI) (fun k hk => accRow_succ V c _ hI k hk) r q).trans ?_
  case hik =>
    intro k hk
    have h := pt_lt (t.val / 8) k hI hk
    rw [ikRow_of _ _ h]
    have hc := Cert.KernelIdeal.Blocks.coords2 ⟨8 * (t.val / 8) + k, h⟩
    exact ⟨hc.1.trans (by show (8 * (t.val / 8) + k) / 8 = t.val / 8; omega), hc.2.trans (by show (8 * (t.val / 8) + k) % 8 = k; omega)⟩
  case h3 =>
    intro k hk r' q'
    have h := pt_lt (t.val / 8) k hI hk
    rw [tileRow_of V c _ k h]
    refine (Cert.KernelIdeal.Blocks.tile_A V c ⟨8 * (t.val / 8) + k, h⟩ r' q').trans (congrArg _ (ix2_congr ?_ ?_))
    · show 1024 * ((8 * (t.val / 8) + k) / 8) + r'.val = 1024 * (t.val / 8) + r'.val; omega
    · show 1024 * ((8 * (t.val / 8) + k) % 8) + q'.val = 1024 * k + q'.val; omega
  case h14 =>
    intro k hk r'
    have h := pt_lt (t.val / 8) k hI hk
    rw [rowScaleRow_of V c _ k h]
    refine (Cert.KernelIdeal.Blocks.tile_rowScale V c ⟨8 * (t.val / 8) + k, h⟩ r').trans (congrArg _ (ix2_congr ?_ rfl))
    show 1024 * ((8 * (t.val / 8) + k) / 8) + r'.val = 1024 * (t.val / 8) + r'.val; omega
  case h16 =>
    intro k hk q'
    have h := pt_lt (t.val / 8) k hI hk
    rw [colScaleRow_of V c _ k h]
    refine (Cert.KernelIdeal.Blocks.tile_colScale V c ⟨8 * (t.val / 8) + k, h⟩ q').trans (congrArg _ (ix2_congr rfl ?_))
    show 1024 * ((8 * (t.val / 8) + k) % 8) + q'.val = 1024 * k + q'.val; omega
  case h23 =>
    intro k hk q' c'
    have h := pt_lt (t.val / 8) k hI hk
    rw [featRow_of V c _ k h]
    refine (Cert.KernelIdeal.Blocks.tile_feat V c ⟨8 * (t.val / 8) + k, h⟩ q' c').trans (congrArg _ (ix2_congr ?_ rfl))
    show 1024 * ((8 * (t.val / 8) + k) % 8) + q'.val = 1024 * k + q'.val; omega
  case h36 =>
    intro c'
    exact Cert.KernelIdeal.Blocks.tile_bias V c t c'
  rfl

/-- The eight write-backs cover the array: it ends holding the layer's output. -/
theorem final (c : Dev nD) : (dat V c).arrAt 5 cfg2.N = outArr V c :=
  (dat V c).arrAt_eq_of_cover 5 (outArr V c) (flushed_eq V c) (fun i => out_cover i)

end Cert.KernelIdeal.Scale

end
-- ==== Proof.LibScatterScalar.lean ====
/-
  A float scatter with an `add` body whose every update is one scalar aimed at one entry of a matrix: the update at
  position `j` of a length-`N` vector goes to entry `(r, c)` where `r` and `c` are the two words in row `j` of an
  `[N, 2]` index array, read signed. On the extended reals the result at `(r, c)` is the operand there plus the sum of
  the updates aimed at `(r, c)`; an update whose words name no entry is dropped. Two such scatters into zero matrices
  with the same number of columns, the second with at least as many rows, agree on the rows of the first.
-/
import Idealize.ShloMosaic.PureOps.Ideal
import Idealize.ShloMosaic.PureOps.Dims
import Idealize.ShloMosaic.Lib.ValueIdx

noncomputable section

open scoped BigOperators

namespace Cert.RefSide

open Idealize.ShloMosaic Idealize.ShloMosaic.ValueIdx

/-- An update lands on the entry `g` exactly when, on every axis, its start plus its window coordinate is `g`'s
    coordinate. -/
theorem resultIdx?_eq_some_iff {s si u : Shape} {w : Nat} (d : ScatterDims s si u) (j : u.Idx) (idx : IVec si w)
    (g : s.Idx) :
    d.resultIdx? j idx = some g ↔ ∀ a, d.start j idx a + d.window j a = ((g a).val : Int) := by
  unfold ScatterDims.resultIdx?
  constructor
  · intro h
    split at h
    · rename_i hc
      intro a
      have e := congrFun (Option.some.inj h) a
      have e' : (d.start j idx a + d.window j a).toNat = (g a).val := congrArg Fin.val e
      have := (hc a).1
      omega
    · exact absurd h (by simp)
  · intro h
    have hc : ∀ a, 0 ≤ d.start j idx a + d.window j a ∧ d.start j idx a + d.window j a < s.size a := fun a => by
      rw [h a]; exact ⟨Int.natCast_nonneg _, by exact_mod_cast (g a).isLt⟩
    rw [dif_pos hc]
    refine congrArg some (funext fun a => Fin.ext ?_)
    show (d.start j idx a + d.window j a).toNat = (g a).val
    rw [h a]; exact Int.toNat_natCast _

/-- The dimension numbers of the scatter: no window axes, both operand axes inserted, word `0` of a row of the index
    array the row coordinate and word `1` the column coordinate. -/
def sd (R C N : Nat) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

variable {R C N : Nat} (wf : ScatterDims.WF ⟨2, ![R, C]⟩ ⟨2, ![N, 2]⟩ ⟨1, ![N]⟩ [] [0, 1] [0, 1] 1)

theorem sd_sKept : (sd R C N wf).sKept = [] := by
  show (List.finRange 2).filter (fun a : Fin 2 => a ∉ ([0, 1] : List (Fin 2))) = []
  decide

theorem sd_window (j : (⟨1, ![N]⟩ : Shape).Idx) (a : Fin 2) : (sd R C N wf).window j a = 0 := by
  unfold ScatterDims.window
  rw [dif_neg (by rw [sd_sKept]; exact List.not_mem_nil)]

theorem sd_siIdx (j : (⟨1, ![N]⟩ : Shape).Idx) (c : Fin 2) : (sd R C N wf).siIdx j c = ix2 (j 0) c := by
  funext b
  match b with
  | ⟨0, _⟩ => rfl
  | ⟨1, _⟩ => rfl

theorem sd_mem (a : Fin 2) : a ∈ (sd R C N wf).scatterDimsToOperandDims := by
  show a ∈ ([0, 1] : List (Fin 2))
  fin_cases a <;> decide

theorem sd_start (j : (⟨1, ![N]⟩ : Shape).Idx) {w : Nat} (idx : IVec ⟨2, ![N, 2]⟩ w) (a : Fin 2) :
    (sd R C N wf).start j idx a = (idx (ix2 (j 0) a)).toInt := by
  unfold ScatterDims.start
  rw [dif_pos (sd_mem wf a)]
  match a with
  | ⟨0, _⟩ => exact congrArg (fun k => (idx k).toInt) (sd_siIdx wf j 0)
  | ⟨1, _⟩ => exact congrArg (fun k => (idx k).toInt) (sd_siIdx wf j 1)

/-- Update `j` lands on entry `(r, c)` exactly when the two words of row `j` of the index array are `r` and `c`. -/
theorem sd_resultIdx?_iff (j : (⟨1, ![N]⟩ : Shape).Idx) {w : Nat} (idx : IVec ⟨2, ![N, 2]⟩ w) (r : Fin R) (c : Fin C) :
    (sd R C N wf).resultIdx? j idx = some (ix2 r c) ↔
      (idx (ix2 (j 0) 0)).toInt = (r.val : Int) ∧ (idx (ix2 (j 0) 1)).toInt = (c.val : Int) := by
  rw [resultIdx?_eq_some_iff]
  constructor
  · intro h
    have h0 := h 0
    have h1 := h 1
    rw [sd_start, sd_window, Nat.cast_zero, add_zero] at h0 h1
    exact ⟨h0, h1⟩
  · intro h a
    rw [sd_start, sd_window, Nat.cast_zero, add_zero]
    match a with
    | ⟨0, _⟩ => exact h.1
    | ⟨1, _⟩ => exact h.2

/-- The scatter read at an entry: the operand there plus the updates whose two index words name the entry. -/
theorem sd_scatterAdd_apply {w : Nat} (x : (⟨2, ![R, C]⟩ : Shape).Idx → EReal) (idx : IVec ⟨2, ![N, 2]⟩ w)
    (upd : (⟨1, ![N]⟩ : Shape).Idx → EReal) (r : Fin R) (c : Fin C) :
    Ideal.hostScatterAdd (sd R C N wf) x idx upd (ix2 r c)
      = x (ix2 r c) + ∑ j ∈ Finset.univ.filter (fun j : (⟨1, ![N]⟩ : Shape).Idx =>
          (idx (ix2 (j 0) 0)).toInt = (r.val : Int) ∧ (idx (ix2 (j 0) 1)).toInt = (c.val : Int)), upd j := by
  unfold Ideal.hostScatterAdd
  congr 1
  exact Finset.sum_congr (Finset.filter_congr fun j _ => sd_resultIdx?_iff wf j idx r c) fun _ _ => rfl

/-- Two scatters of the same updates at the same indices into matrices that are zero, the second with at least as
    many rows: row `k` of the first is row `k` of the second. The updates aimed at `(k, n)` are the same on both sides,
    whatever the other updates do (an update aimed past the first matrix's rows lands in the second's extra rows or
    nowhere, never on row `k`). -/
theorem sd_scatterAdd_rows {R' : Nat} (hR : R ≤ R')
    (wf' : ScatterDims.WF ⟨2, ![R', C]⟩ ⟨2, ![N, 2]⟩ ⟨1, ![N]⟩ [] [0, 1] [0, 1] 1) {w : Nat}
    (z : (⟨2, ![R, C]⟩ : Shape).Idx → EReal) (z' : (⟨2, ![R', C]⟩ : Shape).Idx → EReal)
    (hz : ∀ i, z i = 0) (hz' : ∀ i, z' i = 0) (idx : IVec ⟨2, ![N, 2]⟩ w) (upd : (⟨1, ![N]⟩ : Shape).Idx → EReal)
    (k : Fin R) (n : Fin C) :
    Ideal.hostScatterAdd (sd R' C N wf') z' idx upd (ix2 (Fin.castLE hR k) n)
      = Ideal.hostScatterAdd (sd R C N wf) z idx upd (ix2 k n) := by
  rw [sd_scatterAdd_apply, sd_scatterAdd_apply, hz, hz']
  rfl

end Cert.RefSide

end
-- ==== Proof.LibRealSum.lean ====
/-
  Finite sums of real numbers inside the extended reals.

  The extended reals are not a ring: a product does not distribute over a sum when an infinity meets a
  term of the other sign. Every law used by this certificate is therefore proved on the real numbers
  and carried to the extended reals through the coercion, which is additive and multiplicative on
  reals. This module holds the one general fact that makes that possible for sums of any finite length.
-/
import Mathlib

namespace LibRealSum

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end LibRealSum
-- ==== Proof.Adj.lean ====
/-
  The adjacency matrix of an edge list, and the facts about it that both programs use.

  An edge list is a 2 × 262144 array of 32-bit words: column `j` holds the two end points of edge `j`. A negative
  word counts from the end (it is moved up by the number of nodes, 8192) before it is used. Entry `(r, c)` of the
  adjacency matrix is the number of edges whose two words, after that adjustment and read signed, are exactly `r` and
  `c`; an edge whose words name no node contributes nothing. Every entry is therefore a natural number, so every column
  sum is a non-negative real, the degree (column sum plus one) is at least one, and on such a degree the power with
  exponent -1/2 is the inverse square root.
-/
import Idealize.ShloMosaic.PureOps.Ideal
import Idealize.ShloMosaic.PureOps.Ideal.Laws
import Idealize.ShloMosaic.Lib.ValueIdx
import proofs.«154144_j58067957842338_1_alg».proof.Proof.Spec
import proofs.«154144_j58067957842338_1_alg».proof.Proof.LibScatterScalar
import proofs.«154144_j58067957842338_1_alg».proof.Proof.LibRealSum

noncomputable section

open scoped BigOperators

namespace Cert.Gcn

open Idealize.ShloMosaic Idealize.ShloMosaic.ValueIdx

/-! ## The edge words -/

/-- A word with a negative word moved up by 8192. -/
def wrapWord (w : BitVec 32) : BitVec 32 := if w.slt 0#32 then w + 8192#32 else w

/-- The compare / add / select form of the adjustment is `wrapWord`. -/
theorem select_slt_add (w : BitVec 32) :
    Scalar.select (IntOp.cmpi .slt w 0#32) (IntOp.addi w 8192#32) w = wrapWord w := by
  unfold wrapWord Scalar.select IntOp.cmpi IntOp.addi
  cases h : w.slt 0#32 <;> simp

/-- Row `a` of the edge list at edge `j`, adjusted. -/
def edgeWord (E : IVec ⟨2, ![2, 262144]⟩ 32) (a : Fin 2) (j : Fin 262144) : BitVec 32 := wrapWord (E (ix2 a j))

/-! ## The adjacency matrix -/

/-- The edges aimed at entry `(r, c)`. -/
def edgesAt (E : IVec ⟨2, ![2, 262144]⟩ 32) (r c : Fin 8192) : Finset (⟨1, ![262144]⟩ : Shape).Idx :=
  Finset.univ.filter fun j : (⟨1, ![262144]⟩ : Shape).Idx =>
    (edgeWord E 0 (j 0)).toInt = (r.val : Int) ∧ (edgeWord E 1 (j 0)).toInt = (c.val : Int)

/-- Entry `(r, c)`: one for every edge aimed at it. -/
def adjEntry (E : IVec ⟨2, ![2, 262144]⟩ 32) (r c : Fin 8192) : EReal := ∑ _j ∈ edgesAt E r c, (1 : EReal)

/-- The adjacency matrix of the edge list. -/
def adj (E : IVec ⟨2, ![2, 262144]⟩ 32) : Adj := fun i => adjEntry E (i 0) (i 1)

theorem adj_apply (E : IVec ⟨2, ![2, 262144]⟩ 32) (r c : Fin 8192) : adj E (ix2 r c) = adjEntry E r c := rfl

/-- A scatter of ones into a zero matrix, at an index array whose row `j` holds the two adjusted words of edge `j`,
    is the adjacency matrix. -/
theorem scatter_ones_eq_adj (wf : ScatterDims.WF ⟨2, ![8192, 8192]⟩ ⟨2, ![262144, 2]⟩ ⟨1, ![262144]⟩ [] [0, 1] [0, 1] 1)
    (E : IVec ⟨2, ![2, 262144]⟩ 32) (x : (⟨2, ![8192, 8192]⟩ : Shape).Idx → EReal) (idx : IVec ⟨2, ![262144, 2]⟩ 32)
    (upd : (⟨1, ![262144]⟩ : Shape).Idx → EReal) (hx : ∀ i, x i = 0) (hu : ∀ j, upd j = 1)
    (hidx : ∀ (j : Fin 262144) (a : Fin 2), idx (ix2 j a) = edgeWord E a j) :
    Ideal.hostScatterAdd (Cert.RefSide.sd 8192 8192 262144 wf) x idx upd = adj E := by
  funext i
  obtain ⟨r, c, rfl⟩ : ∃ (r c : Fin 8192), i = ix2 r c := ⟨i 0, i 1, eq_ix2 i⟩
  rw [Cert.RefSide.sd_scatterAdd_apply, hx, zero_add, adj_apply]
  unfold adjEntry edgesAt
  refine Finset.sum_congr (Finset.filter_congr fun j _ => ?_) fun j _ => hu j
  have h0 : idx (ix2 (j 0) 0) = edgeWord E 0 (j 0) := hidx (j 0) 0
  have h1 : idx (ix2 (j 0) 1) = edgeWord E 1 (j 0) := hidx (j 0) 1
  rw [h0, h1]

/-! ## Every entry and every column sum is a non-negative real -/

theorem adjEntry_nonneg_real (E : IVec ⟨2, ![2, 262144]⟩ 32) (r c : Fin 8192) :
    ∃ x : ℝ, 0 ≤ x ∧ adjEntry E r c = (x : EReal) := by
  refine ⟨∑ _j ∈ edgesAt E r c, (1 : ℝ), Finset.sum_nonneg fun _ _ => zero_le_one, ?_⟩
  rw [LibRealSum.coe_sum]
  rfl

theorem adj_nonneg_real (E : IVec ⟨2, ![2, 262144]⟩ 32) (r c : Fin 8192) :
    ∃ x : ℝ, 0 ≤ x ∧ adj E (ix2 r c) = (x : EReal) := adjEntry_nonneg_real E r c

theorem colSum_adj_real (E : IVec ⟨2, ![2, 262144]⟩ 32) (j : Fin 8192) :
    ∃ x : ℝ, 0 ≤ x ∧ colSum (adj E) j = (x : EReal) := by
  choose f hf0 hf using fun i : Fin 8192 => adj_nonneg_real E i j
  refine ⟨∑ i : Fin 8192, f i, Finset.sum_nonneg fun i _ => hf0 i, ?_⟩
  unfold colSum
  rw [LibRealSum.coe_sum]
  exact Finset.sum_congr rfl fun i _ => hf i

/-! ## The literals, and the power with exponent -1/2 -/

/-- The word `0x3F800000` denotes `1`. -/
theorem one_f32 : Ideal.ofBits .f32 0x3F800000#32 = 1 := by
  simp [Ideal.ofBits, Ideal.ieee, -EReal.coe_mul]; norm_num

/-- The word `0xBF000000` denotes `-1/2`. -/
theorem neg_half_f32 : Ideal.ofBits .f32 0xBF000000#32 = ((-(1 / 2) : ℝ) : EReal) := by
  simp [Ideal.ofBits, Ideal.ieee, -EReal.coe_mul]; norm_num

/-- On a positive real the power with exponent -1/2 is the inverse of the square root. -/
theorem pow_neg_half_eq_rsqrt (x : ℝ) (hx : 0 < x) :
    Ideal.pow (x : EReal) (Ideal.ofBits .f32 0xBF000000#32) = Ideal.rsqrt (x : EReal) := by
  rw [neg_half_f32, Ideal.pow_coe_coe, Ideal.rsqrt_coe, if_neg (not_lt.2 hx.le), if_neg hx.ne']
  congr 1
  show x ^ (-(1 / 2) : ℝ) = (Real.sqrt x)⁻¹
  rw [Real.rpow_neg hx.le, Real.sqrt_eq_rpow]

/-- The degree of a node is a real that is at least one, so its power with exponent -1/2 is its inverse square root. -/
theorem pow_degree_eq_dis (E : IVec ⟨2, ![2, 262144]⟩ 32) (j : Fin 8192) :
    Ideal.pow (colSum (adj E) j + 1) (Ideal.ofBits .f32 0xBF000000#32) = dis (adj E) j := by
  obtain ⟨x, hx0, hx⟩ := colSum_adj_real E j
  unfold dis
  rw [hx, ← EReal.coe_one, ← EReal.coe_add]
  exact pow_neg_half_eq_rsqrt (x + 1) (by linarith)

end Cert.Gcn

end
-- ==== Proof.RefAdj.lean ====
/-
  The reference's scatter is the adjacency matrix of the edge list.

  The reference cuts the two rows out of the edge list, moves a negative word up by 8192 in each (a compare with zero,
  an add and a select), lays the two adjusted rows side by side as the columns of a 262144 × 2 index array, and scatters
  a vector of ones into a zero matrix at those indices. Read at an entry, the scatter is the number of edges whose two
  adjusted words name that entry.
-/
import proofs.«154144_j58067957842338_1_alg».proof.Proof.Gen.ReferenceIdeal.Read
import proofs.«154144_j58067957842338_1_alg».proof.Proof.Spec
import proofs.«154144_j58067957842338_1_alg».proof.Proof.Adj

noncomputable section

open scoped BigOperators

namespace Cert.Gcn.Ref

open Idealize.ShloMosaic Idealize.ShloMosaic.ValueIdx Cert.ReferenceIdeal Cert.ReferenceIdeal.Gen Cert.ReferenceIdeal.Read
open Cert.Gcn

/-- The first adjusted row at edge `j`. -/
theorem row0_apply (E : IVec ⟨2, ![2, 262144]⟩ 32) (j : Fin 262144) :
    val_main_v9 (F := Ideal) E (ix1 j) = edgeWord E 0 j := by
  rw [val_main_v9_apply, val_main_v6_apply, val_main_v8_apply, val_main_v5_apply, val_main_v7_apply, val_main_c_apply,
    val_main_c_0_apply, select_slt_add, val_main_v2_apply, val_main_v1_apply]
  unfold edgeWord
  refine congrArg (fun k => wrapWord (E k)) (funext fun a => Fin.ext ?_)
  match a with
  | ⟨0, _⟩ => rfl
  | ⟨1, _⟩ => exact Nat.mod_eq_of_lt j.isLt

/-- The second adjusted row at edge `j`. -/
theorem row1_apply (E : IVec ⟨2, ![2, 262144]⟩ 32) (j : Fin 262144) :
    val_main_v14 (F := Ideal) E (ix1 j) = edgeWord E 1 j := by
  rw [val_main_v14_apply, val_main_v11_apply, val_main_v13_apply, val_main_v10_apply, val_main_v12_apply, val_main_c_1_apply,
    val_main_c_2_apply, select_slt_add, val_main_v4_apply, val_main_v3_apply]
  unfold edgeWord
  refine congrArg (fun k => wrapWord (E k)) (funext fun a => Fin.ext ?_)
  match a with
  | ⟨0, _⟩ => rfl
  | ⟨1, _⟩ => exact Nat.mod_eq_of_lt j.isLt

/-- The index array: row `j` holds the two adjusted words of edge `j`. -/
theorem index_apply (E : IVec ⟨2, ![2, 262144]⟩ 32) (j : Fin 262144) (a : Fin 2) :
    val_main_v17 (F := Ideal) E (ix2 j a) = edgeWord E a j := by
  unfold val_main_v17
  match a with
  | ⟨0, _⟩ =>
    refine (concatenate_pair_apply_left 1 _ _ concatenates_S262144x1_S262144x1_S262144x2_d1 (ix2 j 0) rfl
      (ix2 j 0) (fun b => by match b with | ⟨0, _⟩ => rfl | ⟨1, _⟩ => rfl)).trans ?_
    rw [val_main_v15_apply]
    exact row0_apply E j
  | ⟨1, _⟩ =>
    refine (concatenate_pair_apply_right 1 _ _ concatenates_S262144x1_S262144x1_S262144x2_d1 (ix2 j 1) rfl rfl
      (ix2 j 0) (fun b hb => by match b with | ⟨0, _⟩ => rfl | ⟨1, _⟩ => exact absurd rfl hb) rfl).trans ?_
    rw [val_main_v16_apply]
    exact row1_apply E j

/-- The reference's scatter is the adjacency matrix. -/
theorem ref_adj (E : IVec ⟨2, ![2, 262144]⟩ 32) : val_main_v19 (F := Ideal) E = adj E := by
  unfold val_main_v19
  simp only [Host.scatterAdd, Ideal.hostScatterAdd_def]
  refine scatter_ones_eq_adj scatter_S8192x8192_S262144x2_S262144_n_01_01_1_wf E _ _ _ (fun i => ?_) (fun j => ?_)
    (index_apply E)
  · rw [val_main_v0_apply, val_main_cst_apply, Ideal.ofBits_def, Ideal.ofBits_zero_f32]
  · rw [val_main_v18_apply, val_main_cst_3_apply, Ideal.ofBits_def, one_f32]

end Cert.Gcn.Ref

end
-- ==== Proof.KiHost.lean ====
/-
  The host operations of the kernel program, read at the extended reals.

  Before its first region the kernel program builds the adjacency matrix on the host by the same chain of operations as
  the reference: the two rows of the edge list, a negative word moved up by 8192 in each, the two adjusted rows laid
  side by side as an index array, and a scatter of ones into a zero matrix. The two chains differ only in the proofs of
  their shape conditions, so the kernel program's term is the reference's stage, and that stage is the adjacency matrix
  of the edge list. Between its regions the program re-lays a row of 8192 numbers as a column and the bias column as a
  row; a re-laid array holds the same numbers in the same row-major order.
-/
import proofs.«154144_j58067957842338_1_alg».proof.Proof.Gen.KernelIdeal.Launch
import Idealize.ShloMosaic.Lib.StableHlo.Run
import Idealize.ShloMosaic.Lib.Pipeline.Value
import proofs.«154144_j58067957842338_1_alg».proof.Proof.Spec
import proofs.«154144_j58067957842338_1_alg».proof.Proof.Adj
import proofs.«154144_j58067957842338_1_alg».proof.Proof.RefAdj

noncomputable section

namespace Cert.KernelIdeal.HostGlue

open Idealize.ShloMosaic Idealize.ShloMosaic.ValueIdx Idealize.ShloMosaic.StableHlo
open Cert.KernelIdeal Cert.KernelIdeal.Gen

/-- After the first stretch of host operations the scatter's result is the adjacency matrix of the edge list. -/
theorem adj_built (W : Valuation Cert.KernelIdeal.τ Cert.KernelIdeal.sig (Elt Ideal)) :
    StableHlo.after (hostOps0 (F := Ideal)) W (Proc.devRef .tc main_v19) = Cert.Gcn.adj (W (Proc.devRef .tc main_arg3)) := by
  after_results_simp
  exact Cert.Gcn.Ref.ref_adj _

/-- The first stretch of host operations leaves the four arguments as they were. -/
theorem args_kept0 (W : Valuation Cert.KernelIdeal.τ Cert.KernelIdeal.sig (Elt Ideal)) :
    StableHlo.after (hostOps0 (F := Ideal)) W (Proc.devRef .tc main_arg0) = W (Proc.devRef .tc main_arg0)
    ∧ StableHlo.after (hostOps0 (F := Ideal)) W (Proc.devRef .tc main_arg1) = W (Proc.devRef .tc main_arg1)
    ∧ StableHlo.after (hostOps0 (F := Ideal)) W (Proc.devRef .tc main_arg2) = W (Proc.devRef .tc main_arg2)
    ∧ StableHlo.after (hostOps0 (F := Ideal)) W (Proc.devRef .tc main_arg3) = W (Proc.devRef .tc main_arg3) := by
  refine ⟨?_, ?_, ?_, ?_⟩ <;> after_results_simp

/-- The row of 8192 numbers re-laid as a column: entry `j` of the column is entry `j` of the row. -/
theorem rowScale_built (W : Valuation Cert.KernelIdeal.τ Cert.KernelIdeal.sig (Elt Ideal)) (j : Fin 8192) :
    StableHlo.after (hostOps2 (F := Ideal)) W (Proc.devRef .tc main_v22) (ix2 j (0 : Fin 1))
      = W (Proc.devRef .tc main_v21) (ix2 (0 : Fin 1) j) := by
  have e : StableHlo.after (hostOps2 (F := Ideal)) W (Proc.devRef .tc main_v22)
      = shapeCast S8192x1 (W (Proc.devRef .tc main_v21)) shapeCasts_S1x8192_S8192x1 := by
    after_results_simp
    rfl
  rw [e]
  exact shapeCast_apply _ shapeCasts_S1x8192_S8192x1 (ix2 j (0 : Fin 1)) (ix2 (0 : Fin 1) j)
    (by rewrite [Shape.rowMajor_val_two, Shape.rowMajor_val_two]; show 0 * 8192 + j.val = j.val * 1 + 0; omega)

/-- The bias column re-laid as a row: entry `c` of the row is entry `c` of the column. -/
theorem biasRow_built (W : Valuation Cert.KernelIdeal.τ Cert.KernelIdeal.sig (Elt Ideal)) (c : Fin 256) :
    StableHlo.after (hostOps2 (F := Ideal)) W (Proc.devRef .tc main_v23) (ix2 (0 : Fin 1) c)
      = W (Proc.devRef .tc main_arg2) (ix2 c (0 : Fin 1)) := by
  have e : StableHlo.after (hostOps2 (F := Ideal)) W (Proc.devRef .tc main_v23)
      = shapeCast S1x256 (W (Proc.devRef .tc main_arg2)) shapeCasts_S256x1_S1x256 := by
    after_results_simp
    rfl
  rw [e]
  exact shapeCast_apply _ shapeCasts_S256x1_S1x256 (ix2 (0 : Fin 1) c) (ix2 c (0 : Fin 1))
    (by rewrite [Shape.rowMajor_val_two, Shape.rowMajor_val_two]; show c.val * 1 + 0 = 0 * 256 + c.val; omega)

end Cert.KernelIdeal.HostGlue

end
-- ==== Proof.KiValue.lean ====
/-
  The kernel program's result on the extended reals. Following the buffers through the program: the host operations
  leave the adjacency matrix `A`; the first region leaves the projected features; the second the row of inverse square
  roots of the column degrees, which a reshape also lays out as a column; a reshape lays the bias out as a row; the third
  region leaves, block by block, the layer's output of those arrays. Substituting each array's contents gives the
  specification's function of the arguments.
-/
import proofs.«154144_j58067957842338_1_alg».proof.Proof.Gen.KernelIdeal.Launch
import proofs.«154144_j58067957842338_1_alg».proof.Proof.Gen.KernelIdeal.Skeleton
import proofs.«154144_j58067957842338_1_alg».proof.Proof.Gen.KernelIdeal.Points
import proofs.«154144_j58067957842338_1_alg».proof.Proof.KiRun
import proofs.«154144_j58067957842338_1_alg».proof.Proof.KiProjectIdeal
import proofs.«154144_j58067957842338_1_alg».proof.Proof.KiDegreeIdeal
import proofs.«154144_j58067957842338_1_alg».proof.Proof.KiScaleIdeal
import proofs.«154144_j58067957842338_1_alg».proof.Proof.KiHost
import proofs.«154144_j58067957842338_1_alg».proof.Proof.Spec
import proofs.«154144_j58067957842338_1_alg».proof.Proof.Adj
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Gcn

variable (m : (ℓ : Loc nD τ sig) → Buf (Elt Ideal) ℓ)

/-! ## After the host operations -/

theorem V1_adj (c : Dev nD) : V1 m c main_v19 = adj (m ((c : Thread nD τ).loc main_arg3)) :=
  Cert.KernelIdeal.HostGlue.adj_built (W0 m c)
theorem V1_arg0 (c : Dev nD) : V1 m c main_arg0 = m ((c : Thread nD τ).loc main_arg0) := (Cert.KernelIdeal.HostGlue.args_kept0 (W0 m c)).1
theorem V1_arg1 (c : Dev nD) : V1 m c main_arg1 = m ((c : Thread nD τ).loc main_arg1) := (Cert.KernelIdeal.HostGlue.args_kept0 (W0 m c)).2.1
theorem V1_arg2 (c : Dev nD) : V1 m c main_arg2 = m ((c : Thread nD τ).loc main_arg2) := (Cert.KernelIdeal.HostGlue.args_kept0 (W0 m c)).2.2.1

/-! ## After the first region -/

theorem V2_adj (c : Dev nD) : V2 m c main_v19 = adj (m ((c : Thread nD τ).loc main_arg3)) :=
  (W2_of_ne m c main_v19 (by decide)).trans (V1_adj m c)
theorem V2_arg2 (c : Dev nD) : V2 m c main_arg2 = m ((c : Thread nD τ).loc main_arg2) :=
  (W2_of_ne m c main_arg2 (by decide)).trans (V1_arg2 m c)
theorem V2_feat (c : Dev nD) : V2 m c main_v20 = Project.projArr (V1 m) c :=
  (W2_arr m c 2).trans (Project.final (V1 m) c)

/-! ## After the second region -/

theorem V3_adj (c : Dev nD) : V3 m c main_v19 = adj (m ((c : Thread nD τ).loc main_arg3)) :=
  (W3_arr m c 0).trans (((Degree.dat (V2 m) c).arrAt_in 0 rfl _).trans ((Degree.A_eq (V2 m) c 0).trans (V2_adj m c)))
theorem V3_arg2 (c : Dev nD) : V3 m c main_arg2 = m ((c : Thread nD τ).loc main_arg2) :=
  (W3_of_ne m c main_arg2 (by decide)).trans (V2_arg2 m c)
theorem V3_feat (c : Dev nD) : V3 m c main_v20 = Project.projArr (V1 m) c :=
  (W3_of_ne m c main_v20 (by decide)).trans (V2_feat m c)
theorem V3_scale (c : Dev nD) (j : Fin 8192) :
    (V3 m c main_v21 : S1x8192.Idx → EReal) (ix2 (0 : Fin 1) j) = dis (adj (m ((c : Thread nD τ).loc main_arg3))) j := by
  rw [show V3 m c main_v21 = Degree.result (V2 m) c from (W3_arr m c 1).trans (Degree.final (V2 m) c)]
  rw [Degree.result_apply (V2 m) c j, V2_adj]

/-! ## After the two reshapes -/

theorem V4_adj (c : Dev nD) : V4 m c main_v19 = adj (m ((c : Thread nD τ).loc main_arg3)) :=
  (StableHlo.after_of_writes_sub hostOps2 _ hostOps2_writes (by decide)).trans (V3_adj m c)
theorem V4_feat (c : Dev nD) : V4 m c main_v20 = Project.projArr (V1 m) c :=
  (StableHlo.after_of_writes_sub hostOps2 _ hostOps2_writes (by decide)).trans (V3_feat m c)
theorem V4_colScale (c : Dev nD) (j : Fin 8192) :
    (V4 m c main_v21 : S1x8192.Idx → EReal) (ix2 (0 : Fin 1) j) = dis (adj (m ((c : Thread nD τ).loc main_arg3))) j := by
  rw [show V4 m c main_v21 = V3 m c main_v21 from StableHlo.after_of_writes_sub hostOps2 _ hostOps2_writes (by decide)]
  exact V3_scale m c j
theorem V4_rowScale (c : Dev nD) (j : Fin 8192) :
    (V4 m c main_v22 : S8192x1.Idx → EReal) (ix2 j (0 : Fin 1)) = dis (adj (m ((c : Thread nD τ).loc main_arg3))) j :=
  (Cert.KernelIdeal.HostGlue.rowScale_built (W3 m c) j).trans (V3_scale m c j)
theorem V4_bias (c : Dev nD) (c' : Fin 256) :
    (V4 m c main_v23 : S1x256.Idx → EReal) (ix2 (0 : Fin 1) c') = (m ((c : Thread nD τ).loc main_arg2) : S256x1.Idx → EReal) (ix2 c' (0 : Fin 1)) :=
  (Cert.KernelIdeal.HostGlue.biasRow_built (W3 m c) c').trans (by rw [show W3 m c (Proc.devRef .tc main_arg2) = V3 m c main_arg2 from rfl, V3_arg2])

/-! ## The result -/

/-- The third region's entry is the specification's, once each array it reads is known: the adjacency matrix, the
    projected features, the inverse square roots of the degrees laid out as a column and as a row, the bias as a row. -/
theorem entry_eq_out (A : Adj) (H : Feat) (W : Wt) (b : Bias)
    (A' : S8192x8192.Idx → EReal) (HW : S8192x256.Idx → EReal) (dr : S8192x1.Idx → EReal) (dc : S1x8192.Idx → EReal) (bb : S1x256.Idx → EReal)
    (hA : A' = A) (hHW : ∀ (j : Fin 8192) (q : Fin 256), HW (ix2 j q) = proj H W j q)
    (hdr : ∀ r : Fin 8192, dr (ix2 r (0 : Fin 1)) = dis A r) (hdc : ∀ j : Fin 8192, dc (ix2 (0 : Fin 1) j) = dis A j)
    (hbb : ∀ q : Fin 256, bb (ix2 (0 : Fin 1) q) = b (ix2 q (0 : Fin 1))) (r : Fin 8192) (q : Fin 256) :
    Scale.entry A' HW dr dc bb r q = out A H W b r q := by
  subst hA
  unfold Scale.entry Cert.Gcn.out
  rw [hbb q, hdr r]
  congr 1
  refine Finset.sum_congr rfl fun j _ => ?_
  rw [hdc j, hHW j q]

/-- The result buffer ends at the specification's function of the arguments. -/
theorem result_eq (c : Dev nD) :
    W5 m c (Proc.devRef .tc main_v24)
      = G (adj (m ((c : Thread nD τ).loc main_arg3))) (m ((c : Thread nD τ).loc main_arg0)) (m ((c : Thread nD τ).loc main_arg1)) (m ((c : Thread nD τ).loc main_arg2)) := by
  rw [W5_arr m c 5, Scale.final (V4 m) c]
  funext i
  obtain ⟨r, q, rfl⟩ : ∃ (r : Fin 8192) (q : Fin 256), i = ix2 r q := ⟨i 0, i 1, eq_ix2 i⟩
  show Scale.entry (V4 m c main_v19) (V4 m c main_v20) (V4 m c main_v22) (V4 m c main_v21) (V4 m c main_v23) r q
    = out (adj (m ((c : Thread nD τ).loc main_arg3))) (m ((c : Thread nD τ).loc main_arg0)) (m ((c : Thread nD τ).loc main_arg1)) (m ((c : Thread nD τ).loc main_arg2)) r q
  refine entry_eq_out _ _ _ _ _ _ _ _ _ (V4_adj m c) (fun j q' => ?_) (V4_rowScale m c) (V4_colScale m c) (V4_bias m c) r q
  refine (congrFun (V4_feat m c) (ix2 j q')).trans ((Project.projArr_apply (V1 m) c j q').trans ?_)
  rw [V1_arg0 m c, V1_arg1 m c]

/-- Every weakly fair execution of the kernel program at the ideal level terminates with the result at the specification's
    function of the arguments and the arguments as launched. -/
theorem value_run (ρ : Dev nD → PrngReg) : θ_run defs (onTc (τ := τ) (main (F := Ideal))) ⟨m, fun _ => 0, ρ⟩ (fun r => ∀ c : Dev nD,
      r.2.mem ((c.tc : Thread nD τ).loc main_v24)
        = G (adj (m ((c.tc : Thread nD τ).loc main_arg3))) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v24 (by decide))).trans (result_eq m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run m ρ)

end Cert.KernelIdeal.Whole

end
-- ==== Proof.RefValue.lean ====
/-
  The reference's result is the specification's function of the adjacency matrix of the edge list.

  Stage by stage: the scatter is the adjacency matrix; adding the identity matrix adds the self loops; the sum down a
  column of that is the column sum plus one (the one self loop in the column), a real that is at least one, so its power
  with exponent -1/2 is the inverse square root of the degree; the scaled matrix entry is the entry times the two inverse
  square roots; the two matrix products and the bias are the specification's sums, term by term. Only the sum of the
  self loops is re-associated; nothing is distributed, so no entry needs to be finite.
-/
import proofs.«154144_j58067957842338_1_alg».proof.Proof.Gen.ReferenceIdeal.Read
import proofs.«154144_j58067957842338_1_alg».proof.Proof.Spec
import proofs.«154144_j58067957842338_1_alg».proof.Proof.Adj
import proofs.«154144_j58067957842338_1_alg».proof.Proof.RefAdj

noncomputable section

open scoped BigOperators

namespace Cert.Gcn.Ref

open Idealize.ShloMosaic Idealize.ShloMosaic.ValueIdx Cert.ReferenceIdeal Cert.ReferenceIdeal.Gen Cert.ReferenceIdeal.Read
open Cert.Gcn

/-! ## The identity matrix -/

/-- Two node numbers are the same 32-bit word exactly when they are the same node. -/
theorem word_eq_iff (r k : Fin 8192) : BitVec.ofNat 32 r.val + 0#32 = BitVec.ofNat 32 k.val ↔ r = k := by
  constructor
  · intro h
    have h' := congrArg BitVec.toNat h
    simp only [BitVec.add_zero, BitVec.toNat_ofNat] at h'
    have := r.isLt
    have := k.isLt
    exact Fin.ext (by omega)
  · rintro rfl
    simp

/-- The comparison of the two coordinate counters, converted to a float, is the self loop. -/
theorem eye_apply (r k : Fin 8192) : val_main_v25 (F := Ideal) (ix2 r k) = selfLoop r k := by
  rw [val_main_v25_apply, val_main_v24_apply, val_main_v23_apply, val_main_v20_apply, val_main_v21_apply,
    val_main_v22_apply, val_main_c_4_apply]
  show (((BitVec.ofBool (BitVec.ofNat 32 r.val + 0#32 == BitVec.ofNat 32 k.val)).toNat : ℝ) : EReal) = selfLoop r k
  unfold selfLoop
  by_cases h : r = k
  · rw [if_pos h, (beq_iff_eq).2 ((word_eq_iff r k).2 h)]
    simp
  · rw [if_neg h, (beq_eq_false_iff_ne).2 (fun e => h ((word_eq_iff r k).1 e))]
    simp

/-! ## The degrees -/

/-- The adjacency matrix with the self loops added. -/
theorem selfadj_apply (E : IVec ⟨2, ![2, 262144]⟩ 32) (r k : Fin 8192) :
    val_main_v26 (F := Ideal) E (ix2 r k) = adj E (ix2 r k) + selfLoop r k := by
  rw [val_main_v26_apply, Ideal.addf_def, ref_adj, eye_apply]

/-- The sum down column `j` is the column sum plus the one self loop in the column. -/
theorem degree_apply (E : IVec ⟨2, ![2, 262144]⟩ 32) (j : Fin 8192) :
    val_main_v27 (F := Ideal) E (ix1 j) = colSum (adj E) j + 1 := by
  have hk : ∀ k : Fin 8192, val_main_v26 (F := Ideal) E (idx_main_v27 (ix1 j) k) = adj E (ix2 k j) + selfLoop k j := fun k => by
    have e : idx_main_v27 (ix1 j) k = ix2 k j :=
      funext fun a => Fin.ext (by match a with | ⟨0, _⟩ => rfl | ⟨1, _⟩ => rfl)
    rw [e, selfadj_apply]
  rw [val_main_v27_apply, val_main_cst_5_apply, Ideal.ofBits_def, Ideal.ofBits_zero_f32, zero_add,
    Finset.sum_congr rfl (fun k _ => hk k), Finset.sum_add_distrib]
  unfold colSum selfLoop
  rw [Finset.sum_ite_eq' Finset.univ j (fun _ => (1 : EReal)), if_pos (Finset.mem_univ j)]

/-- The power with exponent -1/2 of the degree is the inverse square root of the degree. -/
theorem dis_apply (E : IVec ⟨2, ![2, 262144]⟩ 32) (j : Fin 8192) :
    val_main_v29 (F := Ideal) E (ix1 j) = dis (adj E) j := by
  rw [val_main_v29_apply, Ideal.hostPowf_def, degree_apply, val_main_v28_apply, val_main_cst_6_apply, Ideal.ofBits_def]
  exact pow_degree_eq_dis E j

/-! ## The scaled matrix, the projection, the result -/

/-- An entry of the scaled matrix. -/
theorem scaled_apply (E : IVec ⟨2, ![2, 262144]⟩ 32) (r k : Fin 8192) :
    val_main_v35 (F := Ideal) E (ix2 r k) = (adj E (ix2 r k) + selfLoop r k) * dis (adj E) r * dis (adj E) k := by
  have e1 : idx_main_v30 (idx_main_v31 (ix2 r k)) = ix1 r :=
    funext fun a => Fin.ext (by match a with | ⟨0, _⟩ => rfl)
  have e2 : idx_main_v33 (idx_main_v34 (ix2 r k)) = ix1 k :=
    funext fun a => Fin.ext (by match a with | ⟨0, _⟩ => rfl)
  rw [val_main_v35_apply, val_main_v32_apply, Ideal.mulf_def, Ideal.mulf_def, selfadj_apply, val_main_v31_apply,
    val_main_v30_apply, e1, dis_apply, val_main_v34_apply, val_main_v33_apply, e2, dis_apply]

/-- An entry of the projected features. -/
theorem proj_apply (H : Feat) (W : Wt) (j : Fin 8192) (c : Fin 256) :
    val_main_v36 (F := Ideal) H W (ix2 j c) = proj H W j c := by
  rw [val_main_v36_apply]
  unfold proj
  refine Finset.sum_congr rfl fun d _ => ?_
  have el : lidx_main_v36 (ix2 j c) d = ix2 j d :=
    funext fun a => Fin.ext (by match a with | ⟨0, _⟩ => rfl | ⟨1, _⟩ => rfl)
  have er : ridx_main_v36 (ix2 j c) d = ix2 d c :=
    funext fun a => Fin.ext (by match a with | ⟨0, _⟩ => rfl | ⟨1, _⟩ => rfl)
  rw [el, er]

/-- The reference's result is the specification's function of the adjacency matrix of the edge list. -/
theorem ref_result (H : Feat) (W : Wt) (b : Bias) (E : IVec ⟨2, ![2, 262144]⟩ 32) :
    val_main_v40 (F := Ideal) H W b E = G (adj E) H W b := by
  funext i
  obtain ⟨r, c, rfl⟩ : ∃ (r : Fin 8192) (c : Fin 256), i = ix2 r c := ⟨i 0, i 1, eq_ix2 i⟩
  rw [G_apply, val_main_v40_apply, Ideal.addf_def, val_main_v37_apply, val_main_v39_apply, val_main_v38_apply]
  unfold out
  refine congrArg₂ (· + ·) (Finset.sum_congr rfl fun k _ => ?_) ?_
  · have el : lidx_main_v37 (ix2 r c) k = ix2 r k :=
      funext fun a => Fin.ext (by match a with | ⟨0, _⟩ => rfl | ⟨1, _⟩ => rfl)
    have er : ridx_main_v37 (ix2 r c) k = ix2 k c :=
      funext fun a => Fin.ext (by match a with | ⟨0, _⟩ => rfl | ⟨1, _⟩ => rfl)
    rw [el, er, scaled_apply, proj_apply]
  · exact congrArg b (funext fun a => Fin.ext (by match a with | ⟨0, _⟩ => rfl | ⟨1, _⟩ => rfl))

end Cert.Gcn.Ref

end
-- ==== Proof.RefRun.lean ====
/-
  The reference's run, with its result named by the specification.

  Every weakly fair execution of the reference terminates with its result array at the specification's function of the
  adjacency matrix of the edge list it was given, of the features, of the weights and of the bias, and with its four
  arguments unchanged. Dropping the result gives the reference's frame.
-/
import proofs.«154144_j58067957842338_1_alg».proof.Defs
import proofs.«154144_j58067957842338_1_alg».proof.Proof.Gen.ReferenceIdeal
import proofs.«154144_j58067957842338_1_alg».proof.Proof.Gen.Pre_finite_inputs
import proofs.«154144_j58067957842338_1_alg».proof.Proof.Gen.ReferenceIdeal.Read
import proofs.«154144_j58067957842338_1_alg».proof.Proof.RefValue

noncomputable section

namespace Cert.Gcn.Ref

open Idealize.ShloMosaic Idealize.ShloMosaic.TcCoe Idealize.SL.Sem
open Cert.Gcn

/-- The reference's run: the result is the specification's function of the arguments, the arguments are unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v40)
          = G (adj (m' ((c.tc : Thread Cert.ReferenceIdeal.nD Cert.ReferenceIdeal.τ).loc Cert.ReferenceIdeal.main_arg3))) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono
    (fun _ h c => ⟨(h c).1.trans ((Cert.ReferenceIdeal.Read.val_main_v40_eq m' c).trans (ref_result _ _ _ _)), (h c).2⟩)
    (Cert.ReferenceIdeal.Value.run (F := Ideal) m' ρ')

/-- The reference runs to the end and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.Gcn.Ref

end
-- ==== Proof.lean ====
/-
  The graph-convolution layer and its reference compute the same function on the extended reals.

  Both programs build the dense adjacency matrix `A` from the edge list by the same scatter of ones (every entry a
  count, so a non-negative real). The reference adds the identity, sums columns, raises the degrees to the power -1/2,
  scales rows and columns, multiplies by the projected features and adds the bias. The kernel program does the same in
  three kernel regions: the projection `H · W` row block by row block; the column sums accumulated over 32 blocks of
  rows in a scratch row, closed by `rsqrt (sums + 1)`; and the scaled product accumulated over the 8 tiles of each row
  block in a scratch block, the identity added on the diagonal tiles, closed by adding the bias. Entry by entry both are

    out r c = Σ_j ((A r j + [r = j]) · dis r · dis j) · (Σ_d H j d · W d c) + b c,    dis j = (Σ_i A i j + 1)^(-1/2):

  the column degree is at least one, where the power -1/2 and the inverse square root agree; splitting the column sum of
  `A + I` and regrouping the contracted axis into blocks use only that addition on the extended reals is commutative
  and associative, so no finiteness of the inputs is needed. The frames: each program runs to the end without a fault and
  leaves its arguments as launched — for the kernel program by following every unscoped buffer through the host
  operations and the three regions, at the word level and at the ideal level alike. The ideal pass rewrote nothing, so
  there is nothing to preserve.
-/
import proofs.«154144_j58067957842338_1_alg».proof.Defs
import proofs.«154144_j58067957842338_1_alg».proof.Proof.Gen.Kernel
import proofs.«154144_j58067957842338_1_alg».proof.Proof.Gen.KernelIdeal
import proofs.«154144_j58067957842338_1_alg».proof.Proof.Gen.ReferenceIdeal
import proofs.«154144_j58067957842338_1_alg».proof.Proof.Gen.Pre_finite_inputs
import proofs.«154144_j58067957842338_1_alg».proof.Proof.KeRun
import proofs.«154144_j58067957842338_1_alg».proof.Proof.KiValue
import proofs.«154144_j58067957842338_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Whole.frame (F := Bits) m ρ
theorem frame_ki : Cert.frame_KernelIdeal := fun m ρ _ => Cert.KernelIdeal.Whole.frame (F := Ideal) m ρ
theorem frame_ri : Cert.frame_ReferenceIdeal := Cert.Gcn.Ref.frame_ri

theorem preserves : Cert.preserves_Kernel_KernelIdeal := trivial

/-- Both idealized programs end with the layer's output `G` of the shared adjacency matrix and the arguments. -/
theorem algebraic : Cert.algebraic_KernelIdeal_ReferenceIdeal := by
  intro m ρ m' ρ' _ hagree
  refine ⟨fun c => Cert.Gcn.G (Cert.Gcn.adj (m ((c.tc : Thread Cert.KernelIdeal.nD Cert.KernelIdeal.τ).loc Cert.KernelIdeal.main_arg3)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.value_run m ρ, ?_⟩
  refine (θ_run Cert.ReferenceIdeal.defs _ _).mono (fun _ h c => ⟨?_, (h c).2⟩) (Cert.Gcn.Ref.ref_run m' ρ')
  rw [(h c).1, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
